-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S128x64x64 .f32 .bf16
  ∧ IdealRules.truncf_extf.Statement Cert.KernelIdeal.S128x64x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x16x64x64 : Shape := ⟨5, ![8, 64, 16, 64, 64]⟩
abbrev S64 : Shape := ⟨1, ![64]⟩
abbrev S_ : Shape := ⟨0, ![]⟩

class Facts : Prop where
  bcast_S_S8x64x16x64x64 : S_.BroadcastsInDim S8x64x16x64x64 (![] : Fin 0 → Fin S8x64x16x64x64.rank)
  reducesTo_S8x64x16x64x64_S_d0_1_2_3_4 : S8x64x16x64x64.ReducesTo [0, 1, 2, 3, 4] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8x64x16x64x64 .f32) (main_arg1 : FVec F S8x64x16x64x64 .f32) (main_arg2 : FVec F S8x64x16x64x64 .f32) (main_arg3 : FVec F S64 .f32) (main_arg4 : FVec F S64 .f32) : IVec S_ 1 :=
  let main_v0 : FVec F S8x64x16x64x64 .f32 := Host.absf main_arg0
  let main_cst : FVec F S_ .f32 := constant S_ .f32 0x7F800000#32
  let main_v1 : FVec F S8x64x16x64x64 .f32 := broadcastInDim S8x64x16x64x64 ![] bcast_S_S8x64x16x64x64 main_cst
  let main_v2 : IVec S8x64x16x64x64 1 := cmpf .olt main_v0 main_v1
  let main_c : IVec S_ 1 := constantI S_ 1 1#1
  let main_v3 : IVec S_ 1 := (fun x v => Host.reduce IntOp.andi x v reducesTo_S8x64x16x64x64_S_d0_1_2_3_4 h_S_) main_v2 main_c
  let main_v4 : FVec F S8x64x16x64x64 .f32 := Host.absf main_arg1
  let main_cst_0 : FVec F S_ .f32 := constant S_ .f32 0x7F800000#32
  let main_v5 : FVec F S8x64x16x64x64 .f32 := broadcastInDim S8x64x16x64x64 ![] bcast_S_S8x64x16x64x64 main_cst_0
  let main_v6 : IVec S8x64x16x64x64 1 := cmpf .olt main_v4 main_v5
  let main_c_1 : IVec S_ 1 := constantI S_ 1 1#1
  let main_v7 : IVec S_ 1 := (fun x v => Host.reduce IntOp.andi x v reducesTo_S8x64x16x64x64_S_d0_1_2_3_4 h_S_) main_v6 main_c_1
  let main_v8 : IVec S_ 1 := andi main_v3 main_v7
  let main_v9 : FVec F S8x64x16x64x64 .f32 := Host.absf main_arg2
  let main_cst_2 : FVec F S_ .f32 := constant S_ .f32 0x7F800000#32
  let main_v10 : FVec F S8x64x16x64x64 .f32 := broadcastInDim S8x64x16x64x64 ![] bcast_S_S8x64x16x64x64 main_cst_2
  let main_v11 : IVec S8x64x16x64x64 1 := cmpf .olt main_v9 main_v10
  let main_c_3 : IVec S_ 1 := constantI S_ 1 1#1
  let main_v12 : IVec S_ 1 := (fun x v => Host.reduce IntOp.andi x v reducesTo_S8x64x16x64x64_S_d0_1_2_3_4 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S8x64x16x64x64 : Shape := ⟨5, ![8, 64, 16, 64, 64]⟩
abbrev S64 : Shape := ⟨1, ![64]⟩
abbrev S8x1x64 : Shape := ⟨3, ![8, 1, 64]⟩
abbrev S1x64x2x64x64 : Shape := ⟨5, ![1, 64, 2, 64, 64]⟩
abbrev S1x1x64 : Shape := ⟨3, ![1, 1, 64]⟩
abbrev S64x2x64x64 : Shape := ⟨4, ![64, 2, 64, 64]⟩
abbrev S128x64x64 : Shape := ⟨3, ![128, 64, 64]⟩
abbrev S64x2x64 : Shape := ⟨3, ![64, 2, 64]⟩
abbrev S64x2x64x1 : Shape := ⟨4, ![64, 2, 64, 1]⟩
abbrev S8x64 : Shape := ⟨2, ![8, 64]⟩
abbrev S_ : Shape := ⟨0, ![]⟩
abbrev S64x1 : Shape := ⟨2, ![64, 1]⟩
abbrev S8x64x65536 : Shape := ⟨3, ![8, 64, 65536]⟩
abbrev S1x64x32768 : Shape := ⟨3, ![1, 64, 32768]⟩
abbrev S64x32768 : Shape := ⟨2, ![64, 32768]⟩

abbrev nBuf : Space → Nat
  | .hbm => 34
  | .vmem => 18
  | .smem => 0
  | _ => 0

abbrev bufTy : (tb : Table) → Fin (tcTables nBuf tb) → BufTy
  | .hbm, ⟨0, _⟩ => ⟨S8x64x16x64x64, .f32⟩
  | .hbm, ⟨1, _⟩ => ⟨S8x64x16x64x64, .f32⟩
  | .hbm, ⟨2, _⟩ => ⟨S8x64x16x64x64, .f32⟩
  | .hbm, ⟨3, _⟩ => ⟨S64, .f32⟩
  | .hbm, ⟨4, _⟩ => ⟨S64, .f32⟩
  | .hbm, ⟨5, _⟩ => ⟨S8x64x16x64x64, .f32⟩
  | .hbm, ⟨6, _⟩ => ⟨S8x1x64, .f32⟩
  | .hbm, ⟨7, _⟩ => ⟨S8x1x64, .f32⟩
  | .hbm, ⟨8, _⟩ => ⟨S8x64, .f32⟩
  | .hbm, ⟨9, _⟩ => ⟨S_, .f32⟩
  | .hbm, ⟨10, _⟩ => ⟨S64, .f32⟩
  | .hbm, ⟨11, _⟩ => ⟨S8x64, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S64x1, .f32⟩
  | .hbm, ⟨30, _⟩ => ⟨S64x1, .f32⟩
  | .hbm, ⟨31, _⟩ => ⟨S8x64x65536, .f32⟩
  | .hbm, ⟨32, _⟩ => ⟨S8x64x65536, .f32⟩
  | .hbm, ⟨33, _⟩ => ⟨S8x64x16x64x64, .f32⟩
  | .local _ .vmem, ⟨0, _⟩ => ⟨S1x64x2x64x64, .f32⟩
  | .local _ .vmem, ⟨1, _⟩ => ⟨S1x64x2x64x64, .f32⟩
  | .local _ .vmem, ⟨2, _⟩ => ⟨S1x64x2x64x64, .f32⟩
  | .local _ .vmem, ⟨3, _⟩ => ⟨S1x64x2x64x64, .f32⟩
  | .local _ .vmem, ⟨4, _⟩ => ⟨S1x64x2x64x64, .f32⟩
  | .local _ .vmem, ⟨5, _⟩ => ⟨S1x64x2x64x64, .f32⟩
  | .local _ .vmem, ⟨6, _⟩ => ⟨S1x64x2x64x64, .f32⟩
  | .local _ .vmem, ⟨7, _⟩ => ⟨S1x64x2x64x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x64x32768, .f32⟩
  | .local _ .vmem, ⟨13, _⟩ => ⟨S1x64x32768, .f32⟩
  | .local _ .vmem, ⟨14, _⟩ => ⟨S64x1, .f32⟩
  | .local _ .vmem, ⟨15, _⟩ => ⟨S64x1, .f32⟩
  | .local _ .vmem, ⟨16, _⟩ => ⟨S1x64x32768, .f32⟩
  | .local _ .vmem, ⟨17, _⟩ => ⟨S1x64x32768, .f32⟩
  | _, _ => ⟨S8x64x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x64x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x64x32768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S1x1x64 : S64.ShapeCasts S1x1x64
  inb_S1x64x2x64x64_S1x64x2x64x64_0_0_0_0_0 : ∀ a, (![0, 0, 0, 0, 0] : Fin 5 → Nat) a + S1x64x2x64x64.size a ≤ S1x64x2x64x64.size a
  h_S1x64x2x64x64 : 0 < S1x64x2x64x64.numel
  shapeCasts_S1x64x2x64x64_S64x2x64x64 : S1x64x2x64x64.ShapeCasts S64x2x64x64
  shapeCasts_S64x2x64x64_S128x64x64 : S64x2x64x64.ShapeCasts S128x64x64
  bitsLt_bf16_f32 : FTy.bits .bf16 < FTy.bits .f32
  shapeCasts_S128x64x64_S64x2x64x64 : S128x64x64.ShapeCasts S64x2x64x64
  reduces_S64x2x64x64_S64x2x64 : S64x2x64x64.Reduces [3] S64x2x64
  shapeCasts_S64x2x64_S64x2x64x1 : S64x2x64.ShapeCasts S64x2x64x1
  broadcasts_S64x2x64x1_S64x2x64x64 : S64x2x64x1.Broadcasts S64x2x64x64
  shapeCasts_S64x2x64x64_S1x64x2x64x64 : S64x2x64x64.ShapeCasts S1x64x2x64x64
  reduces_S64x2x64x64_S64 : S64x2x64x64.Reduces [1, 2, 3] S64
  shapeCasts_S8x1x64_S8x64 : S8x1x64.ShapeCasts S8x64
  reducesTo_S8x64_S64_d0 : S8x64.ReducesTo [0] S64
  h_S_ : 0 < S_.numel
  bcast_S_S64 : S_.BroadcastsInDim S64 (![] : Fin 0 → Fin S64.rank)
  shapeCasts_S64_S64x1 : S64.ShapeCasts S64x1
  shapeCasts_S8x64x16x64x64_S8x64x65536 : S8x64x16x64x64.ShapeCasts S8x64x65536
  inb_S1x64x32768_S1x64x32768_0_0_0 : ∀ a, (![0, 0, 0] : Fin 3 → Nat) a + S1x64x32768.size a ≤ S1x64x32768.size a
  h_S1x64x32768 : 0 < S1x64x32768.numel
  shapeCasts_S1x64x32768_S64x32768 : S1x64x32768.ShapeCasts S64x32768
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x32768 : S64x1.Broadcasts S64x32768
  shapeCasts_S64x32768_S1x64x32768 : S64x32768.ShapeCasts S1x64x32768
  shapeCasts_S8x64x65536_S8x64x16x64x64 : S8x64x65536.ShapeCasts S8x64x16x64x64
  dot_S128x64x64_S128x64x64_S128x64x64_2_1_1_2_0_0_wf : DotDims.WF S128x64x64 S128x64x64 S128x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2x64x64.size a ≤ S8x64x16x64x64.size a
  hwx0_0 : ∀ i : grid0.Coords, EltTy.bits .f32 = 32 ∨ (Rect.block (s := S8x64x16x64x64) S1x64x2x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2x64x64.size a ≤ S8x64x16x64x64.size a
  hwx0_1 : ∀ i : grid0.Coords, EltTy.bits .f32 = 32 ∨ (Rect.block (s := S8x64x16x64x64) S1x64x2x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2x64x64.size a ≤ S8x64x16x64x64.size a
  hwx0_2 : ∀ i : grid0.Coords, EltTy.bits .f32 = 32 ∨ (Rect.block (s := S8x64x16x64x64) S1x64x2x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x2x64x64.size a ≤ S8x64x16x64x64.size a
  hwx0_3 : ∀ i : grid0.Coords, EltTy.bits .f32 = 32 ∨ (Rect.block (s := S8x64x16x64x64) S1x64x2x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S8x1x64.size a
  hwx0_4 : ∀ i : grid0.Coords, EltTy.bits .f32 = 32 ∨ (Rect.block (s := S8x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S8x1x64.size a
  hwx0_5 : ∀ i : grid0.Coords, EltTy.bits .f32 = 32 ∨ (Rect.block (s := S8x1x64) S1x1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x32768.size a ≤ S8x64x65536.size a
  hwx1_0 : ∀ i : grid1.Coords, EltTy.bits .f32 = 32 ∨ (Rect.block (s := S8x64x65536) S1x64x32768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x32768.size a ≤ S8x64x65536.size a
  hwx1_3 : ∀ i : grid1.Coords, EltTy.bits .f32 = 32 ∨ (Rect.block (s := S8x64x65536) S1x64x32768.size (cc1_transform_3 i) (hinb1_3 i)).WholeWords (EltTy.packing .f32)

variable [Facts₀]

def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf

abbrev win0_0 : Pipeline.Window sig grid0 :=
  Pipeline.Window.ofSpec (Memref.whole main_arg0) S1x64x2x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x2x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x2x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x64x2x64x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S1x64x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64x32768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where
  halias1_3 : Pipeline.Aliased win1 0 3

variable [Facts]
-- ==== ReferenceIdeal.lean ====
abbrev S8x64x16x64x64 : Shape := ⟨5, ![8, 64, 16, 64, 64]⟩
abbrev S64 : Shape := ⟨1, ![64]⟩
abbrev S_ : Shape := ⟨0, ![]⟩
abbrev S8x64x16x64 : Shape := ⟨4, ![8, 64, 16, 64]⟩
abbrev S8x64x16x64x1 : Shape := ⟨5, ![8, 64, 16, 64, 1]⟩
abbrev S1x64x1x1x1 : Shape := ⟨5, ![1, 64, 1, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S8x64x16x64x64, .f32⟩
  | .hbm, ⟨1, _⟩ => ⟨S8x64x16x64x64, .f32⟩
  | .hbm, ⟨2, _⟩ => ⟨S8x64x16x64x64, .f32⟩
  | .hbm, ⟨3, _⟩ => ⟨S64, .f32⟩
  | .hbm, ⟨4, _⟩ => ⟨S64, .f32⟩
  | .hbm, ⟨5, _⟩ => ⟨S8x64x16x64x64, .f32⟩
  | .hbm, ⟨6, _⟩ => ⟨S_, .f32⟩
  | .hbm, ⟨7, _⟩ => ⟨S8x64x16x64, .f32⟩
  | .hbm, ⟨8, _⟩ => ⟨S_, .f32⟩
  | .hbm, ⟨9, _⟩ => ⟨S8x64x16x64, .f32⟩
  | .hbm, ⟨10, _⟩ => ⟨S8x64x16x64, .f32⟩
  | .hbm, ⟨11, _⟩ => ⟨S8x64x16x64x1, .f32⟩
  | .hbm, ⟨12, _⟩ => ⟨S8x64x16x64x64, .f32⟩
  | .hbm, ⟨13, _⟩ => ⟨S8x64x16x64x64, .f32⟩
  | .hbm, ⟨14, _⟩ => ⟨S8x64x16x64x64, .f32⟩
  | .hbm, ⟨15, _⟩ => ⟨S_, .f32⟩
  | .hbm, ⟨16, _⟩ => ⟨S8x64x16x64, .f32⟩
  | .hbm, ⟨17, _⟩ => ⟨S8x64x16x64x1, .f32⟩
  | .hbm, ⟨18, _⟩ => ⟨S8x64x16x64x64, .f32⟩
  | .hbm, ⟨19, _⟩ => ⟨S8x64x16x64x64, .f32⟩
  | .hbm, ⟨20, _⟩ => ⟨S8x64x16x64x64, .f32⟩
  | .hbm, ⟨21, _⟩ => ⟨S8x64x16x64x64, .f32⟩
  | .hbm, ⟨22, _⟩ => ⟨S_, .f32⟩
  | .hbm, ⟨23, _⟩ => ⟨S64, .f32⟩
  | .hbm, ⟨24, _⟩ => ⟨S1x64x1x1x1, .f32⟩
  | .hbm, ⟨25, _⟩ => ⟨S_, .f32⟩
  | .hbm, ⟨26, _⟩ => ⟨S1x64x1x1x1, .f32⟩
  | .hbm, ⟨27, _⟩ => ⟨S1x64x1x1x1, .f32⟩
  | .hbm, ⟨28, _⟩ => ⟨S_, .i32⟩
  | .hbm, ⟨29, _⟩ => ⟨S_, .f32⟩
  | .hbm, ⟨30, _⟩ => ⟨S64, .f32⟩
  | .hbm, ⟨31, _⟩ => ⟨S1x64x1x1x1, .f32⟩
  | .hbm, ⟨32, _⟩ => ⟨S_, .f32⟩
  | .hbm, ⟨33, _⟩ => ⟨S1x64x1x1x1, .f32⟩
  | .hbm, ⟨34, _⟩ => ⟨S1x64x1x1x1, .f32⟩
  | .hbm, ⟨35, _⟩ => ⟨S8x64x16x64x64, .f32⟩
  | .hbm, ⟨36, _⟩ => ⟨S8x64x16x64x64, .f32⟩
  | .hbm, ⟨37, _⟩ => ⟨S8x64x16x64x64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S64, .f32⟩
  | .hbm, ⟨43, _⟩ => ⟨S1x64x1x1x1, .f32⟩
  | .hbm, ⟨44, _⟩ => ⟨S1x64x1x1x1, .f32⟩
  | .hbm, ⟨45, _⟩ => ⟨S1x64x1x1x1, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S1x64x1x1x1, .f32⟩
  | .hbm, ⟨51, _⟩ => ⟨S1x64x1x1x1, .f32⟩
  | .hbm, ⟨52, _⟩ => ⟨S1x64x1x1x1, .f32⟩
  | .hbm, ⟨53, _⟩ => ⟨S1x64x1x1x1, .f32⟩
  | .hbm, ⟨54, _⟩ => ⟨S8x64x16x64x64, .f32⟩
  | .hbm, ⟨55, _⟩ => ⟨S8x64x16x64x64, .f32⟩
  | .hbm, ⟨56, _⟩ => ⟨S_, .f32⟩
  | .hbm, ⟨57, _⟩ => ⟨S1x64x1x1x1, .f32⟩
  | .hbm, ⟨58, _⟩ => ⟨S1x64x1x1x1, .f32⟩
  | .hbm, ⟨59, _⟩ => ⟨S1x64x1x1x1, .f32⟩
  | .hbm, ⟨60, _⟩ => ⟨S8x64x16x64x64, .f32⟩
  | .hbm, ⟨61, _⟩ => ⟨S8x64x16x64x64, .f32⟩
  | .hbm, ⟨62, _⟩ => ⟨S8x64x16x64x64, .f32⟩
  | .hbm, ⟨63, _⟩ => ⟨S8x64x16x64x64, .f32⟩
  | .hbm, ⟨64, _⟩ => ⟨S8x64x16x64x64, .f32⟩
  | .hbm, ⟨65, _⟩ => ⟨S8x64x16x64x64, .f32⟩
  | .hbm, ⟨66, _⟩ => ⟨S8x64x16x64x64, .f32⟩
  | .hbm, ⟨67, _⟩ => ⟨S8x64x16x64x64, .f32⟩
  | .hbm, ⟨68, _⟩ => ⟨S_, .f32⟩
  | .hbm, ⟨69, _⟩ => ⟨S8x64x16x64x64, .f32⟩
  | .hbm, ⟨70, _⟩ => ⟨S8x64x16x64x64, .f32⟩
  | .hbm, ⟨71, _⟩ => ⟨S_, .f32⟩
  | .hbm, ⟨72, _⟩ => ⟨S8x64x16x64x64, .f32⟩
  | .hbm, ⟨73, _⟩ => ⟨S8x64x16x64x64, .f32⟩
  | .hbm, ⟨74, _⟩ => ⟨S8x64x16x64x64, .f32⟩
  | _, _ => ⟨S8x64x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_cst_2 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_cst_3 : Ref sig .tc := ⟨.hbm, 46, rfl⟩
abbrev main_call0_v13 : Ref sig .tc := ⟨.hbm, 47, rfl⟩
abbrev main_call0_cst_4 : Ref sig .tc := ⟨.hbm, 48, rfl⟩
abbrev main_call0_call0_v0 : Ref sig .tc := ⟨.hbm, 49, rfl⟩
abbrev main_call0_call0_v1 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_5 : Ref sig .tc := ⟨.hbm, 68, rfl⟩
abbrev main_v34 : Ref sig .tc := ⟨.hbm, 69, rfl⟩
abbrev main_v35 : Ref sig .tc := ⟨.hbm, 70, rfl⟩
abbrev main_cst_6 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩

abbrev nD : Nat := 1
abbrev τ : Topo := Topo.v7x

variable {F : FTy → Type} [FloatOps F]

class Facts₀ : Prop where
  reducesTo_S8x64x16x64x64_S8x64x16x64_d4 : S8x64x16x64x64.ReducesTo [4] S8x64x16x64
  h_S_ : 0 < S_.numel
  bcast_S_S8x64x16x64 : S_.BroadcastsInDim S8x64x16x64 (![] : Fin 0 → Fin S8x64x16x64.rank)
  bcast_S8x64x16x64_S8x64x16x64x1_0_1_2_3 : S8x64x16x64.BroadcastsInDim S8x64x16x64x1 (![0, 1, 2, 3] : Fin 4 → Fin S8x64x16x64x1.rank)
  bcast_S8x64x16x64x1_S8x64x16x64x64_0_1_2_3_4 : S8x64x16x64x1.BroadcastsInDim S8x64x16x64x64 (![0, 1, 2, 3, 4] : Fin 5 → Fin S8x64x16x64x64.rank)
  reducesTo_S8x64x16x64x64_S64_d0_2_3_4 : S8x64x16x64x64.ReducesTo [0, 2, 3, 4] S64
  bcast_S64_S1x64x1x1x1_1 : S64.BroadcastsInDim S1x64x1x1x1 (![1] : Fin 1 → Fin S1x64x1x1x1.rank)
  bcast_S_S1x64x1x1x1 : S_.BroadcastsInDim S1x64x1x1x1 (![] : Fin 0 → Fin S1x64x1x1x1.rank)
  bcast_S1x64x1x1x1_S8x64x16x64x64_0_1_2_3_4 : S1x64x1x1x1.BroadcastsInDim S8x64x16x64x64 (![0, 1, 2, 3, 4] : Fin 5 → Fin S8x64x16x64x64.rank)
  bcast_S_S8x64x16x64x64 : S_.BroadcastsInDim S8x64x16x64x64 (![] : Fin 0 → Fin S8x64x16x64x64.rank)
  dot_S8x64x16x64x64_S8x64x16x64x64_S8x64x16x64x64_4_3_3_4_012_012_wf : DotDims.WF S8x64x16x64x64 S8x64x16x64x64 S8x64x16x64x64 [4] [3] [3] [4] [0, 1, 2] [0, 1, 2]

variable [Facts₀]

def dot_S8x64x16x64x64_S8x64x16x64x64_S8x64x16x64x64_4_3_3_4_012_012 : DotDims S8x64x16x64x64 S8x64x16x64x64 S8x64x16x64x64 where
  lhsContracting := [4]
  rhsContracting := [3]
  lhsNonContracting := [3]
  rhsNonContracting := [4]
  lhsBatch := [0, 1, 2]
  rhsBatch := [0, 1, 2]
  wf := dot_S8x64x16x64x64_S8x64x16x64x64_S8x64x16x64x64_4_3_3_4_012_012_wf

class Facts : Prop extends Facts₀ where

variable [Facts]
-- ==== Proof.Spec.lean ====
/-
  The mathematics of this certificate with no program in sight.

  Over arrays q, k, v of extents [8, 64, 16, 64, 64] (batch b, channel c, depth d, row h, column w) and per-channel
  vectors γ, β of extent [64], everything on the extended reals:

  * the score of row h against column j is the inner product over x of q[b,c,d,h,x] and k[b,c,d,x,j] (`scoreR`); one of
    the two programs computes it as three inner products, the second against k - k and the third from q - q (`scoreK`);
  * a row of scores is turned into weights by the stable softmax: subtract the row's maximum, exponentiate, divide by
    the row's sum (`rowMax`, `expo`, `denom`, `prob`);
  * y = (weights times v) + v (`attn`);
  * y is normalised per channel over (b, d, h, w) — 8·16·64·64 = 524288 entries — with the variance either as the mean of
    squares minus the squared mean, the sums taken batch by batch and depth pair by depth pair (`sum1`, `meanK`,
    `varK`, `normK`), or as the mean of squared deviations (`total`, `meanR`, `varR`, `normR`);
  * the result is z · logistic z of the normalised value z (`swish`).
-/
import Idealize.ShloMosaic.PureOps.Ideal
import Idealize.ShloMosaic.Lib.ValueIdx

noncomputable section

open scoped BigOperators

namespace Cert.AttnNorm

open Idealize.ShloMosaic Idealize.ShloMosaic.ValueIdx

/-- The shape [8, 64, 16, 64, 64]. -/
abbrev Sh5 : Shape := ⟨5, ![8, 64, 16, 64, 64]⟩
/-- The shape [64]. -/
abbrev Sh1 : Shape := ⟨1, ![64]⟩
/-- A [8, 64, 16, 64, 64] array by its coordinates (b, c, d, h, w). -/
abbrev T5 : Type := Fin 8 → Fin 64 → Fin 16 → Fin 64 → Fin 64 → EReal
/-- A [64] vector by its coordinate. -/
abbrev T1 : Type := Fin 64 → EReal

/-- An array read by coordinates. -/
def cur5 (a : Sh5.Idx → EReal) : T5 := fun b c d h w => a (ix5 b c d h w)
/-- A vector read by its coordinate. -/
def cur1 (a : Sh1.Idx → EReal) : T1 := fun c => a (ix1 c)

/-! ## Scores -/

/-- The score of row `h` against column `j`: the inner product of q's row and k's column. -/
def scoreR (q k : T5) : T5 := fun b c d h j => ∑ x : Fin 64, q b c d h x * k b c d x j

/-- The same score as three inner products: q against k, q against k - k, and q - q against k. -/
def scoreK (q k : T5) : T5 := fun b c d h j =>
  ((∑ x : Fin 64, q b c d h x * k b c d x j) + ∑ x : Fin 64, q b c d h x * (k b c d x j - k b c d x j))
    + ∑ x : Fin 64, (q b c d h x - q b c d h x) * k b c d x j

/-! ## The softmax of a row and the weighted sum -/

/-- A row's maximum, taken from -∞. -/
def rowMax (s : T5) (b : Fin 8) (c : Fin 64) (d : Fin 16) (h : Fin 64) : EReal :=
  max ⊥ ((Finset.univ : Finset (Fin 64)).fold max ⊥ (fun j => s b c d h j))

/-- The exponential of a score less its row's maximum. -/
def expo (s : T5) : T5 := fun b c d h j => Ideal.exp (s b c d h j - rowMax s b c d h)

/-- A row's sum of exponentials. -/
def denom (s : T5) (b : Fin 8) (c : Fin 64) (d : Fin 16) (h : Fin 64) : EReal := ∑ j : Fin 64, expo s b c d h j

/-- The softmax weight. -/
def prob (s : T5) : T5 := fun b c d h j => Ideal.div (expo s b c d h j) (denom s b c d h)

/-- The weights applied to v, plus v. -/
def attn (s v : T5) : T5 := fun b c d h w => (∑ j : Fin 64, prob s b c d h j * v b c d j w) + v b c d h w

/-! ## The per-channel statistics -/

/-- The entrywise square. -/
def sq (y : T5) : T5 := fun b c d h w => y b c d h w * y b c d h w

/-- The sum of y over depth pair `n` (depths 2n, 2n+1), all rows and columns, at batch `b` and channel `c`. -/
def blockSum (y : T5) (b : Fin 8) (c : Fin 64) (n : ℕ) (hn : n < 8) : EReal :=
  ∑ e : Fin 2, ∑ h : Fin 64, ∑ w : Fin 64, y b c ⟨2 * n + e.val, by omega⟩ h w

/-- The running total of the depth pairs' sums from zero: 0 + s₀, then + s₁, … -/
def acc1 (y : T5) (b : Fin 8) (c : Fin 64) : (n : ℕ) → n < 8 → EReal
  | 0, hn => 0 + blockSum y b c 0 hn
  | n + 1, hn => acc1 y b c n (by omega) + blockSum y b c (n + 1) hn

/-- The sum of y over all depths, rows and columns at batch `b` and channel `c`, as the eight depth pairs' running total. -/
def sum1 (y : T5) (b : Fin 8) (c : Fin 64) : EReal := acc1 y b c 7 (by omega)

/-- The number of entries per channel, 524288, as the single-precision pattern both programs write. -/
def cntN : EReal := Ideal.ofBits .f32 0x49000000#32
/-- The variance offset (the pattern nearest 1e-5) both programs write. -/
def epsN : EReal := Ideal.ofBits .f32 0x3727C5AC#32

/-- The mean from the batchwise sums. -/
def meanK (y : T5) (c : Fin 64) : EReal := Ideal.div (0 + ∑ b : Fin 8, sum1 y b c) cntN
/-- The mean of squares from the batchwise sums of squares. -/
def msqK (y : T5) (c : Fin 64) : EReal := Ideal.div (0 + ∑ b : Fin 8, sum1 (sq y) b c) cntN
/-- The variance as the mean of squares less the squared mean. -/
def varK (y : T5) (c : Fin 64) : EReal := msqK y c - meanK y c * meanK y c
/-- The reciprocal standard deviation. -/
def rstdK (y : T5) (c : Fin 64) : EReal := Ideal.rsqrt (varK y c + epsN)
/-- The channel's scale γ / σ. -/
def scaleK (y : T5) (γ : T1) (c : Fin 64) : EReal := γ c * rstdK y c
/-- The channel's shift β - μ γ / σ. -/
def shiftK (y : T5) (γ β : T1) (c : Fin 64) : EReal := β c - meanK y c * scaleK y γ c
/-- The normalised value as scale and shift. -/
def normK (y : T5) (γ β : T1) : T5 := fun b c d h w => y b c d h w * scaleK y γ c + shiftK y γ β c

/-- The sum of y over (b, d, h, w) at channel `c`. -/
def total (y : T5) (c : Fin 64) : EReal := ∑ b : Fin 8, ∑ d : Fin 16, ∑ h : Fin 64, ∑ w : Fin 64, y b c d h w
/-- The mean from the total. -/
def meanR (y : T5) (c : Fin 64) : EReal := Ideal.div (0 + total y c) cntN
/-- The squared deviation from the mean. -/
def devsq (y : T5) : T5 := fun b c d h w => (y b c d h w - meanR y c) * (y b c d h w - meanR y c)
/-- The variance as the mean of squared deviations. -/
def varR (y : T5) (c : Fin 64) : EReal := Ideal.div (0 + total (devsq y) c) (cntN - 0)
/-- The reciprocal standard deviation. -/
def rstdR (y : T5) (c : Fin 64) : EReal := Ideal.rsqrt (varR y c + epsN)
/-- The normalised value as the deviation over σ, times γ, plus β. -/
def normR (y : T5) (γ β : T1) : T5 := fun b c d h w => ((y b c d h w - meanR y c) * rstdR y c) * γ c + β c

/-- z · logistic z. -/
def swish (z : EReal) : EReal := z * Ideal.logistic z

/-- The result through scale and shift. -/
def outK (y : T5) (γ β : T1) : T5 := fun b c d h w => swish (normK y γ β b c d h w)
/-- The result through the deviation. -/
def outR (y : T5) (γ β : T1) : T5 := fun b c d h w => swish (normR y γ β b c d h w)

end Cert.AttnNorm

end
-- ==== Proof.KArgs.lean ====
/-
  The five argument arrays of the kernel's program, read by coordinates: q, k, v of extents [8, 64, 16, 64, 64] and the
  per-channel γ, β of extent [64], as the launch memory holds them on a device.
-/
import proofs.«148977_j61701500174620_2_alg».proof.Proof.Gen.KernelIdeal
import proofs.«148977_j61701500174620_2_alg».proof.Proof.Spec

noncomputable section

namespace Cert.KernelIdeal.Args

open Idealize.ShloMosaic Idealize.SL.Sem Cert.AttnNorm Cert.KernelIdeal

variable (m : (ℓ : Loc nD τ sig) → Buf (Elt Ideal) ℓ) (c : Dev nD)

/-- q by coordinates. -/
abbrev Q : T5 := cur5 (m ((c.tc : Thread nD τ).loc main_arg0))
/-- k by coordinates. -/
abbrev K : T5 := cur5 (m ((c.tc : Thread nD τ).loc main_arg1))
/-- v by coordinates. -/
abbrev Vv : T5 := cur5 (m ((c.tc : Thread nD τ).loc main_arg2))
/-- γ by its coordinate. -/
abbrev Gm : T1 := cur1 (m ((c.tc : Thread nD τ).loc main_arg3))
/-- β by its coordinate. -/
abbrev Bt : T1 := cur1 (m ((c.tc : Thread nD τ).loc main_arg4))

end Cert.KernelIdeal.Args

end
-- ==== Proof.AlgBase.lean ====
/-
  Extended-real arithmetic on real entries: a finite sum, a maximum, a quotient, a reciprocal square root and an
  exponential of real numbers are the real ones, coerced; and the two single-precision patterns the programs write,
  524288 and (about) 1e-5, as the reals they denote.
-/
import proofs.«148977_j61701500174620_2_alg».proof.Proof.Spec

noncomputable section

open scoped BigOperators

namespace Cert.AttnNorm

open Idealize.ShloMosaic

/-- The pattern 0x49000000 denotes 2^19 = 524288. -/
theorem cntN_eq : cntN = ((524288 : ℝ) : EReal) := by
  unfold cntN; simp [Ideal.ofBits, Ideal.ieee, -EReal.coe_mul]; norm_num

/-- The pattern 0x3727C5AC denotes 10995116 / 2^40. -/
theorem epsN_eq : epsN = ((10995116 / 2 ^ 40 : ℝ) : EReal) := by
  unfold epsN; simp [Ideal.ofBits, Ideal.ieee, -EReal.coe_mul]; norm_num

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum from -∞ of finitely many (at least one) real numbers is a real number. -/
theorem fold_max_coe {ι : Type*} (s : Finset ι) (f : ι → ℝ) (hs : s.Nonempty) :
    ∃ r : ℝ, s.fold max (⊥ : EReal) (fun i => (f i : EReal)) = (r : EReal) := by
  classical
  induction s using Finset.induction_on with
  | empty => exact absurd hs (by simp)
  | insert a s ha ih =>
    rw [Finset.fold_insert ha]
    rcases s.eq_empty_or_nonempty with h | h
    · subst h; exact ⟨f a, by simp⟩
    · obtain ⟨r, hr⟩ := ih h
      exact ⟨max (f a) r, by rw [hr]; exact (EReal.coe_strictMono.monotone.map_max).symm⟩

/-- The quotient of two reals, the divisor not zero. -/
theorem div_coe_coe (a b : ℝ) (hb : b ≠ 0) : Ideal.div (a : EReal) (b : EReal) = ((a / b : ℝ) : EReal) := by
  rw [Ideal.div_coe hb, ← EReal.coe_mul]; congr 1; ring

/-- The reciprocal square root of a positive real. -/
theorem rsqrt_coe_pos (x : ℝ) (hx : 0 < x) : Ideal.rsqrt (x : EReal) = (((Real.sqrt x)⁻¹ : ℝ) : EReal) := by
  rw [Ideal.rsqrt_coe, if_neg (not_lt.mpr hx.le), if_neg hx.ne']

/-- Real arrays and vectors, and their coercions. -/
abbrev R5 : Type := Fin 8 → Fin 64 → Fin 16 → Fin 64 → Fin 64 → ℝ
abbrev R1 : Type := Fin 64 → ℝ
/-- A real array as an extended-real one. -/
def up (y : R5) : T5 := fun b c d h w => (y b c d h w : EReal)
/-- A real vector as an extended-real one. -/
def up1 (g : R1) : T1 := fun c => (g c : EReal)

/-- An array all of whose entries are real is the coercion of a real array. -/
theorem exists_up (a : T5) (ha : ∀ b c d h w, ∃ r : ℝ, a b c d h w = (r : EReal)) : ∃ y : R5, a = up y := by
  choose y hy using ha
  exact ⟨y, by funext b c d h w; exact hy b c d h w⟩

/-- A vector all of whose entries are real is the coercion of a real vector. -/
theorem exists_up1 (a : T1) (ha : ∀ c, ∃ r : ℝ, a c = (r : EReal)) : ∃ g : R1, a = up1 g := by
  choose g hg using ha
  exact ⟨g, by funext c; exact hg c⟩

end Cert.AttnNorm

end
-- ==== Proof.AlgScore.lean ====
/-
  On real entries the three-product score is the one inner product (k - k and q - q vanish), and the softmax-weighted
  sum plus v of real arrays is again a real array: each row's maximum is real, its exponentials are positive reals, their
  sum is a positive real, the weights are real quotients.
-/
import proofs.«148977_j61701500174620_2_alg».proof.Proof.AlgBase

noncomputable section

open scoped BigOperators

namespace Cert.AttnNorm

open Idealize.ShloMosaic

/-- With real q and k the score written as three inner products is the plain inner product. -/
theorem scoreK_up (q k : R5) : scoreK (up q) (up k) = scoreR (up q) (up k) := by
  funext b c d h j
  simp only [scoreK, scoreR, up]
  have h1 : ∀ x : Fin 64, (q b c d h x : EReal) * ((k b c d x j : EReal) - (k b c d x j : EReal)) = 0 := fun x => by
    rw [← EReal.coe_sub, sub_self, EReal.coe_zero, mul_zero]
  have h2 : ∀ x : Fin 64, ((q b c d h x : EReal) - (q b c d h x : EReal)) * (k b c d x j : EReal) = 0 := fun x => by
    rw [← EReal.coe_sub, sub_self, EReal.coe_zero, zero_mul]
  simp only [h1, h2, Finset.sum_const_zero, add_zero]

/-- The inner-product score of real arrays is real. -/
theorem scoreR_up (q k : R5) : scoreR (up q) (up k) = up (fun b c d h j => ∑ x : Fin 64, q b c d h x * k b c d x j) := by
  funext b c d h j
  simp only [scoreR, up]
  rw [coe_sum]; simp only [EReal.coe_mul]

/-- The softmax-weighted sum plus v, of real scores and a real v, is a real array. -/
theorem attn_up (s v : R5) : ∃ y : R5, attn (up s) (up v) = up y := by
  have hmax : ∀ b c d h, ∃ r : ℝ, rowMax (up s) b c d h = (r : EReal) := fun b c d h => by
    obtain ⟨r, hr⟩ := fold_max_coe (Finset.univ : Finset (Fin 64)) (fun j => s b c d h j) Finset.univ_nonempty
    exact ⟨r, by simp only [rowMax, up]; rw [hr]; exact max_eq_right bot_le⟩
  choose mx hmx using hmax
  have hexp : ∀ b c d h j, expo (up s) b c d h j = ((Real.exp (s b c d h j - mx b c d h) : ℝ) : EReal) := fun b c d h j => by
    simp only [expo]; rw [hmx]; simp only [up]; rw [← EReal.coe_sub]; rfl
  have hden : ∀ b c d h, denom (up s) b c d h = ((∑ j : Fin 64, Real.exp (s b c d h j - mx b c d h) : ℝ) : EReal) := fun b c d h => by
    simp only [denom, hexp]; rw [coe_sum]
  have hpos : ∀ b c d h, (0 : ℝ) < ∑ j : Fin 64, Real.exp (s b c d h j - mx b c d h) := fun b c d h =>
    Finset.sum_pos (fun j _ => Real.exp_pos _) Finset.univ_nonempty
  have hprob : ∀ b c d h j, prob (up s) b c d h j
      = ((Real.exp (s b c d h j - mx b c d h) / ∑ j' : Fin 64, Real.exp (s b c d h j' - mx b c d h) : ℝ) : EReal) := fun b c d h j => by
    simp only [prob]; rw [hexp, hden, div_coe_coe _ _ (hpos b c d h).ne']
  refine ⟨fun b c d h w => (∑ j : Fin 64, (Real.exp (s b c d h j - mx b c d h) / ∑ j' : Fin 64, Real.exp (s b c d h j' - mx b c d h)) * v b c d j w) + v b c d h w, ?_⟩
  funext b c d h w
  simp only [attn, hprob, up]
  rw [EReal.coe_add, coe_sum]; simp only [EReal.coe_mul]

end Cert.AttnNorm

end
-- ==== Proof.AlgNorm.lean ====
/-
  The per-channel normalisation of a REAL array y with real γ, β, two ways. Write N = 524288 = 8·16·64·64 for the number
  of entries per channel, S = ∑ y and μ = S / N.
  * The eight depth pairs' running total, from zero, is the sum over the sixteen depths (d = 2n + e), so the batchwise
    sums add up to S, and likewise for the squares.
  * The variance identity: (∑ y²)/N - μ² = (∑ (y - μ)²)/N, since ∑ (y - μ)² = ∑ y² - 2μS + Nμ² and S = Nμ.
  * The variance is nonnegative and the offset positive, so the reciprocal standard deviation r is a real number, and
    y·(γ r) + (β - μ·(γ r)) = ((y - μ)·r)·γ + β in the reals.
-/
import proofs.«148977_j61701500174620_2_alg».proof.Proof.AlgBase

noncomputable section

open scoped BigOperators

namespace Cert.AttnNorm

open Idealize.ShloMosaic

/-- The sum over the sixteen depths is the sum over the eight pairs of the sum over a pair's two depths. -/
theorem sum_fin16 (G : Fin 16 → ℝ) :
    ∑ d : Fin 16, G d = ∑ n : Fin 8, ∑ e : Fin 2, G ⟨2 * n.val + e.val, by omega⟩ := by
  rw [← Equiv.sum_comp (finProdFinEquiv (m := 8) (n := 2)) G, Fintype.sum_prod_type]
  refine Finset.sum_congr rfl fun n _ => Finset.sum_congr rfl fun e _ => congrArg G (Fin.ext ?_)
  simp only [finProdFinEquiv, Equiv.coe_fn_mk]
  omega

/-- The sum of a real array over (b, d, h, w) at a channel. -/
def tot (f : R5) (c : Fin 64) : ℝ := ∑ b : Fin 8, ∑ d : Fin 16, ∑ h : Fin 64, ∑ w : Fin 64, f b c d h w

/-- The nested sum as one sum over the product of the four coordinate ranges. -/
theorem tot_eq_prod (f : R5) (c : Fin 64) :
    tot f c = ∑ p : Fin 8 × Fin 16 × Fin 64 × Fin 64, f p.1 c p.2.1 p.2.2.1 p.2.2.2 := by
  simp only [tot, Fintype.sum_prod_type]

/-- There are 524288 entries per channel. -/
theorem card_entries : (Fintype.card (Fin 8 × Fin 16 × Fin 64 × Fin 64) : ℝ) = 524288 := by
  simp only [Fintype.card_prod, Fintype.card_fin]; norm_num

/-- The variance identity over any finite index set of N entries. -/
theorem var_identity {ι : Type*} [Fintype ι] (f : ι → ℝ) (N : ℝ) (hN : (Fintype.card ι : ℝ) = N) (hN0 : N ≠ 0) :
    (∑ i, f i * f i) / N - (∑ i, f i) / N * ((∑ i, f i) / N)
      = (∑ i, (f i - (∑ j, f j) / N) * (f i - (∑ j, f j) / N)) / N := by
  have h : ∑ i, (f i - (∑ j, f j) / N) * (f i - (∑ j, f j) / N)
      = (∑ i, f i * f i) - 2 * ((∑ j, f j) / N) * (∑ j, f j) + N * ((∑ j, f j) / N * ((∑ j, f j) / N)) := by
    have e : ∀ i, (f i - (∑ j, f j) / N) * (f i - (∑ j, f j) / N)
        = f i * f i - 2 * ((∑ j, f j) / N) * f i + (∑ j, f j) / N * ((∑ j, f j) / N) := fun i => by ring
    simp only [e, Finset.sum_add_distrib, Finset.sum_sub_distrib, ← Finset.mul_sum, Finset.sum_const, Finset.card_univ,
      nsmul_eq_mul, hN]
    ring
  rw [h]; field_simp; ring

section
variable (y : R5)

/-- The sum over depth pair `n`, as a real number (zero past the eighth pair). -/
def pairSum (b : Fin 8) (c : Fin 64) (n : ℕ) : ℝ :=
  if hn : n < 8 then ∑ e : Fin 2, ∑ h : Fin 64, ∑ w : Fin 64, y b c ⟨2 * n + e.val, by omega⟩ h w else 0

/-- A depth pair's sum of a real array is real. -/
theorem blockSum_up (b : Fin 8) (c : Fin 64) (n : ℕ) (hn : n < 8) :
    blockSum (up y) b c n hn = ((pairSum y b c n : ℝ) : EReal) := by
  simp only [blockSum, up, pairSum, dif_pos hn, ← coe_sum]

/-- The running total of the depth pairs' sums of a real array is the real partial sum. -/
theorem acc1_up (b : Fin 8) (c : Fin 64) : ∀ (n : ℕ) (hn : n < 8),
    acc1 (up y) b c n hn = ((∑ i ∈ Finset.range (n + 1), pairSum y b c i : ℝ) : EReal)
  | 0, hn => by
    simp only [acc1, blockSum_up, zero_add, Finset.sum_range_one]
  | n + 1, hn => by
    rw [acc1, acc1_up b c n (by omega), blockSum_up, ← EReal.coe_add, ← Finset.sum_range_succ]

/-- The eight pairs' running total of a real array is its sum over the sixteen depths, all rows and columns. -/
theorem sum1_up (b : Fin 8) (c : Fin 64) :
    sum1 (up y) b c = ((∑ d : Fin 16, ∑ h : Fin 64, ∑ w : Fin 64, y b c d h w : ℝ) : EReal) := by
  rw [sum1, acc1_up]
  refine congrArg _ ?_
  rw [sum_fin16 (fun d => ∑ h : Fin 64, ∑ w : Fin 64, y b c d h w), Finset.sum_range]
  refine Finset.sum_congr rfl fun n _ => ?_
  simp only [pairSum, dif_pos n.isLt]

/-- The total of a real array is real. -/
theorem total_up (c : Fin 64) : total (up y) c = ((tot y c : ℝ) : EReal) := by
  simp only [total, up, tot, ← coe_sum]

/-- The batchwise sums of a real array add up to its total. -/
theorem sum_sum1_up (c : Fin 64) : ∑ b : Fin 8, sum1 (up y) b c = ((tot y c : ℝ) : EReal) := by
  simp only [sum1_up, tot, ← coe_sum]

/-- The square of a real array. -/
theorem sq_up : sq (up y) = up (fun b c d h w => y b c d h w * y b c d h w) := by
  funext b c d h w; simp only [sq, up, EReal.coe_mul]

/-- Both means of a real array are the real mean. -/
theorem meanK_up (c : Fin 64) : meanK (up y) c = ((tot y c / 524288 : ℝ) : EReal) := by
  rw [meanK, sum_sum1_up, zero_add, cntN_eq, div_coe_coe _ _ (by norm_num)]
theorem meanR_up (c : Fin 64) : meanR (up y) c = ((tot y c / 524288 : ℝ) : EReal) := by
  rw [meanR, total_up, zero_add, cntN_eq, div_coe_coe _ _ (by norm_num)]

/-- The mean of squares. -/
theorem msqK_up (c : Fin 64) :
    msqK (up y) c = ((tot (fun b c d h w => y b c d h w * y b c d h w) c / 524288 : ℝ) : EReal) := by
  rw [msqK, sq_up, sum_sum1_up, zero_add, cntN_eq, div_coe_coe _ _ (by norm_num)]

/-- The squared deviation of a real array from its mean. -/
theorem devsq_up : devsq (up y) = up (fun b c d h w => (y b c d h w - tot y c / 524288) * (y b c d h w - tot y c / 524288)) := by
  funext b c d h w; simp only [devsq, meanR_up, up, ← EReal.coe_sub, ← EReal.coe_mul]

/-- The variance as mean of squares less squared mean, of a real array. -/
theorem varK_up (c : Fin 64) : varK (up y) c
    = ((tot (fun b c d h w => y b c d h w * y b c d h w) c / 524288 - tot y c / 524288 * (tot y c / 524288) : ℝ) : EReal) := by
  rw [varK, msqK_up, meanK_up, ← EReal.coe_mul, ← EReal.coe_sub]

/-- The variance as mean of squared deviations, of a real array. -/
theorem varR_up (c : Fin 64) : varR (up y) c
    = ((tot (fun b c d h w => (y b c d h w - tot y c / 524288) * (y b c d h w - tot y c / 524288)) c / 524288 : ℝ) : EReal) := by
  rw [varR, devsq_up, total_up, zero_add, sub_zero, cntN_eq, div_coe_coe _ _ (by norm_num)]

/-- The two variances of a real array agree. -/
theorem var_eq (c : Fin 64) :
    tot (fun b c d h w => y b c d h w * y b c d h w) c / 524288 - tot y c / 524288 * (tot y c / 524288)
      = tot (fun b c d h w => (y b c d h w - tot y c / 524288) * (y b c d h w - tot y c / 524288)) c / 524288 := by
  simp only [tot_eq_prod]
  exact var_identity (fun p : Fin 8 × Fin 16 × Fin 64 × Fin 64 => y p.1 c p.2.1 p.2.2.1 p.2.2.2) 524288 card_entries (by norm_num)

/-- The mean of squared deviations is not negative. -/
theorem var_nonneg (c : Fin 64) :
    0 ≤ tot (fun b c d h w => (y b c d h w - tot y c / 524288) * (y b c d h w - tot y c / 524288)) c / 524288 := by
  refine div_nonneg ?_ (by norm_num)
  unfold tot
  exact Finset.sum_nonneg fun b _ => Finset.sum_nonneg fun d _ => Finset.sum_nonneg fun h _ =>
    Finset.sum_nonneg fun w _ => mul_self_nonneg _

/-- Both reciprocal standard deviations of a real array are one positive real's reciprocal square root. -/
theorem rstd_up (c : Fin 64) : ∃ r : ℝ, rstdK (up y) c = (r : EReal) ∧ rstdR (up y) c = (r : EReal) := by
  have hpos : (0 : ℝ) < tot (fun b c d h w => (y b c d h w - tot y c / 524288) * (y b c d h w - tot y c / 524288)) c / 524288
      + 10995116 / 2 ^ 40 := add_pos_of_nonneg_of_pos (var_nonneg y c) (by norm_num)
  refine ⟨(Real.sqrt (tot (fun b c d h w => (y b c d h w - tot y c / 524288) * (y b c d h w - tot y c / 524288)) c / 524288
      + 10995116 / 2 ^ 40))⁻¹, ?_, ?_⟩
  · rw [rstdK, varK_up, var_eq, epsN_eq, ← EReal.coe_add, rsqrt_coe_pos _ hpos]
  · rw [rstdR, varR_up, epsN_eq, ← EReal.coe_add, rsqrt_coe_pos _ hpos]

/-- The two normalisations of a real array with real γ, β agree entry by entry. -/
theorem norm_up (g be : R1) (b : Fin 8) (c : Fin 64) (d : Fin 16) (h w : Fin 64) :
    normK (up y) (up1 g) (up1 be) b c d h w = normR (up y) (up1 g) (up1 be) b c d h w := by
  obtain ⟨r, hK, hR⟩ := rstd_up y c
  simp only [normK, normR, scaleK, shiftK, hK, hR, meanK_up, meanR_up, up, up1, ← EReal.coe_mul, ← EReal.coe_sub,
    ← EReal.coe_add]
  refine congrArg _ ?_
  ring

end

end Cert.AttnNorm

end
-- ==== Proof.AlgMain.lean ====
/-
  The two pipelines agree on finite inputs: with every entry of q, k, v, γ, β a real number, the result through the
  three-product score, the batchwise sums and scale-and-shift is the result through the inner-product score, the
  whole-channel sums and the deviation.
-/
import proofs.«148977_j61701500174620_2_alg».proof.Proof.AlgScore
import proofs.«148977_j61701500174620_2_alg».proof.Proof.AlgNorm

noncomputable section

open scoped BigOperators

namespace Cert.AttnNorm

open Idealize.ShloMosaic

/-- On real-valued arguments the two results are one array. -/
theorem outK_eq_outR (q k v : T5) (γ β : T1)
    (hq : ∀ b c d h w, ∃ r : ℝ, q b c d h w = (r : EReal)) (hk : ∀ b c d h w, ∃ r : ℝ, k b c d h w = (r : EReal))
    (hv : ∀ b c d h w, ∃ r : ℝ, v b c d h w = (r : EReal)) (hγ : ∀ c, ∃ r : ℝ, γ c = (r : EReal))
    (hβ : ∀ c, ∃ r : ℝ, β c = (r : EReal)) :
    outK (attn (scoreK q k) v) γ β = outR (attn (scoreR q k) v) γ β := by
  obtain ⟨q', rfl⟩ := exists_up q hq
  obtain ⟨k', rfl⟩ := exists_up k hk
  obtain ⟨v', rfl⟩ := exists_up v hv
  obtain ⟨g, rfl⟩ := exists_up1 γ hγ
  obtain ⟨be, rfl⟩ := exists_up1 β hβ
  rw [scoreK_up, scoreR_up]
  obtain ⟨y, hy⟩ := attn_up (fun b c d h j => ∑ x : Fin 64, q' b c d h x * k' b c d x j) v'
  rw [hy]
  funext b c d h w
  simp only [outK, outR, norm_up]

end Cert.AttnNorm

end
-- ==== Proof.Finite.lean ====
/-
  What the precondition says: each of the five argument arrays passes "|x| < +∞ at every entry", and on the extended
  reals |x| = max x (-x) is below +∞ exactly when x is a real number. So under the precondition every entry of
  q, k, v, γ, β is real.
-/
import proofs.«148977_j61701500174620_2_alg».proof.Pre_finite_inputs
import proofs.«148977_j61701500174620_2_alg».proof.Proof.Gen.Pre_finite_inputs
import Idealize.ShloMosaic.Lib.ReduceAll
import Idealize.ShloMosaic.Lib.Affine
import Idealize.ShloMosaic.Lib.ValueIdx

noncomputable section

namespace Cert.Pre_finite_inputs.Finite

open Idealize.ShloMosaic Idealize.ShloMosaic.ValueIdx Cert.Pre_finite_inputs

/-- The rank-0 shape has one index. -/
instance : Subsingleton S_.Idx := ⟨fun a b => funext fun d => d.elim0⟩

/-- An extended real whose absolute value compares below the pattern of +∞ is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- Under the precondition every entry of the five argument arrays is a real number. -/
theorem real_of_pre (a0 a1 a2 : FVec Ideal S8x64x16x64x64 .f32) (a3 a4 : FVec Ideal S64 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  refine ⟨fun i => ?_, fun i => ?_, fun i => ?_, fun i => ?_, fun i => ?_⟩
  · exact real_of_abs_lt_inf (a0 i) (Host.reduce_andi_all _ _ _ _ ix0 h0' i)
  · exact real_of_abs_lt_inf (a1 i) (Host.reduce_andi_all _ _ _ _ ix0 h1 i)
  · exact real_of_abs_lt_inf (a2 i) (Host.reduce_andi_all _ _ _ _ ix0 h2 i)
  · exact real_of_abs_lt_inf (a3 i) (Host.reduce_andi_all _ _ _ _ ix0 h3 i)
  · exact real_of_abs_lt_inf (a4 i) (Host.reduce_andi_all _ _ _ _ ix0 h4 i)

end Cert.Pre_finite_inputs.Finite

end
-- ==== Proof.RefRunTerm.lean ====
/-
  The reference's value as a function of its five arguments, stage by stage, with no run in sight.

  From q, k, v of extents [8, 64, 16, 64, 64] and γ, β of extent [64]:
  the scores are the batched product of q and k over the last axis of q and the fourth of k; each row of scores
  has its maximum (from -∞) subtracted and is exponentiated; each row of exponentials is divided by its sum; the
  weights are multiplied into v and v is added (`attnOut`). Then per channel (axis 1): the sum over the other four
  axes divided by the count is the mean; the deviation from the mean, squared, summed over the same four axes and
  divided by the count less a converted integer zero is the variance (chosen by a comparison of that divisor with
  zero, the other branch a quiet not-a-number); the deviation times the reciprocal square root of the variance plus
  a small constant, times γ, plus β is the normalised value z, and the result is z times 1 / (1 + exp (-z)).
  Each stage below is one or a few of the program's operations applied to the stage before.
-/
import proofs.«148977_j61701500174620_2_alg».proof.Proof.Gen.ReferenceIdeal
import Idealize.ShloMosaic.PureOps.Ideal

noncomputable section

namespace Cert.ReferenceIdeal.RefValue

open Idealize.ShloMosaic Cert.ReferenceIdeal Cert.ReferenceIdeal.Gen

variable {F : FTy → Type} [FloatOps F]

/-- The scores: the batched product of q and k, contracting q's last axis against k's fourth. -/
def scores (q k : FVec F S8x64x16x64x64 .f32) : FVec F S8x64x16x64x64 .f32 :=
  Host.dotGeneral dot_S8x64x16x64x64_S8x64x16x64x64_S8x64x16x64x64_4_3_3_4_012_012 none q k

/-- Each row's maximum from -∞, then the maximum with a broadcast -∞. -/
def rowMaxV (s : FVec F S8x64x16x64x64 .f32) : FVec F S8x64x16x64 .f32 :=
  maximumf (broadcastInDim S8x64x16x64 ![] bcast_S_S8x64x16x64 (constant S_ .f32 0xFF800000#32))
    (Host.reduce FloatOps.maximumf s (constant S_ .f32 0xFF800000#32) reducesTo_S8x64x16x64x64_S8x64x16x64_d4 h_S_)

/-- A per-row value laid along the row. -/
def alongRow (r : FVec F S8x64x16x64 .f32) : FVec F S8x64x16x64x64 .f32 :=
  broadcastInDim S8x64x16x64x64 ![0, 1, 2, 3, 4] bcast_S8x64x16x64x1_S8x64x16x64x64_0_1_2_3_4
    (broadcastInDim S8x64x16x64x1 ![0, 1, 2, 3] bcast_S8x64x16x64_S8x64x16x64x1_0_1_2_3 r)

/-- The exponentials of the scores less their row's maximum. -/
def expV (s : FVec F S8x64x16x64x64 .f32) : FVec F S8x64x16x64x64 .f32 :=
  Host.exp (subf s (alongRow (rowMaxV s)))

/-- Each row's sum of exponentials, from zero. -/
def rowSumV (e : FVec F S8x64x16x64x64 .f32) : FVec F S8x64x16x64 .f32 :=
  Host.reduceAdd e (constant S_ .f32 0x00000000#32) reducesTo_S8x64x16x64x64_S8x64x16x64_d4 h_S_

/-- The softmax weights. -/
def probV (e : FVec F S8x64x16x64x64 .f32) : FVec F S8x64x16x64x64 .f32 :=
  Host.divf e (alongRow (rowSumV e))

/-- The weights multiplied into v, plus v. -/
def attnOut (q k v : FVec F S8x64x16x64x64 .f32) : FVec F S8x64x16x64x64 .f32 :=
  addf (Host.dotGeneral dot_S8x64x16x64x64_S8x64x16x64x64_S8x64x16x64x64_4_3_3_4_012_012 none (probV (expV (scores q k))) v) v

/-- The sum over every axis but the channel's, from zero. -/
def chanSum (y : FVec F S8x64x16x64x64 .f32) : FVec F S64 .f32 :=
  Host.reduceAdd y (constant S_ .f32 0x00000000#32) reducesTo_S8x64x16x64x64_S64_d0_2_3_4 h_S_

/-- A per-channel vector as a [1, 64, 1, 1, 1] array. -/
def chanCol (a : FVec F S64 .f32) : FVec F S1x64x1x1x1 .f32 :=
  broadcastInDim S1x64x1x1x1 ![1] bcast_S64_S1x64x1x1x1_1 a

/-- A [1, 64, 1, 1, 1] array laid over the whole array. -/
def overAll (a : FVec F S1x64x1x1x1 .f32) : FVec F S8x64x16x64x64 .f32 :=
  broadcastInDim S8x64x16x64x64 ![0, 1, 2, 3, 4] bcast_S1x64x1x1x1_S8x64x16x64x64_0_1_2_3_4 a

/-- A scalar as a [1, 64, 1, 1, 1] array. -/
def splatCol (a : FVec F S_ .f32) : FVec F S1x64x1x1x1 .f32 :=
  broadcastInDim S1x64x1x1x1 ![] bcast_S_S1x64x1x1x1 a

/-- The per-channel mean: the sum over the count. -/
def meanV (y : FVec F S8x64x16x64x64 .f32) : FVec F S1x64x1x1x1 .f32 :=
  Host.divf (chanCol (chanSum y)) (splatCol (constant S_ .f32 0x49000000#32))

/-- The deviation from the per-channel mean. -/
def devV (y : FVec F S8x64x16x64x64 .f32) : FVec F S8x64x16x64x64 .f32 :=
  subf y (overAll (meanV y))

/-- The divisor of the variance: the count less a converted integer zero. -/
def cntLess : FVec F S_ .f32 :=
  subf (constant S_ .f32 0x49000000#32) (sitofp .f32 (constantI S_ 32 0#32))

/-- The per-channel variance: the mean of squared deviations where the divisor is positive, else not-a-number. -/
def varV (y : FVec F S8x64x16x64x64 .f32) : FVec F S1x64x1x1x1 .f32 :=
  select (broadcastInDim S1x64x1x1x1 ![] bcast_S_S1x64x1x1x1 (cmpf .ogt (cntLess (F := F)) (constant S_ .f32 0x00000000#32)))
    (Host.divf (chanCol (chanSum (mulf (devV y) (devV y)))) (splatCol cntLess))
    (splatCol (id (constant S_ .f32 0x7FC00000#32)))

/-- The normalised value: the deviation over the standard deviation, times γ, plus β. -/
def normV (y : FVec F S8x64x16x64x64 .f32) (γ β : FVec F S64 .f32) : FVec F S8x64x16x64x64 .f32 :=
  addf (mulf (mulf (subf y (overAll (meanV y)))
      (overAll (Host.rsqrt (addf (varV y) (splatCol (constant S_ .f32 0x3727C5AC#32))))))
    (overAll (chanCol γ))) (overAll (chanCol β))

/-- z times 1 / (1 + exp (-z)). -/
def swishV (z : FVec F S8x64x16x64x64 .f32) : FVec F S8x64x16x64x64 .f32 :=
  mulf z (Host.divf (broadcastInDim S8x64x16x64x64 ![] bcast_S_S8x64x16x64x64 (constant S_ .f32 0x3F800000#32))
    (addf (broadcastInDim S8x64x16x64x64 ![] bcast_S_S8x64x16x64x64 (constant S_ .f32 0x3F800000#32)) (Host.exp (Host.negf z))))

/-- The reference's result as a function of its five arguments. -/
def resultF (q k v : FVec F S8x64x16x64x64 .f32) (γ β : FVec F S64 .f32) : FVec F S8x64x16x64x64 .f32 :=
  swishV (normV (attnOut q k v) γ β)

/-- The reference's result on the extended reals. -/
def result (q k v : FVec Ideal S8x64x16x64x64 .f32) (γ β : FVec Ideal S64 .f32) : FVec Ideal S8x64x16x64x64 .f32 :=
  resultF q k v γ β

end Cert.ReferenceIdeal.RefValue

end
-- ==== Proof.RefRunOps.lean ====
/-
  The reference program as a straight line. Its main function runs forty-seven operations of its own and, after
  the twenty-fourth, calls the variance function (twenty operations, then a call of a three-operation
  select-with-default function). Listed in the order they run, with each called function's
  operations written over the buffers that call names, they are seventy operations; the main function is the
  sequence of that list, no buffer and no semaphore of the signature is scoped, and every operation touches only
  device buffers of the signature.
-/
import proofs.«148977_j61701500174620_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The seventy operations in the order they run: the main function's first twenty-four, the variance
    function's twenty over that call's buffers, the select-with-default function's three over the nested call's
    buffers, and the main function's last twenty-three. -/
abbrev ops : List (HloOp τ sig (Elt F)) :=
  [
    binary main_arg0 main_arg1 main_v0 ((fun l r => Host.dotGeneral dot_S8x64x16x64x64_S8x64x16x64x64_S8x64x16x64x64_4_3_3_4_012_012 none l r) : (⟨S8x64x16x64x64, .f32⟩ : BufTy).Contents (Elt F) → (⟨S8x64x16x64x64, .f32⟩ : BufTy).Contents (Elt F) → (⟨S8x64x16x64x64, .f32⟩ : BufTy).Contents (Elt F)),
    nullary main_cst (constant S_ .f32 0xFF800000#32),
    binary main_v0 main_cst main_v1 ((fun x v => Host.reduce FloatOps.maximumf x v reducesTo_S8x64x16x64x64_S8x64x16x64_d4 h_S_) : (⟨S8x64x16x64x64, .f32⟩ : BufTy).Contents (Elt F) → (⟨S_, .f32⟩ : BufTy).Contents (Elt F) → (⟨S8x64x16x64, .f32⟩ : BufTy).Contents (Elt F)),
    nullary main_cst_0 (constant S_ .f32 0xFF800000#32),
    unary main_cst_0 main_v2 (broadcastInDim S8x64x16x64 ![] bcast_S_S8x64x16x64 : (⟨S_, .f32⟩ : BufTy).Contents (Elt F) → (⟨S8x64x16x64, .f32⟩ : BufTy).Contents (Elt F)),
    binary main_v2 main_v1 main_v3 (maximumf : (⟨S8x64x16x64, .f32⟩ : BufTy).Contents (Elt F) → (⟨S8x64x16x64, .f32⟩ : BufTy).Contents (Elt F) → (⟨S8x64x16x64, .f32⟩ : BufTy).Contents (Elt F)),
    unary main_v3 main_v4 (broadcastInDim S8x64x16x64x1 ![0, 1, 2, 3] bcast_S8x64x16x64_S8x64x16x64x1_0_1_2_3 : (⟨S8x64x16x64, .f32⟩ : BufTy).Contents (Elt F) → (⟨S8x64x16x64x1, .f32⟩ : BufTy).Contents (Elt F)),
    unary main_v4 main_v5 (broadcastInDim S8x64x16x64x64 ![0, 1, 2, 3, 4] bcast_S8x64x16x64x1_S8x64x16x64x64_0_1_2_3_4 : (⟨S8x64x16x64x1, .f32⟩ : BufTy).Contents (Elt F) → (⟨S8x64x16x64x64, .f32⟩ : BufTy).Contents (Elt F)),
    binary main_v0 main_v5 main_v6 (subf : (⟨S8x64x16x64x64, .f32⟩ : BufTy).Contents (Elt F) → (⟨S8x64x16x64x64, .f32⟩ : BufTy).Contents (Elt F) → (⟨S8x64x16x64x64, .f32⟩ : BufTy).Contents (Elt F)),
    unary main_v6 main_v7 (Host.exp : (⟨S8x64x16x64x64, .f32⟩ : BufTy).Contents (Elt F) → (⟨S8x64x16x64x64, .f32⟩ : BufTy).Contents (Elt F)),
    nullary main_cst_1 (constant S_ .f32 0x00000000#32),
    binary main_v7 main_cst_1 main_v8 ((fun x v => Host.reduceAdd x v reducesTo_S8x64x16x64x64_S8x64x16x64_d4 h_S_) : (⟨S8x64x16x64x64, .f32⟩ : BufTy).Contents (Elt F) → (⟨S_, .f32⟩ : BufTy).Contents (Elt F) → (⟨S8x64x16x64, .f32⟩ : BufTy).Contents (Elt F)),
    unary main_v8 main_v9 (broadcastInDim S8x64x16x64x1 ![0, 1, 2, 3] bcast_S8x64x16x64_S8x64x16x64x1_0_1_2_3 : (⟨S8x64x16x64, .f32⟩ : BufTy).Contents (Elt F) → (⟨S8x64x16x64x1, .f32⟩ : BufTy).Contents (Elt F)),
    unary main_v9 main_v10 (broadcastInDim S8x64x16x64x64 ![0, 1, 2, 3, 4] bcast_S8x64x16x64x1_S8x64x16x64x64_0_1_2_3_4 : (⟨S8x64x16x64x1, .f32⟩ : BufTy).Contents (Elt F) → (⟨S8x64x16x64x64, .f32⟩ : BufTy).Contents (Elt F)),
    binary main_v7 main_v10 main_v11 (Host.divf : (⟨S8x64x16x64x64, .f32⟩ : BufTy).Contents (Elt F) → (⟨S8x64x16x64x64, .f32⟩ : BufTy).Contents (Elt F) → (⟨S8x64x16x64x64, .f32⟩ : BufTy).Contents (Elt F)),
    binary main_v11 main_arg2 main_v12 ((fun l r => Host.dotGeneral dot_S8x64x16x64x64_S8x64x16x64x64_S8x64x16x64x64_4_3_3_4_012_012 none l r) : (⟨S8x64x16x64x64, .f32⟩ : BufTy).Contents (Elt F) → (⟨S8x64x16x64x64, .f32⟩ : BufTy).Contents (Elt F) → (⟨S8x64x16x64x64, .f32⟩ : BufTy).Contents (Elt F)),
    binary main_v12 main_arg2 main_v13 (addf : (⟨S8x64x16x64x64, .f32⟩ : BufTy).Contents (Elt F) → (⟨S8x64x16x64x64, .f32⟩ : BufTy).Contents (Elt F) → (⟨S8x64x16x64x64, .f32⟩ : BufTy).Contents (Elt F)),
    nullary main_cst_2 (constant S_ .f32 0x00000000#32),
    binary main_v13 main_cst_2 main_v14 ((fun x v => Host.reduceAdd x v reducesTo_S8x64x16x64x64_S64_d0_2_3_4 h_S_) : (⟨S8x64x16x64x64, .f32⟩ : BufTy).Contents (Elt F) → (⟨S_, .f32⟩ : BufTy).Contents (Elt F) → (⟨S64, .f32⟩ : BufTy).Contents (Elt F)),
    unary main_v14 main_v15 (broadcastInDim S1x64x1x1x1 ![1] bcast_S64_S1x64x1x1x1_1 : (⟨S64, .f32⟩ : BufTy).Contents (Elt F) → (⟨S1x64x1x1x1, .f32⟩ : BufTy).Contents (Elt F)),
    nullary main_cst_3 (constant S_ .f32 0x49000000#32),
    unary main_cst_3 main_v16 (broadcastInDim S1x64x1x1x1 ![] bcast_S_S1x64x1x1x1 : (⟨S_, .f32⟩ : BufTy).Contents (Elt F) → (⟨S1x64x1x1x1, .f32⟩ : BufTy).Contents (Elt F)),
    binary main_v15 main_v16 main_v17 (Host.divf : (⟨S1x64x1x1x1, .f32⟩ : BufTy).Contents (Elt F) → (⟨S1x64x1x1x1, .f32⟩ : BufTy).Contents (Elt F) → (⟨S1x64x1x1x1, .f32⟩ : BufTy).Contents (Elt F)),
    nullary main_c (constantI S_ 32 0#32),
    TRef.nullary main_call0.cst (constant S_ .f32 0x00000000#32),
    TRef.binary (.of main_v13) main_call0.cst main_call0.v0 (fun x v => Host.reduceAdd x v reducesTo_S8x64x16x64x64_S64_d0_2_3_4 h_S_),
    TRef.unary main_call0.v0 main_call0.v1 (broadcastInDim S1x64x1x1x1 ![1] bcast_S64_S1x64x1x1x1_1),
    TRef.nullary main_call0.cst_0 (constant S_ .f32 0x49000000#32),
    TRef.unary main_call0.cst_0 main_call0.v2 (broadcastInDim S1x64x1x1x1 ![] bcast_S_S1x64x1x1x1),
    TRef.binary main_call0.v1 main_call0.v2 main_call0.v3 Host.divf,
    TRef.unary main_call0.v3 main_call0.v4 (broadcastInDim S8x64x16x64x64 ![0, 1, 2, 3, 4] bcast_S1x64x1x1x1_S8x64x16x64x64_0_1_2_3_4),
    TRef.binary (.of main_v13) main_call0.v4 main_call0.v5 subf,
    TRef.binary main_call0.v5 main_call0.v5 main_call0.v6 mulf,
    TRef.unary (.of main_c) main_call0.v7 (sitofp .f32),
    TRef.nullary main_call0.cst_1 (constant S_ .f32 0x49000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x64x16x64x64_S64_d0_2_3_4 h_S_),
    TRef.unary main_call0.v9 main_call0.v10 (broadcastInDim S1x64x1x1x1 ![1] bcast_S64_S1x64x1x1x1_1),
    TRef.unary main_call0.v8 main_call0.v11 (broadcastInDim S1x64x1x1x1 ![] bcast_S_S1x64x1x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0_call0.v0 id,
    TRef.unary main_call0_call0.v0 main_call0_call0.v1 (broadcastInDim S1x64x1x1x1 ![] bcast_S_S1x64x1x1x1),
    TRef.ternary main_call0.v13 main_call0.v12 main_call0_call0.v1 main_call0_call0.v2 (fun p a b => select (broadcastInDim S1x64x1x1x1 ![] bcast_S_S1x64x1x1x1 p) a b),
    unary main_arg3 main_v19 (broadcastInDim S1x64x1x1x1 ![1] bcast_S64_S1x64x1x1x1_1 : (⟨S64, .f32⟩ : BufTy).Contents (Elt F) → (⟨S1x64x1x1x1, .f32⟩ : BufTy).Contents (Elt F)),
    unary main_arg4 main_v20 (broadcastInDim S1x64x1x1x1 ![1] bcast_S64_S1x64x1x1x1_1 : (⟨S64, .f32⟩ : BufTy).Contents (Elt F) → (⟨S1x64x1x1x1, .f32⟩ : BufTy).Contents (Elt F)),
    unary main_v17 main_v21 (broadcastInDim S8x64x16x64x64 ![0, 1, 2, 3, 4] bcast_S1x64x1x1x1_S8x64x16x64x64_0_1_2_3_4 : (⟨S1x64x1x1x1, .f32⟩ : BufTy).Contents (Elt F) → (⟨S8x64x16x64x64, .f32⟩ : BufTy).Contents (Elt F)),
    binary main_v13 main_v21 main_v22 (subf : (⟨S8x64x16x64x64, .f32⟩ : BufTy).Contents (Elt F) → (⟨S8x64x16x64x64, .f32⟩ : BufTy).Contents (Elt F) → (⟨S8x64x16x64x64, .f32⟩ : BufTy).Contents (Elt F)),
    nullary main_cst_4 (constant S_ .f32 0x3727C5AC#32),
    unary main_cst_4 main_v23 (broadcastInDim S1x64x1x1x1 ![] bcast_S_S1x64x1x1x1 : (⟨S_, .f32⟩ : BufTy).Contents (Elt F) → (⟨S1x64x1x1x1, .f32⟩ : BufTy).Contents (Elt F)),
    binary main_v18 main_v23 main_v24 (addf : (⟨S1x64x1x1x1, .f32⟩ : BufTy).Contents (Elt F) → (⟨S1x64x1x1x1, .f32⟩ : BufTy).Contents (Elt F) → (⟨S1x64x1x1x1, .f32⟩ : BufTy).Contents (Elt F)),
    unary main_v24 main_v25 (Host.rsqrt : (⟨S1x64x1x1x1, .f32⟩ : BufTy).Contents (Elt F) → (⟨S1x64x1x1x1, .f32⟩ : BufTy).Contents (Elt F)),
    unary main_v25 main_v26 (broadcastInDim S8x64x16x64x64 ![0, 1, 2, 3, 4] bcast_S1x64x1x1x1_S8x64x16x64x64_0_1_2_3_4 : (⟨S1x64x1x1x1, .f32⟩ : BufTy).Contents (Elt F) → (⟨S8x64x16x64x64, .f32⟩ : BufTy).Contents (Elt F)),
    binary main_v22 main_v26 main_v27 (mulf : (⟨S8x64x16x64x64, .f32⟩ : BufTy).Contents (Elt F) → (⟨S8x64x16x64x64, .f32⟩ : BufTy).Contents (Elt F) → (⟨S8x64x16x64x64, .f32⟩ : BufTy).Contents (Elt F)),
    unary main_v19 main_v28 (broadcastInDim S8x64x16x64x64 ![0, 1, 2, 3, 4] bcast_S1x64x1x1x1_S8x64x16x64x64_0_1_2_3_4 : (⟨S1x64x1x1x1, .f32⟩ : BufTy).Contents (Elt F) → (⟨S8x64x16x64x64, .f32⟩ : BufTy).Contents (Elt F)),
    binary main_v27 main_v28 main_v29 (mulf : (⟨S8x64x16x64x64, .f32⟩ : BufTy).Contents (Elt F) → (⟨S8x64x16x64x64, .f32⟩ : BufTy).Contents (Elt F) → (⟨S8x64x16x64x64, .f32⟩ : BufTy).Contents (Elt F)),
    unary main_v20 main_v30 (broadcastInDim S8x64x16x64x64 ![0, 1, 2, 3, 4] bcast_S1x64x1x1x1_S8x64x16x64x64_0_1_2_3_4 : (⟨S1x64x1x1x1, .f32⟩ : BufTy).Contents (Elt F) → (⟨S8x64x16x64x64, .f32⟩ : BufTy).Contents (Elt F)),
    binary main_v29 main_v30 main_v31 (addf : (⟨S8x64x16x64x64, .f32⟩ : BufTy).Contents (Elt F) → (⟨S8x64x16x64x64, .f32⟩ : BufTy).Contents (Elt F) → (⟨S8x64x16x64x64, .f32⟩ : BufTy).Contents (Elt F)),
    unary main_v31 main_v32 (Host.negf : (⟨S8x64x16x64x64, .f32⟩ : BufTy).Contents (Elt F) → (⟨S8x64x16x64x64, .f32⟩ : BufTy).Contents (Elt F)),
    unary main_v32 main_v33 (Host.exp : (⟨S8x64x16x64x64, .f32⟩ : BufTy).Contents (Elt F) → (⟨S8x64x16x64x64, .f32⟩ : BufTy).Contents (Elt F)),
    nullary main_cst_5 (constant S_ .f32 0x3F800000#32),
    unary main_cst_5 main_v34 (broadcastInDim S8x64x16x64x64 ![] bcast_S_S8x64x16x64x64 : (⟨S_, .f32⟩ : BufTy).Contents (Elt F) → (⟨S8x64x16x64x64, .f32⟩ : BufTy).Contents (Elt F)),
    binary main_v34 main_v33 main_v35 (addf : (⟨S8x64x16x64x64, .f32⟩ : BufTy).Contents (Elt F) → (⟨S8x64x16x64x64, .f32⟩ : BufTy).Contents (Elt F) → (⟨S8x64x16x64x64, .f32⟩ : BufTy).Contents (Elt F)),
    nullary main_cst_6 (constant S_ .f32 0x3F800000#32),
    unary main_cst_6 main_v36 (broadcastInDim S8x64x16x64x64 ![] bcast_S_S8x64x16x64x64 : (⟨S_, .f32⟩ : BufTy).Contents (Elt F) → (⟨S8x64x16x64x64, .f32⟩ : BufTy).Contents (Elt F)),
    binary main_v36 main_v35 main_v37 (Host.divf : (⟨S8x64x16x64x64, .f32⟩ : BufTy).Contents (Elt F) → (⟨S8x64x16x64x64, .f32⟩ : BufTy).Contents (Elt F) → (⟨S8x64x16x64x64, .f32⟩ : BufTy).Contents (Elt F)),
    binary main_v31 main_v37 main_v38 (mulf : (⟨S8x64x16x64x64, .f32⟩ : BufTy).Contents (Elt F) → (⟨S8x64x16x64x64, .f32⟩ : BufTy).Contents (Elt F) → (⟨S8x64x16x64x64, .f32⟩ : BufTy).Contents (Elt F)) ]

set_option maxRecDepth 16384 in
/-- The main function is the sequence of the list: with the called functions' definitions opened at their calls,
    both sides are the same chain of steps, by computation. -/
theorem main_eq (c : Dev nD) : main (F := F) c = seq ops := rfl

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation of the list touches only device buffers of the signature. -/
theorem ops_sub : (ops : List (HloOp τ sig (Elt F))).Forall fun op => op.bufs ⊆ tcRefs τ sig :=
  ⟨
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., unary_bufs_sub .., binary_bufs_sub .., nullary_bufs_sub .., unary_bufs_sub .., binary_bufs_sub ..,
    unary_bufs_sub .., unary_bufs_sub .., binary_bufs_sub .., unary_bufs_sub .., binary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub ..⟩

end Cert.ReferenceIdeal.RefValue

end
-- ==== Proof.RefRunOut.lean ====
/-
  What the seventy operations leave in the result buffer, as a fold over any starting contents: each operation's
  result is its function of its operands' contents at that moment, and a buffer another operation writes is
  untouched by it; followed from the last operation back to the arguments, the result buffer holds the stage
  functions' composition applied to what the five argument buffers held at the start.
-/
import proofs.«148977_j61701500174620_2_alg».proof.Proof.RefRunTerm
import proofs.«148977_j61701500174620_2_alg».proof.Proof.RefRunOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 1000000 in
/-- After the operations, the result buffer holds the composed stages of the argument buffers' starting contents. -/
theorem after_out (V : Valuation τ sig (Elt F)) :
    after ops V (main_v38 : DevRef τ sig)
      = resultF (V (main_arg0 : DevRef τ sig)) (V (main_arg1 : DevRef τ sig)) (V (main_arg2 : DevRef τ sig))
          (V (main_arg3 : DevRef τ sig)) (V (main_arg4 : DevRef τ sig)) := by
  after_results_simp
  rfl

end Cert.ReferenceIdeal.RefValue

end
-- ==== Proof.RefRunKept.lean ====
/-
  The five argument buffers after the seventy operations, as a fold over any starting contents: no operation of
  the list writes an argument buffer, so each holds at the end what it held at the start.
-/
import proofs.«148977_j61701500174620_2_alg».proof.Proof.RefRunOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 1000000 in
/-- No operation writes argument 0's buffer: it keeps its contents. -/
theorem after_arg0 (V : Valuation τ sig (Elt F)) : after ops V (main_arg0 : DevRef τ sig) = V (main_arg0 : DevRef τ sig) := by
  after_results_simp

set_option maxRecDepth 16384 in
set_option maxHeartbeats 1000000 in
/-- No operation writes argument 1's buffer: it keeps its contents. -/
theorem after_arg1 (V : Valuation τ sig (Elt F)) : after ops V (main_arg1 : DevRef τ sig) = V (main_arg1 : DevRef τ sig) := by
  after_results_simp

set_option maxRecDepth 16384 in
set_option maxHeartbeats 1000000 in
/-- No operation writes argument 2's buffer: it keeps its contents. -/
theorem after_arg2 (V : Valuation τ sig (Elt F)) : after ops V (main_arg2 : DevRef τ sig) = V (main_arg2 : DevRef τ sig) := by
  after_results_simp

set_option maxRecDepth 16384 in
set_option maxHeartbeats 1000000 in
/-- No operation writes argument 3's buffer: it keeps its contents. -/
theorem after_arg3 (V : Valuation τ sig (Elt F)) : after ops V (main_arg3 : DevRef τ sig) = V (main_arg3 : DevRef τ sig) := by
  after_results_simp

set_option maxRecDepth 16384 in
set_option maxHeartbeats 1000000 in
/-- No operation writes argument 4's buffer: it keeps its contents. -/
theorem after_arg4 (V : Valuation τ sig (Elt F)) : after ops V (main_arg4 : DevRef τ sig) = V (main_arg4 : DevRef τ sig) := by
  after_results_simp

end Cert.ReferenceIdeal.RefValue

end
-- ==== Proof.RefRun.lean ====
/-
  The reference program's run. It is a straight line of seventy operations on buffers none of which is scoped, so
  from any memory with zero counters every weakly fair execution terminates with each buffer at the fold of the
  operations over the launch contents; read at the result buffer and at the five argument buffers, the result is
  the stage functions' composition applied to the arguments' launch contents and the arguments are unchanged.
-/
import proofs.«148977_j61701500174620_2_alg».proof.Proof.RefRunOut
import proofs.«148977_j61701500174620_2_alg».proof.Proof.RefRunKept

noncomputable section

namespace Cert.ReferenceIdeal.RefValue

open Cert.ReferenceIdeal Cert.ReferenceIdeal.Gen Idealize.ShloMosaic Idealize.ShloMosaic.TcCoe Idealize.SL.Sem Idealize.ShloMosaic.StableHlo

/-- On every device, from any memory with zero counters: every weakly fair execution of the reference terminates
    with the result buffer at `result` of the five arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v38).trans (after_out _), (h c main_arg0).trans (after_arg0 _),
      (h c main_arg1).trans (after_arg1 _), (h c main_arg2).trans (after_arg2 _), (h c main_arg3).trans (after_arg3 _),
      (h c main_arg4).trans (after_arg4 _)⟩)
    (run_seq scopedRefs_eq scopedSems_eq defs main (fun _ => ops) main_eq (fun _ => ops_sub) m ρ)

end Cert.ReferenceIdeal.RefValue

end
-- ==== Proof.RefReadScore.lean ====
/-
  The batched product of two [8, 64, 16, 64, 64] arrays at an index. The product keeps the first three axes of
  both operands as batch axes, keeps the fourth axis of the left operand and the fifth of the right, and contracts
  the left operand's fifth axis against the right operand's fourth. So its entry at (b, c, d, h, j) is the sum over
  x in 0..63 of left[b, c, d, h, x] · right[b, c, d, x, j]: the contraction's index set has one axis of extent 64, and
  at contraction position x the left operand is read at (b, c, d, h, x) and the right one at (b, c, d, x, j).
-/
import proofs.«148977_j61701500174620_2_alg».proof.Proof.RefRunTerm
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen

/-- The product's dimension numbers. -/
abbrev DD : DotDims S8x64x16x64x64 S8x64x16x64x64 S8x64x16x64x64 :=
  dot_S8x64x16x64x64_S8x64x16x64x64_S8x64x16x64x64_4_3_3_4_012_012

/-- The contraction's index set is its one coordinate, below 64. -/
def contr64 : DD.contr.Idx ≃ Fin 64 := contrEquiv1 DD 64 rfl rfl

/-- At contraction position x the left operand is read at (b, c, d, h, x). -/
theorem lhs_at (b : Fin 8) (c : Fin 64) (d : Fin 16) (h j x : Fin 64) :
    DD.lhsIdx (ix5 b c d h j) (contr64.symm x) = ix5 b c d h x := by
  funext a
  refine Fin.ext ?_
  match a with
  | ⟨0, _⟩ => simp [DotDims.lhsIdx, DD, dot_S8x64x16x64x64_S8x64x16x64x64_S8x64x16x64x64_4_3_3_4_012_012]; rfl
  | ⟨1, _⟩ => simp [DotDims.lhsIdx, DD, dot_S8x64x16x64x64_S8x64x16x64x64_S8x64x16x64x64_4_3_3_4_012_012]; rfl
  | ⟨2, _⟩ => simp [DotDims.lhsIdx, DD, dot_S8x64x16x64x64_S8x64x16x64x64_S8x64x16x64x64_4_3_3_4_012_012]; rfl
  | ⟨3, _⟩ => simp [DotDims.lhsIdx, DD, dot_S8x64x16x64x64_S8x64x16x64x64_S8x64x16x64x64_4_3_3_4_012_012]; rfl
  | ⟨4, _⟩ =>
    refine (DD.lhsIdx_val_of_single (cl := 4) rfl _ _).trans ?_
    exact contrEquiv1_symm_val DD 64 rfl rfl x

/-- At contraction position x the right operand is read at (b, c, d, x, j). -/
theorem rhs_at (b : Fin 8) (c : Fin 64) (d : Fin 16) (h j x : Fin 64) :
    DD.rhsIdx (ix5 b c d h j) (contr64.symm x) = ix5 b c d x j := by
  funext a
  refine Fin.ext ?_
  match a with
  | ⟨0, _⟩ => simp [DotDims.rhsIdx, DD, dot_S8x64x16x64x64_S8x64x16x64x64_S8x64x16x64x64_4_3_3_4_012_012]; rfl
  | ⟨1, _⟩ => simp [DotDims.rhsIdx, DD, dot_S8x64x16x64x64_S8x64x16x64x64_S8x64x16x64x64_4_3_3_4_012_012]; rfl
  | ⟨2, _⟩ => simp [DotDims.rhsIdx, DD, dot_S8x64x16x64x64_S8x64x16x64x64_S8x64x16x64x64_4_3_3_4_012_012]; rfl
  | ⟨3, _⟩ =>
    refine (DD.rhsIdx_val_of_single (cr := 3) rfl _ _).trans ?_
    exact contrEquiv1_symm_val DD 64 rfl rfl x
  | ⟨4, _⟩ => simp [DotDims.rhsIdx, DD, dot_S8x64x16x64x64_S8x64x16x64x64_S8x64x16x64x64_4_3_3_4_012_012]; rfl

/-- The batched product at (b, c, d, h, j) is the sum over x of left[b, c, d, h, x] · right[b, c, d, x, j]. -/
theorem dot_apply (l r : FVec Ideal S8x64x16x64x64 .f32) (b : Fin 8) (c : Fin 64) (d : Fin 16) (h j : Fin 64) :
    Host.dotGeneral DD none l r (ix5 b c d h j) = ∑ x : Fin 64, l (ix5 b c d h x) * r (ix5 b c d x j) := by
  refine (Ideal.dotGeneral_apply DD none _ l r (ix5 b c d h j)).trans ?_
  rw [← Equiv.sum_comp contr64.symm]
  exact Finset.sum_congr rfl fun x _ => by rw [lhs_at, rhs_at]

/-- The scores at (b, c, d, h, j): the inner product of q's row and k's column. -/
theorem scores_apply (q k : FVec Ideal S8x64x16x64x64 .f32) (b : Fin 8) (c : Fin 64) (d : Fin 16) (h j : Fin 64) :
    scores q k (ix5 b c d h j) = ∑ x : Fin 64, q (ix5 b c d h x) * k (ix5 b c d x j) :=
  dot_apply q k b c d h j

end Cert.ReferenceIdeal.RefValue

end
-- ==== Proof.RefReadLayout.lean ====
/-
  The reference's changes of layout at an index. A per-row value laid along its row reads, at (b, c, d, h, w), the
  value at (b, c, d, h); a per-channel vector made a [1, 64, 1, 1, 1] array reads, at (0, c, 0, 0, 0), the vector at
  c; such an array laid over the whole [8, 64, 16, 64, 64] array reads, at (b, c, d, h, w), its entry at
  (0, c, 0, 0, 0); and a scalar made a [1, 64, 1, 1, 1] array or a whole array reads the scalar everywhere. Each is
  a broadcast, which reads its operand at the result index's coordinates on the axes it names and at 0 on the
  operand's axes of extent one.
-/
import proofs.«148977_j61701500174620_2_alg».proof.Proof.RefRunTerm
import Idealize.ShloMosaic.Lib.Pipeline.Value
import Idealize.ShloMosaic.Lib.IdealHost

noncomputable section

open scoped BigOperators

namespace Cert.ReferenceIdeal.RefValue

open Idealize.ShloMosaic Idealize.ShloMosaic.ValueIdx Cert.ReferenceIdeal Cert.ReferenceIdeal.Gen

variable {α : Type}

/-- A per-row value laid along its row reads the row's value. -/
theorem alongRow_apply (r : FVec Ideal S8x64x16x64 .f32) (b : Fin 8) (c : Fin 64) (d : Fin 16) (h w : Fin 64) :
    alongRow r (ix5 b c d h w) = r (ix4 b c d h) := by
  unfold alongRow
  refine (broadcastInDim_apply _ _ _ (ix5 b c d h w) (ix5 b c d h (0 : Fin 1)) ?_).trans ?_
  · intro a; match a with
    | ⟨0, _⟩ => rfl
    | ⟨1, _⟩ => rfl
    | ⟨2, _⟩ => rfl
    | ⟨3, _⟩ => rfl
    | ⟨4, _⟩ => rfl
  · refine broadcastInDim_apply _ _ _ (ix5 b c d h (0 : Fin 1)) (ix4 b c d h) ?_
    intro a; match a with
    | ⟨0, _⟩ => rfl
    | ⟨1, _⟩ => rfl
    | ⟨2, _⟩ => rfl
    | ⟨3, _⟩ => rfl

/-- A per-channel vector as a [1, 64, 1, 1, 1] array reads the vector at the channel. -/
theorem chanCol_apply (a : FVec Ideal S64 .f32) (c : Fin 64) :
    chanCol a (ix5 (0 : Fin 1) c (0 : Fin 1) (0 : Fin 1) (0 : Fin 1)) = a (ix1 c) := by
  unfold chanCol
  refine broadcastInDim_apply _ _ _ _ (ix1 c) ?_
  intro i; match i with
  | ⟨0, _⟩ => rfl

/-- A [1, 64, 1, 1, 1] array laid over the whole array reads its entry at the channel. -/
theorem overAll_apply (a : FVec Ideal S1x64x1x1x1 .f32) (b : Fin 8) (c : Fin 64) (d : Fin 16) (h w : Fin 64) :
    overAll a (ix5 b c d h w) = a (ix5 (0 : Fin 1) c (0 : Fin 1) (0 : Fin 1) (0 : Fin 1)) := by
  unfold overAll
  refine broadcastInDim_apply _ _ _ (ix5 b c d h w) (ix5 (0 : Fin 1) c (0 : Fin 1) (0 : Fin 1) (0 : Fin 1)) ?_
  intro i; match i with
  | ⟨0, _⟩ => rfl
  | ⟨1, _⟩ => rfl
  | ⟨2, _⟩ => rfl
  | ⟨3, _⟩ => rfl
  | ⟨4, _⟩ => rfl

/-- A scalar as a [1, 64, 1, 1, 1] array reads the scalar. -/
theorem splatCol_apply (a : FVec Ideal S_ .f32) (j : S1x64x1x1x1.Idx) : splatCol a j = a ix0 := by
  unfold splatCol
  exact broadcastInDim_scalar_apply _ a j

end Cert.ReferenceIdeal.RefValue

end
-- ==== Proof.RefReadConst.lean ====
/-
  The reference's constants as extended reals, and the one comparison it makes between them. The pattern
  0xFF800000 is -∞; the pattern 0x49000000 is the real 524288, the number of entries per channel; an integer zero
  converted to a float is 0; so the count less that zero is above zero, the comparison "greater than zero" is
  true, and the select it guards takes its first branch.
-/
import proofs.«148977_j61701500174620_2_alg».proof.Proof.Spec
import Idealize.ShloMosaic.Lib.IdealHost

noncomputable section

open scoped BigOperators

namespace Cert.ReferenceIdeal.RefValue

open Idealize.ShloMosaic Idealize.ShloMosaic.ValueIdx Cert.AttnNorm

/-- The pattern 0xFF800000 is -∞. -/
theorem ofBits_negInf : Ideal.ofBits .f32 0xFF800000#32 = (⊥ : EReal) := by
  simp [Ideal.ofBits, Ideal.ieee]

/-- The count's pattern is the real 524288. -/
theorem cntN_eq : cntN = ((524288 : ℝ) : EReal) := by
  unfold cntN
  simp [Ideal.ofBits, Ideal.ieee, -EReal.coe_mul]; norm_num

/-- An integer zero converted to a float is zero. -/
theorem sitofp_zero : FloatOps.sitofp (F := Ideal) .f32 (0#32 : BitVec 32) = (0 : EReal) := by
  show ((((0#32 : BitVec 32).toInt : ℝ)) : EReal) = 0
  simp

/-- The count less zero is above zero. -/
theorem cnt_pos : (0 : EReal) < cntN - 0 := by
  rw [cntN_eq, sub_zero]
  exact EReal.coe_pos.mpr (by norm_num)

/-- The comparison of the count less zero with zero is true. -/
theorem cmp_cnt : Ideal.cmp .ogt (cntN - 0) 0 = 1#1 := by
  show BitVec.ofBool (decide ((0 : EReal) < cntN - 0)) = 1#1
  rw [decide_eq_true cnt_pos]
  rfl

end Cert.ReferenceIdeal.RefValue

end
-- ==== Proof.RefReadSoftmax.lean ====
/-
  The softmax of the scores' rows and the weighted sum, at an index, in the specification's words. With an array
  read by its coordinates: a row's maximum from -∞ (then once more against -∞) is the specification's row maximum;
  the exponential of a score less its row's maximum, the row's sum of those from zero, and their quotient are the
  specification's exponential, denominator and weight; and the weights' batched product with v plus v is the
  specification's attention output of the scores read by coordinates. The reductions are over the last axis alone:
  the source index over (b, c, d, h) with last coordinate j is (b, c, d, h, j).
-/
import proofs.«148977_j61701500174620_2_alg».proof.Proof.RefReadScore
import proofs.«148977_j61701500174620_2_alg».proof.Proof.RefReadLayout
import proofs.«148977_j61701500174620_2_alg».proof.Proof.RefReadConst
import proofs.«148977_j61701500174620_2_alg».proof.Proof.Spec

noncomputable section

open scoped BigOperators

namespace Cert.ReferenceIdeal.RefValue

open Idealize.ShloMosaic Idealize.ShloMosaic.ValueIdx Cert.ReferenceIdeal Cert.ReferenceIdeal.Gen Cert.AttnNorm

/-- The last axis dropped: a shape fact the single-axis readings take. -/
theorem red4 : S8x64x16x64x64.Reduces [4] S8x64x16x64 := by decide

/-- The source index over (b, c, d, h) with last coordinate j is (b, c, d, h, j). -/
theorem lift_row (b : Fin 8) (c : Fin 64) (d : Fin 16) (h j : Fin 64) :
    red4.lift (ix4 b c d h) j = ix5 b c d h j := by
  funext a
  refine Fin.ext ?_
  match a with
  | ⟨0, _⟩ => rfl
  | ⟨1, _⟩ => rfl
  | ⟨2, _⟩ => rfl
  | ⟨3, _⟩ => rfl
  | ⟨4, _⟩ => rfl

/-- The scores read by coordinates are the specification's scores of q and k read by coordinates. -/
theorem cur5_scores (q k : FVec Ideal S8x64x16x64x64 .f32) : cur5 (scores q k) = scoreR (cur5 q) (cur5 k) := by
  funext b c d h j
  exact scores_apply q k b c d h j

/-- The ideal instance's maximum is the extended reals' maximum. -/
theorem maximumf_eq_max : (FloatOps.maximumf : Ideal .f32 → Ideal .f32 → Ideal .f32) = (max : EReal → EReal → EReal) := rfl

/-- A row's maximum from the -∞ pattern is the fold of the maximum from -∞ over the row's entries. -/
theorem rowFold (S : FVec Ideal S8x64x16x64x64 .f32) (b : Fin 8) (c : Fin 64) (d : Fin 16) (h : Fin 64) :
    Host.reduce FloatOps.maximumf S (constant (F := Ideal) S_ .f32 0xFF800000#32) reducesTo_S8x64x16x64x64_S8x64x16x64_d4 h_S_ (ix4 b c d h)
      = (Finset.univ : Finset (Fin 64)).fold max ⊥ (fun j => cur5 S b c d h j) := by
  rw [maximumf_eq_max]
  refine (Host.reduce_eq_fold_single max S _ reducesTo_S8x64x16x64x64_S8x64x16x64_d4 red4 h_S_ (ix4 b c d h)).trans ?_
  have i0 : (constant (F := Ideal) S_ .f32 0xFF800000#32) (Shape.Idx.first h_S_) = (⊥ : EReal) := ofBits_negInf
  have i1 : (fun j : Fin 64 => S (red4.lift (ix4 b c d h) j)) = fun j => cur5 S b c d h j := by
    funext j; rw [lift_row]; rfl
  exact congrArg₂ (fun i f => (Finset.univ : Finset (Fin 64)).fold max i f) i0 i1

/-- A row's maximum is the specification's. -/
theorem rowMaxV_apply (S : FVec Ideal S8x64x16x64x64 .f32) (b : Fin 8) (c : Fin 64) (d : Fin 16) (h : Fin 64) :
    rowMaxV S (ix4 b c d h) = rowMax (cur5 S) b c d h := by
  unfold rowMaxV rowMax
  refine (maximumf_apply _ _ (ix4 b c d h)).trans ?_
  exact congrArg₂ max ((broadcastInDim_scalar_apply _ _ _).trans ofBits_negInf) (rowFold S b c d h)

/-- The exponential of a score less its row's maximum is the specification's. -/
theorem expV_apply (S : FVec Ideal S8x64x16x64x64 .f32) (b : Fin 8) (c : Fin 64) (d : Fin 16) (h j : Fin 64) :
    expV S (ix5 b c d h j) = expo (cur5 S) b c d h j := by
  unfold expV expo
  show Ideal.exp (S (ix5 b c d h j) - alongRow (rowMaxV S) (ix5 b c d h j)) = Ideal.exp (cur5 S b c d h j - rowMax (cur5 S) b c d h)
  rw [alongRow_apply, rowMaxV_apply]
  rfl

/-- A row's sum of exponentials from zero is the specification's denominator. -/
theorem rowSumV_expV (S : FVec Ideal S8x64x16x64x64 .f32) (b : Fin 8) (c : Fin 64) (d : Fin 16) (h : Fin 64) :
    rowSumV (expV S) (ix4 b c d h) = denom (cur5 S) b c d h := by
  unfold rowSumV denom
  refine (hostReduceAdd_apply (expV S) _ _ _ (ix4 b c d h)).trans ?_
  refine (Ideal.hostReduceAdd_single reducesTo_S8x64x16x64x64_S8x64x16x64_d4 red4 (expV S) _ (ix4 b c d h)).trans ?_
  have i0 : (constant (F := Ideal) S_ .f32 0x00000000#32) (Shape.Idx.first h_S_) = (0 : EReal) := Ideal.ofBits_zero_f32
  rw [i0, zero_add]
  show ∑ j : Fin 64, expV S (red4.lift (ix4 b c d h) j) = ∑ j : Fin 64, expo (cur5 S) b c d h j
  exact Finset.sum_congr rfl fun j _ => by rw [lift_row, expV_apply]

/-- The softmax weight is the specification's. -/
theorem probV_apply (S : FVec Ideal S8x64x16x64x64 .f32) (b : Fin 8) (c : Fin 64) (d : Fin 16) (h j : Fin 64) :
    probV (expV S) (ix5 b c d h j) = prob (cur5 S) b c d h j := by
  unfold probV prob
  show Ideal.div (expV S (ix5 b c d h j)) (alongRow (rowSumV (expV S)) (ix5 b c d h j)) = Ideal.div (expo (cur5 S) b c d h j) (denom (cur5 S) b c d h)
  rw [alongRow_apply, expV_apply, rowSumV_expV]

/-- The attention output read by coordinates is the specification's, of the specification's scores. -/
theorem cur5_attnOut (q k v : FVec Ideal S8x64x16x64x64 .f32) :
    cur5 (attnOut q k v) = attn (scoreR (cur5 q) (cur5 k)) (cur5 v) := by
  funext b c d h w
  show Host.dotGeneral DD none (probV (expV (scores q k))) v (ix5 b c d h w) + v (ix5 b c d h w)
    = (∑ j : Fin 64, prob (scoreR (cur5 q) (cur5 k)) b c d h j * cur5 v b c d j w) + cur5 v b c d h w
  rw [dot_apply, ← cur5_scores]
  refine congrArg (· + v (ix5 b c d h w)) ?_
  exact Finset.sum_congr rfl fun j _ => by rw [probV_apply]; rfl

end Cert.ReferenceIdeal.RefValue

end
-- ==== Proof.RefReadChanSum.lean ====
/-
  The sum over every axis but the channel's, at a channel. The host's sum from an initial value is, at each result
  index, the initial value plus the sum of the operand over the source indices that drop to that result index. For
  the axes (0, 2, 3, 4) of a [8, 64, 16, 64, 64] array the one kept axis is the channel's, so a source index drops to
  channel c exactly when its second coordinate is c; those indices are (b, c, d, h, w) for (b, d, h, w) in
  [8] × [16] × [64] × [64], one for each, and the sum over them is the fourfold sum over the coordinates. From the
  zero pattern the result is 0 + that fourfold sum.
-/
import proofs.«148977_j61701500174620_2_alg».proof.Proof.RefRunTerm
import proofs.«148977_j61701500174620_2_alg».proof.Proof.Spec
import Idealize.ShloMosaic.Lib.IdealHost

noncomputable section

open scoped BigOperators

namespace Cert.ReferenceIdeal.RefValue

open Idealize.ShloMosaic Idealize.ShloMosaic.ValueIdx Cert.ReferenceIdeal Cert.ReferenceIdeal.Gen Cert.AttnNorm

/-- A source index drops to its second coordinate. -/
theorem drop_chan (hR : S8x64x16x64x64.ReducesTo [0, 2, 3, 4] S64) (i : S8x64x16x64x64.Idx) :
    ((hR.drop i 0 : Fin _) : ℕ) = (i 1 : ℕ) :=
  Shape.ReducesTo.drop_apply_val_of_eq hR i 0 1

/-- The sum over the source indices dropping to channel c is the fourfold sum over the other coordinates. -/
theorem sum_drop_chan (hR : S8x64x16x64x64.ReducesTo [0, 2, 3, 4] S64) (x : S8x64x16x64x64.Idx → EReal) (c : Fin 64) :
    ∑ i ∈ Finset.univ.filter (fun i => hR.drop i = ix1 c), x i
      = ∑ b : Fin 8, ∑ d : Fin 16, ∑ h : Fin 64, ∑ w : Fin 64, x (ix5 b c d h w) := by
  have hc : ∀ i : S8x64x16x64x64.Idx, hR.drop i = ix1 c → (i 1 : ℕ) = c.val := fun i e => by
    rw [← drop_chan hR i, e]
  have hin : ∀ (b : Fin 8) (d : Fin 16) (h w : Fin 64), hR.drop (ix5 b c d h w) = ix1 c := fun b d h w => by
    funext a
    match a with
    | ⟨0, _⟩ => exact Fin.ext (drop_chan hR (ix5 b c d h w))
  have hback : ∀ i : S8x64x16x64x64.Idx, hR.drop i = ix1 c → ix5 (i 0) c (i 2) (i 3) (i 4) = i := fun i e => by
    funext a
    match a with
    | ⟨0, _⟩ => rfl
    | ⟨1, _⟩ => exact Fin.ext (hc i e).symm
    | ⟨2, _⟩ => rfl
    | ⟨3, _⟩ => rfl
    | ⟨4, _⟩ => rfl
  have hsum : ∑ i ∈ Finset.univ.filter (fun i => hR.drop i = ix1 c), x i
      = ∑ p : Fin 8 × Fin 16 × Fin 64 × Fin 64, x (ix5 p.1 c p.2.1 p.2.2.1 p.2.2.2) := by
    refine Finset.sum_nbij' (fun i => (i 0, i 2, i 3, i 4)) (fun p => ix5 p.1 c p.2.1 p.2.2.1 p.2.2.2) ?_ ?_ ?_ ?_ ?_
    · intro i _; exact Finset.mem_univ _
    · intro p _; exact Finset.mem_filter.2 ⟨Finset.mem_univ _, hin _ _ _ _⟩
    · intro i hi; exact hback i (Finset.mem_filter.1 hi).2
    · intro p _; rfl
    · intro i hi; exact congrArg x (hback i (Finset.mem_filter.1 hi).2).symm
  rw [hsum]
  simp only [Fintype.sum_prod_type]

/-- The channel's sum from the zero pattern is zero plus the total over batch, depth, row and column. -/
theorem chanSum_apply (Y : FVec Ideal S8x64x16x64x64 .f32) (c : Fin 64) :
    chanSum Y (ix1 c) = 0 + total (cur5 Y) c := by
  unfold chanSum
  refine (hostReduceAdd_apply Y _ _ _ (ix1 c)).trans ?_
  unfold Ideal.hostReduceAdd
  rw [sum_drop_chan]
  exact congrArg (· + _) Ideal.ofBits_zero_f32

end Cert.ReferenceIdeal.RefValue

end
-- ==== Proof.RefReadNorm.lean ====
/-
  The per-channel normalisation and the final gate, at an index, in the specification's words. With an array read
  by its coordinates: the channel's sum over the count is the specification's mean; the deviation from it is the
  specification's deviation and its square the specification's squared deviation; the count less a converted
  integer zero is above zero, so the guarded variance is the mean of squared deviations over that divisor, the
  specification's variance; the deviation times the reciprocal square root of the variance plus the small
  constant, times γ, plus β is the specification's normalised value; and z times 1 / (1 + exp (-z)), the constant
  one read as the extended real 1, is z times the logistic of z.
-/
import proofs.«148977_j61701500174620_2_alg».proof.Proof.RefReadLayout
import proofs.«148977_j61701500174620_2_alg».proof.Proof.RefReadConst
import proofs.«148977_j61701500174620_2_alg».proof.Proof.RefReadChanSum
import proofs.«148977_j61701500174620_2_alg».proof.Proof.Spec

noncomputable section

open scoped BigOperators

namespace Cert.ReferenceIdeal.RefValue

open Idealize.ShloMosaic Idealize.ShloMosaic.ValueIdx Cert.ReferenceIdeal Cert.ReferenceIdeal.Gen Cert.AttnNorm

/-- The per-channel mean is the specification's. -/
theorem meanV_apply (Y : FVec Ideal S8x64x16x64x64 .f32) (c : Fin 64) :
    meanV Y (ix5 (0 : Fin 1) c (0 : Fin 1) (0 : Fin 1) (0 : Fin 1)) = meanR (cur5 Y) c := by
  unfold meanV meanR
  show Ideal.div (chanCol (chanSum Y) (ix5 (0 : Fin 1) c (0 : Fin 1) (0 : Fin 1) (0 : Fin 1))) (splatCol (constant (F := Ideal) S_ .f32 0x49000000#32) (ix5 (0 : Fin 1) c (0 : Fin 1) (0 : Fin 1) (0 : Fin 1)))
    = Ideal.div (0 + total (cur5 Y) c) cntN
  rw [chanCol_apply, chanSum_apply, splatCol_apply]
  rfl

/-- The deviation from the per-channel mean is the specification's. -/
theorem devV_apply (Y : FVec Ideal S8x64x16x64x64 .f32) (b : Fin 8) (c : Fin 64) (d : Fin 16) (h w : Fin 64) :
    devV Y (ix5 b c d h w) = cur5 Y b c d h w - meanR (cur5 Y) c := by
  unfold devV
  show Y (ix5 b c d h w) - overAll (meanV Y) (ix5 b c d h w) = cur5 Y b c d h w - meanR (cur5 Y) c
  rw [overAll_apply, meanV_apply]
  rfl

/-- The squared deviation read by coordinates is the specification's. -/
theorem cur5_devsq (Y : FVec Ideal S8x64x16x64x64 .f32) : cur5 (mulf (devV Y) (devV Y)) = devsq (cur5 Y) := by
  funext b c d h w
  show devV Y (ix5 b c d h w) * devV Y (ix5 b c d h w)
    = (cur5 Y b c d h w - meanR (cur5 Y) c) * (cur5 Y b c d h w - meanR (cur5 Y) c)
  rw [devV_apply]

/-- The variance's divisor is the count less zero. -/
theorem cntLess_apply : cntLess (F := Ideal) ix0 = cntN - 0 := by
  unfold cntLess
  show Ideal.ofBits .f32 0x49000000#32 - FloatOps.sitofp (F := Ideal) .f32 (0#32 : BitVec 32) = cntN - 0
  rw [sitofp_zero]
  rfl

/-- The guarded per-channel variance is the specification's. -/
theorem varV_apply (Y : FVec Ideal S8x64x16x64x64 .f32) (c : Fin 64) :
    varV Y (ix5 (0 : Fin 1) c (0 : Fin 1) (0 : Fin 1) (0 : Fin 1)) = varR (cur5 Y) c := by
  unfold varV varR
  show Scalar.select
      (broadcastInDim S1x64x1x1x1 ![] bcast_S_S1x64x1x1x1 (cmpf .ogt (cntLess (F := Ideal)) (constant S_ .f32 0x00000000#32)) (ix5 (0 : Fin 1) c (0 : Fin 1) (0 : Fin 1) (0 : Fin 1)))
      (Ideal.div (chanCol (chanSum (mulf (devV Y) (devV Y))) (ix5 (0 : Fin 1) c (0 : Fin 1) (0 : Fin 1) (0 : Fin 1))) (splatCol (cntLess (F := Ideal)) (ix5 (0 : Fin 1) c (0 : Fin 1) (0 : Fin 1) (0 : Fin 1))))
      (splatCol (id (constant (F := Ideal) S_ .f32 0x7FC00000#32)) (ix5 (0 : Fin 1) c (0 : Fin 1) (0 : Fin 1) (0 : Fin 1)))
    = Ideal.div (0 + total (devsq (cur5 Y)) c) (cntN - 0)
  have hcond : broadcastInDim S1x64x1x1x1 ![] bcast_S_S1x64x1x1x1 (cmpf .ogt (cntLess (F := Ideal)) (constant S_ .f32 0x00000000#32)) (ix5 (0 : Fin 1) c (0 : Fin 1) (0 : Fin 1) (0 : Fin 1)) = 1#1 := by
    refine (broadcastInDim_scalar_apply _ _ _).trans ?_
    show Ideal.cmp .ogt (cntLess (F := Ideal) ix0) (Ideal.ofBits .f32 0x00000000#32) = 1#1
    rw [cntLess_apply, Ideal.ofBits_zero_f32]
    exact cmp_cnt
  rw [hcond, select_one, chanCol_apply, chanSum_apply, cur5_devsq, splatCol_apply, cntLess_apply]

/-- The normalised value is the specification's. -/
theorem normV_apply (Y : FVec Ideal S8x64x16x64x64 .f32) (γ β : FVec Ideal S64 .f32) (b : Fin 8) (c : Fin 64) (d : Fin 16) (h w : Fin 64) :
    normV Y γ β (ix5 b c d h w) = normR (cur5 Y) (cur1 γ) (cur1 β) b c d h w := by
  unfold normV normR rstdR
  show ((Y (ix5 b c d h w) - overAll (meanV Y) (ix5 b c d h w))
        * overAll (Host.rsqrt (addf (varV Y) (splatCol (constant (F := Ideal) S_ .f32 0x3727C5AC#32)))) (ix5 b c d h w))
        * overAll (chanCol γ) (ix5 b c d h w) + overAll (chanCol β) (ix5 b c d h w)
    = ((cur5 Y b c d h w - meanR (cur5 Y) c) * Ideal.rsqrt (varR (cur5 Y) c + epsN)) * cur1 γ c + cur1 β c
  rw [overAll_apply (meanV Y), overAll_apply (Host.rsqrt _), overAll_apply (chanCol γ), overAll_apply (chanCol β),
    meanV_apply, chanCol_apply, chanCol_apply]
  show ((Y (ix5 b c d h w) - meanR (cur5 Y) c)
        * Ideal.rsqrt (varV Y (ix5 (0 : Fin 1) c (0 : Fin 1) (0 : Fin 1) (0 : Fin 1)) + splatCol (constant (F := Ideal) S_ .f32 0x3727C5AC#32) (ix5 (0 : Fin 1) c (0 : Fin 1) (0 : Fin 1) (0 : Fin 1))))
        * γ (ix1 c) + β (ix1 c)
    = ((cur5 Y b c d h w - meanR (cur5 Y) c) * Ideal.rsqrt (varR (cur5 Y) c + epsN)) * cur1 γ c + cur1 β c
  rw [varV_apply, splatCol_apply]
  rfl

/-- z times 1 / (1 + exp (-z)) is z times the logistic of z. -/
theorem swishV_apply (z : FVec Ideal S8x64x16x64x64 .f32) (i : S8x64x16x64x64.Idx) : swishV z i = swish (z i) := by
  unfold swishV swish Ideal.logistic
  show z i * Ideal.div (broadcastInDim S8x64x16x64x64 ![] bcast_S_S8x64x16x64x64 (constant (F := Ideal) S_ .f32 0x3F800000#32) i)
      (broadcastInDim S8x64x16x64x64 ![] bcast_S_S8x64x16x64x64 (constant (F := Ideal) S_ .f32 0x3F800000#32) i + Ideal.exp (-(z i)))
    = z i * Ideal.div 1 (1 + Ideal.exp (-(z i)))
  have h1 : broadcastInDim S8x64x16x64x64 ![] bcast_S_S8x64x16x64x64 (constant (F := Ideal) S_ .f32 0x3F800000#32) i = (1 : EReal) :=
    (broadcastInDim_scalar_apply _ _ _).trans Ideal.ofBits_one_f32
  rw [h1]

end Cert.ReferenceIdeal.RefValue

end
-- ==== Proof.RefRead.lean ====
/-
  The reference's result at an index is the specification's. The result is the gate applied to the normalised
  attention output; read at (b, c, d, h, w), the gate is z times the logistic of z, the normalised value is the
  specification's of the attention output read by coordinates, and that is the specification's attention output of
  the inner-product scores of q and k with v.
-/
import proofs.«148977_j61701500174620_2_alg».proof.Proof.RefReadSoftmax
import proofs.«148977_j61701500174620_2_alg».proof.Proof.RefReadNorm

noncomputable section

open scoped BigOperators

namespace Cert.ReferenceIdeal.RefValue

open Idealize.ShloMosaic Idealize.ShloMosaic.ValueIdx Cert.ReferenceIdeal Cert.ReferenceIdeal.Gen Cert.AttnNorm

/-- The reference's result at (b, c, d, h, w) is the specification's result through the deviation, of the
    specification's attention output. -/
theorem result_apply (q k v : FVec Ideal S8x64x16x64x64 .f32) (γ β : FVec Ideal S64 .f32) (b : Fin 8) (c : Fin 64) (d : Fin 16) (h w : Fin 64) :
    result q k v γ β (ix5 b c d h w) = outR (attn (scoreR (cur5 q) (cur5 k)) (cur5 v)) (cur1 γ) (cur1 β) b c d h w := by
  unfold result resultF outR
  rw [swishV_apply, normV_apply, cur5_attnOut]

end Cert.ReferenceIdeal.RefValue

end
-- ==== Proof.KAttnLay.lean ====
/-
  The rearrangements the attention block is written with, each read at an index given by its coordinates.

  A [1, 64, 2, 64, 64] block and its [64, 2, 64, 64] form hold the same entries with the unit coordinate dropped; the
  [64, 2, 64, 64] form and the [128, 64, 64] form (the stack of 128 matrices the products run over) match entry (c, e, i, j)
  with entry (2 c + e, i, j), because both count positions row by row; a [64, 2, 64] array of row statistics becomes a
  [64, 2, 64, 1] column and is then repeated along the last axis, so that entry (c, e, i, j) of the repeated array is the
  statistic of row (c, e, i). A sum or a maximum along the last axis of a [64, 2, 64, 64] array is, at (c, e, i), the sum or
  the maximum (taken from the starting value) over j of the entries (c, e, i, j).
-/
import Idealize.ShloMosaic.Lib.ValueLayout
import Idealize.ShloMosaic.PureOps.Ideal.Laws

noncomputable section

open scoped BigOperators

namespace Cert.KernelIdeal.Attn

open Idealize.ShloMosaic Idealize.ShloMosaic.ValueIdx

/-- The shape [1, 64, 2, 64, 64] of a block. -/
abbrev B5 : Shape := ⟨5, ![1, 64, 2, 64, 64]⟩
/-- The shape [64, 2, 64, 64]: a block without its unit axis. -/
abbrev B4 : Shape := ⟨4, ![64, 2, 64, 64]⟩
/-- The shape [128, 64, 64]: a block as a stack of 128 matrices. -/
abbrev B3 : Shape := ⟨3, ![128, 64, 64]⟩
/-- The shape [64, 2, 64] of a block's row statistics. -/
abbrev R3 : Shape := ⟨3, ![64, 2, 64]⟩
/-- The shape [64, 2, 64, 1]: the row statistics as a column. -/
abbrev R4 : Shape := ⟨4, ![64, 2, 64, 1]⟩

variable {α : Type}

/-- A block cast to [64, 2, 64, 64] reads, at (c, e, i, j), the block at (0, c, e, i, j). -/
theorem cast_B5_B4 (x : B5.Idx → α) (h : B5.ShapeCasts B4) (c : Fin 64) (e : Fin 2) (i j : Fin 64) :
    shapeCast B4 x h (ix4 c e i j) = x (ix5 (0 : Fin 1) c e i j) :=
  shapeCast_apply x h _ _ (by
    rw [Shape.rowMajor_val_five, Shape.rowMajor_val_four]
    show ((((0 * 64 + c.val) * 2 + e.val) * 64 + i.val) * 64 + j.val) = ((c.val * 2 + e.val) * 64 + i.val) * 64 + j.val
    rw [Nat.zero_mul, Nat.zero_add])

/-- A [64, 2, 64, 64] array cast to a block reads, at (u, c, e, i, j), the array at (c, e, i, j). -/
theorem cast_B4_B5 (x : B4.Idx → α) (h : B4.ShapeCasts B5) (u : Fin 1) (c : Fin 64) (e : Fin 2) (i j : Fin 64) :
    shapeCast B5 x h (ix5 u c e i j) = x (ix4 c e i j) :=
  shapeCast_apply x h _ _ (by
    have hu : u.val = 0 := by omega
    rw [Shape.rowMajor_val_five, Shape.rowMajor_val_four]
    show ((c.val * 2 + e.val) * 64 + i.val) * 64 + j.val = ((((u.val * 64 + c.val) * 2 + e.val) * 64 + i.val) * 64 + j.val)
    rw [hu, Nat.zero_mul, Nat.zero_add])

/-- A [64, 2, 64, 64] array cast to the stack of 128 matrices reads, at (n, i, j) with n = 2 c + e, the array at (c, e, i, j). -/
theorem cast_B4_B3 (x : B4.Idx → α) (h : B4.ShapeCasts B3) (n : Fin 128) (c : Fin 64) (e : Fin 2) (i j : Fin 64)
    (hn : n.val = 2 * c.val + e.val) : shapeCast B3 x h (ix3 n i j) = x (ix4 c e i j) :=
  shapeCast_apply x h _ _ (by
    rw [Shape.rowMajor_val_four, Shape.rowMajor_val_three]
    show ((c.val * 2 + e.val) * 64 + i.val) * 64 + j.val = (n.val * 64 + i.val) * 64 + j.val
    omega)

/-- The stack of 128 matrices cast to [64, 2, 64, 64] reads, at (c, e, i, j), the stack at (n, i, j) with n = 2 c + e. -/
theorem cast_B3_B4 (x : B3.Idx → α) (h : B3.ShapeCasts B4) (n : Fin 128) (c : Fin 64) (e : Fin 2) (i j : Fin 64)
    (hn : n.val = 2 * c.val + e.val) : shapeCast B4 x h (ix4 c e i j) = x (ix3 n i j) :=
  shapeCast_apply x h _ _ (by
    rw [Shape.rowMajor_val_four, Shape.rowMajor_val_three]
    show (n.val * 64 + i.val) * 64 + j.val = ((c.val * 2 + e.val) * 64 + i.val) * 64 + j.val
    omega)

/-- Row statistics cast to a column read, at (c, e, i, u), the statistic of row (c, e, i). -/
theorem cast_R3_R4 (x : R3.Idx → α) (h : R3.ShapeCasts R4) (c : Fin 64) (e : Fin 2) (i : Fin 64) (u : Fin 1) :
    shapeCast R4 x h (ix4 c e i u) = x (ix3 c e i) :=
  shapeCast_apply x h _ _ (by
    have hu : u.val = 0 := by omega
    rw [Shape.rowMajor_val_four, Shape.rowMajor_val_three]
    show (c.val * 2 + e.val) * 64 + i.val = ((c.val * 2 + e.val) * 64 + i.val) * 1 + u.val
    omega)

/-- The column repeated along the last axis reads, at (c, e, i, j), the column's entry of row (c, e, i). -/
theorem bcast_R4_B4 (x : R4.Idx → α) (h : R4.Broadcasts B4) (c : Fin 64) (e : Fin 2) (i j : Fin 64) :
    broadcastTo B4 x h (ix4 c e i j) = x (ix4 c e i (0 : Fin 1)) := by
  refine broadcastTo_apply x h (ix4 c e i j) (ix4 c e i (0 : Fin 1)) fun ax => ?_
  match ax with
  | ⟨0, _⟩ => rfl
  | ⟨1, _⟩ => rfl
  | ⟨2, _⟩ => rfl
  | ⟨3, _⟩ => rfl

/-- A sum along the last axis, read at (c, e, i): the sum over j of the entries (c, e, i, j). -/
theorem rowSum_apply (src : FVec Ideal B4 .f32) (h : B4.Reduces [3] R3) (hφ : FKind.Formats .f32)
    (hacc : (0x00000000#32 : BitVec 32) = FKind.add.neutral .f32 hφ) (c : Fin 64) (e : Fin 2) (i : Fin 64) :
    multiReduction .add [3] R3 src 0x00000000#32 h hφ hacc (ix3 c e i) = ∑ j : Fin 64, src (ix4 c e i j) := by
  refine (Ideal.multiReduction_add_single src 0x00000000#32 h hφ hacc (ix3 c e i)).trans ?_
  refine Finset.sum_congr rfl fun j _ => congrArg src ?_
  funext a
  match a with
  | ⟨0, _⟩ => rfl
  | ⟨1, _⟩ => rfl
  | ⟨2, _⟩ => rfl
  | ⟨3, _⟩ => rfl

/-- A maximum along the last axis from the starting pattern, read at (c, e, i): the fold of max from the pattern's value
    over j of the entries (c, e, i, j). -/
theorem rowMax_apply (src : FVec Ideal B4 .f32) (acc : BitVec 32) (h : B4.Reduces [3] R3) (hφ : FKind.Formats .f32)
    (hacc : acc = FKind.maximumf.neutral .f32 hφ) (c : Fin 64) (e : Fin 2) (i : Fin 64) :
    multiReduction .maximumf [3] R3 src acc h hφ hacc (ix3 c e i)
      = (Finset.univ : Finset (Fin 64)).fold max (Ideal.ofBits .f32 acc) (fun j => src (ix4 c e i j)) := by
  refine (Ideal.multiReduction_maximumf_single src acc h hφ hacc (ix3 c e i)).trans ?_
  refine congrArg (fun f => (Finset.univ : Finset (Fin 64)).fold max (Ideal.ofBits .f32 acc) f) ?_
  funext j
  refine congrArg src ?_
  funext a
  match a with
  | ⟨0, _⟩ => rfl
  | ⟨1, _⟩ => rfl
  | ⟨2, _⟩ => rfl
  | ⟨3, _⟩ => rfl

/-- The pattern of -∞ in single precision denotes the least extended real. -/
theorem ofBits_neg_inf : Ideal.ofBits .f32 0xFF800000#32 = (⊥ : EReal) := by
  simp [Ideal.ofBits, Ideal.ieee]

end Cert.KernelIdeal.Attn

end
-- ==== Proof.KAttnMat.lean ====
/-
  The product of two stacks of 128 matrices, read at an entry.

  The block's products take matrix n of the left stack times matrix n of the right stack: the stack axis is shared, the
  left operand's last axis is summed against the right operand's middle axis, and the sum starts from a zero array. So
  entry (n, i, j) of the product is the sum over k of left (n, i, k) times right (n, k, j).
-/
import proofs.«148977_j61701500174620_2_alg».proof.Proof.Gen.KernelIdeal
import proofs.«148977_j61701500174620_2_alg».proof.Proof.KAttnLay

noncomputable section

open scoped BigOperators

namespace Cert.KernelIdeal.Attn

open Idealize.ShloMosaic Idealize.ShloMosaic.ValueIdx Cert.KernelIdeal

/-- The dimension numbers of the block's four products. -/
abbrev DD : DotDims S128x64x64 S128x64x64 S128x64x64 := dot_S128x64x64_S128x64x64_S128x64x64_2_1_1_2_0_0

/-- The left operand's stack coordinate is the entry's. -/
theorem lhs_0 (i : S128x64x64.Idx) (q : DD.contr.Idx) : (DD.lhsIdx i q 0).val = (i 0).val := by
  unfold DotDims.lhsIdx
  rw [dif_pos (show (0 : Fin S128x64x64.rank) ∈ DD.lhsBatch by decide)]
  rfl

/-- The left operand's row is the entry's row. -/
theorem lhs_1 (i : S128x64x64.Idx) (q : DD.contr.Idx) : (DD.lhsIdx i q 1).val = (i 1).val := by
  unfold DotDims.lhsIdx
  rw [dif_neg (show ¬(1 : Fin S128x64x64.rank) ∈ DD.lhsBatch by decide),
    dif_pos (show (1 : Fin S128x64x64.rank) ∈ DD.lhsNonContracting by decide)]
  rfl

/-- The left operand's column is the summation position. -/
theorem lhs_2 (i : S128x64x64.Idx) (q : DD.contr.Idx) : (DD.lhsIdx i q 2).val = (q ⟨0, by decide⟩).val :=
  DD.lhsIdx_val_of_single rfl i q

/-- The right operand's stack coordinate is the entry's. -/
theorem rhs_0 (i : S128x64x64.Idx) (q : DD.contr.Idx) : (DD.rhsIdx i q 0).val = (i 0).val := by
  unfold DotDims.rhsIdx
  rw [dif_pos (show (0 : Fin S128x64x64.rank) ∈ DD.rhsBatch by decide)]
  rfl

/-- The right operand's row is the summation position. -/
theorem rhs_1 (i : S128x64x64.Idx) (q : DD.contr.Idx) : (DD.rhsIdx i q 1).val = (q ⟨0, by decide⟩).val :=
  DD.rhsIdx_val_of_single rfl i q

/-- The right operand's column is the entry's column. -/
theorem rhs_2 (i : S128x64x64.Idx) (q : DD.contr.Idx) : (DD.rhsIdx i q 2).val = (i 2).val := by
  unfold DotDims.rhsIdx
  rw [dif_neg (show ¬(2 : Fin S128x64x64.rank) ∈ DD.rhsBatch by decide),
    dif_pos (show (2 : Fin S128x64x64.rank) ∈ DD.rhsNonContracting by decide)]
  rfl

/-- The product into a zero array at (n, i, j): the sum over k of left (n, i, k) times right (n, k, j). -/
theorem mm_apply {φ₁ φ₂ : FTy} (l : FVec Ideal S128x64x64 φ₁) (r : FVec Ideal S128x64x64 φ₂) (n : Fin 128) (i j : Fin 64) :
    matmul DD none l r (constant S128x64x64 .f32 0x00000000#32) (ix3 n i j)
      = ∑ k : Fin 64, l (ix3 n i k) * r (ix3 n k j) := by
  refine (Ideal.matmul_constant_zero_apply DD none l r (ix3 n i j)).trans ?_
  rw [← Equiv.sum_comp (contrEquiv1 DD 64 rfl rfl).symm]
  refine Finset.sum_congr rfl fun k _ => ?_
  have hk := contrEquiv1_symm_val DD 64 rfl rfl k
  have el : DD.lhsIdx (ix3 n i j) ((contrEquiv1 DD 64 rfl rfl).symm k) = ix3 n i k := funext fun a => Fin.ext (by
    match a with
    | ⟨0, _⟩ => exact lhs_0 _ _
    | ⟨1, _⟩ => exact lhs_1 _ _
    | ⟨2, _⟩ => exact (lhs_2 _ _).trans hk)
  have er : DD.rhsIdx (ix3 n i j) ((contrEquiv1 DD 64 rfl rfl).symm k) = ix3 n k j := funext fun a => Fin.ext (by
    match a with
    | ⟨0, _⟩ => exact rhs_0 _ _
    | ⟨1, _⟩ => exact (rhs_1 _ _).trans hk
    | ⟨2, _⟩ => exact rhs_2 _ _)
  rw [el, er]

end Cert.KernelIdeal.Attn

end
-- ==== Proof.KAttnScore.lean ====
/-
  The scores of the attention block, entry by entry.

  The block holds, for each of 64 channels c and each of the two depths e of a depth pair, a 64 × 64 matrix of q, of k and
  of v. Seen as a stack of 128 matrices (matrix 2 c + e), q is multiplied with k three times: q with k, q with k - k, and
  q - q with k, and the three products are added. Entry (c, e, h, j) of the result is therefore the sum of three inner
  products over x of row h of q's matrix (c, e) and column j of k's matrix (c, e).
-/
import proofs.«148977_j61701500174620_2_alg».proof.Proof.Gen.KernelIdeal.Skeleton
import proofs.«148977_j61701500174620_2_alg».proof.Proof.KAttnMat

noncomputable section

open scoped BigOperators

namespace Cert.KernelIdeal.Attn

open Idealize.ShloMosaic Idealize.ShloMosaic.ValueIdx Cert.KernelIdeal

/-- A block as a stack of 128 matrices. -/
def stack (x : Vec Ideal S1x64x2x64x64 .f32) : FVec Ideal S128x64x64 .f32 :=
  shapeCast S128x64x64 (shapeCast S64x2x64x64 x Facts₀.shapeCasts_S1x64x2x64x64_S64x2x64x64)
    Facts₀.shapeCasts_S64x2x64x64_S128x64x64

/-- Matrix 2 c + e of the stack at (i, j) is the block at (0, c, e, i, j). -/
theorem stack_apply (x : Vec Ideal S1x64x2x64x64 .f32) (c : Fin 64) (e : Fin 2) (i j : Fin 64)
    (hlt : 2 * c.val + e.val < 128) : stack x (ix3 (⟨2 * c.val + e.val, hlt⟩ : Fin 128) i j) = x (ix5 (0 : Fin 1) c e i j) := by
  unfold stack
  refine (cast_B4_B3 _ _ ⟨2 * c.val + e.val, hlt⟩ c e i j rfl).trans ?_
  exact cast_B5_B4 x _ c e i j

/-- The three products added, back in the [64, 2, 64, 64] arrangement. -/
def scoreVec (x0 x1 : Vec Ideal S1x64x2x64x64 .f32) : FVec Ideal S64x2x64x64 .f32 :=
  shapeCast S64x2x64x64
    (addf
      (addf
        (matmul DD none (truncf .bf16 (stack x0) Facts₀.bitsLt_bf16_f32) (truncf .bf16 (stack x1) Facts₀.bitsLt_bf16_f32)
          (constant (F := Ideal) S128x64x64 .f32 0x00000000#32))
        (matmul DD none (truncf .bf16 (stack x0) Facts₀.bitsLt_bf16_f32)
          (truncf .bf16 (subf (stack x1) (stack x1)) Facts₀.bitsLt_bf16_f32) (constant (F := Ideal) S128x64x64 .f32 0x00000000#32)))
      (matmul DD none (truncf .bf16 (subf (stack x0) (stack x0)) Facts₀.bitsLt_bf16_f32)
        (truncf .bf16 (stack x1) Facts₀.bitsLt_bf16_f32) (constant (F := Ideal) S128x64x64 .f32 0x00000000#32)))
    Facts₀.shapeCasts_S128x64x64_S64x2x64x64

/-- The score at (c, e, h, j): three inner products of row h of q's matrix (c, e) with column j of k's. -/
theorem scoreVec_apply (x0 x1 : Vec Ideal S1x64x2x64x64 .f32) (c : Fin 64) (e : Fin 2) (h j : Fin 64) :
    scoreVec x0 x1 (ix4 c e h j)
      = ((∑ x : Fin 64, x0 (ix5 (0 : Fin 1) c e h x) * x1 (ix5 (0 : Fin 1) c e x j))
          + ∑ x : Fin 64, x0 (ix5 (0 : Fin 1) c e h x) * (x1 (ix5 (0 : Fin 1) c e x j) - x1 (ix5 (0 : Fin 1) c e x j)))
        + ∑ x : Fin 64, (x0 (ix5 (0 : Fin 1) c e h x) - x0 (ix5 (0 : Fin 1) c e h x)) * x1 (ix5 (0 : Fin 1) c e x j) := by
  have hlt : 2 * c.val + e.val < 128 := by omega
  unfold scoreVec
  refine (cast_B3_B4 _ _ ⟨2 * c.val + e.val, hlt⟩ c e h j rfl).trans ?_
  rw [addf_apply, addf_apply, mm_apply, mm_apply, mm_apply]
  simp only [truncf_apply, subf_apply, stack_apply]

end Cert.KernelIdeal.Attn

end
-- ==== Proof.KAttnSoft.lean ====
/-
  The softmax numerators and denominators of the attention block, entry by entry.

  From the scores of a row (c, e, h) the block takes the row's maximum starting from -∞ (and once more against -∞),
  subtracts it from every score of the row and exponentiates: the numerator at (c, e, h, j). The denominator of row
  (c, e, h) is the sum over j of the numerators, kept as a one-entry column.
-/
import proofs.«148977_j61701500174620_2_alg».proof.Proof.KAttnScore

noncomputable section

open scoped BigOperators

namespace Cert.KernelIdeal.Attn

open Idealize.ShloMosaic Idealize.ShloMosaic.ValueIdx Cert.KernelIdeal Cert.KernelIdeal.Gen

/-- An exponential of an array, read at an index, is the exponential of the entry. -/
theorem vexp_apply {s : Shape} {φ : FTy} (a : FVec Ideal s φ) (i : s.Idx) : exp a i = Ideal.exp (a i) := rfl

/-- A scalar constant written by its pattern denotes the extended real of that pattern. -/
theorem scalar_ofBits (φ : FTy) (b : BitVec φ.bits) : Scalar.ofBits (F := Ideal) φ b = Ideal.ofBits φ b := rfl

/-- The numerators are the exponentials of the scores less the repeated row maxima. -/
theorem pay8_eq (x0 x1 : Vec Ideal S1x64x2x64x64 .f32) :
    k0_pay8 (F := Ideal) x0 x1
      = exp (subf (scoreVec x0 x1)
          (broadcastTo S64x2x64x64
            (shapeCast S64x2x64x1
              (maximumf (broadcast S64x2x64 (Scalar.ofBits (F := Ideal) .f32 0xFF800000#32))
                (multiReduction .maximumf [3] S64x2x64 (scoreVec x0 x1) 0xFF800000#32
                  Facts₀.reduces_S64x2x64x64_S64x2x64 (.inl rfl) rfl))
              Facts₀.shapeCasts_S64x2x64_S64x2x64x1)
            Facts₀.broadcasts_S64x2x64x1_S64x2x64x64)) := rfl

/-- The numerator at (c, e, h, j): the exponential of the score less the row's maximum taken from -∞. -/
theorem pay8_apply (x0 x1 : Vec Ideal S1x64x2x64x64 .f32) (c : Fin 64) (e : Fin 2) (h j : Fin 64) :
    k0_pay8 (F := Ideal) x0 x1 (ix4 c e h j)
      = Ideal.exp (scoreVec x0 x1 (ix4 c e h j)
          - max ⊥ ((Finset.univ : Finset (Fin 64)).fold max ⊥ (fun j' => scoreVec x0 x1 (ix4 c e h j')))) := by
  rw [pay8_eq]
  refine (vexp_apply _ _).trans (congrArg Ideal.exp ?_)
  refine (subf_apply _ _ _).trans (congrArg (fun z => scoreVec x0 x1 (ix4 c e h j) - z) ?_)
  refine (bcast_R4_B4 _ _ c e h j).trans ?_
  refine (cast_R3_R4 _ _ c e h (0 : Fin 1)).trans ?_
  refine (maximumf_apply _ _ _).trans (congrArg₂ max ?_ ?_)
  · exact (broadcast_apply _ _).trans ((scalar_ofBits _ _).trans ofBits_neg_inf)
  · refine (rowMax_apply _ _ _ _ _ c e h).trans ?_
    rw [ofBits_neg_inf]

/-- The denominator of row (c, e, h): the sum over j of the numerators. -/
theorem pay9_apply (x0 x1 : Vec Ideal S1x64x2x64x64 .f32) (c : Fin 64) (e : Fin 2) (h : Fin 64) (u : Fin 1) :
    k0_pay9 (F := Ideal) x0 x1 (ix4 c e h u) = ∑ j : Fin 64, k0_pay8 (F := Ideal) x0 x1 (ix4 c e h j) := by
  unfold k0_pay9
  refine (cast_R3_R4 _ _ c e h u).trans ?_
  exact rowSum_apply _ _ _ _ c e h

end Cert.KernelIdeal.Attn

end
-- ==== Proof.KAttnOut.lean ====
/-
  The last step of the attention block, entry by entry, over any numerators, denominators and v.

  Each numerator is divided by its row's denominator; the quotients, as a stack of 128 matrices, multiply v's stack, and v
  is added back. Entry (c, e, h, w) of the result is the sum over j of (numerator (c, e, h, j) / denominator (c, e, h))
  times v (c, e, j, w), plus v (c, e, h, w).
-/
import proofs.«148977_j61701500174620_2_alg».proof.Proof.Gen.KernelIdeal.Skeleton
import proofs.«148977_j61701500174620_2_alg».proof.Proof.KAttnMat

noncomputable section

open scoped BigOperators

namespace Cert.KernelIdeal.Attn

open Idealize.ShloMosaic Idealize.ShloMosaic.ValueIdx Cert.KernelIdeal Cert.KernelIdeal.Gen

/-- v's block without its unit axis reads the block at (0, c, e, h, w). -/
theorem pay7_apply (x2 : Vec Ideal S1x64x2x64x64 .f32) (c : Fin 64) (e : Fin 2) (h w : Fin 64) :
    k0_pay7 (F := Ideal) x2 (ix4 c e h w) = x2 (ix5 (0 : Fin 1) c e h w) := by
  unfold k0_pay7
  exact cast_B5_B4 x2 _ c e h w

/-- The block's result at (c, e, h, w): the weights of row (c, e, h) applied to column w of v, plus v at (c, e, h, w). -/
theorem pay1_apply (v10 v31 : FVec Ideal S64x2x64x64 .f32) (v33 : FVec Ideal S64x2x64x1 .f32) (c : Fin 64) (e : Fin 2)
    (h w : Fin 64) :
    k0_pay1 (F := Ideal) v10 v31 v33 (ix4 c e h w)
      = (∑ j : Fin 64, Ideal.div (v31 (ix4 c e h j)) (v33 (ix4 c e h (0 : Fin 1))) * v10 (ix4 c e j w)) + v10 (ix4 c e h w) := by
  have hlt : 2 * c.val + e.val < 128 := by omega
  unfold k0_pay1
  rw [addf_apply]
  refine congrArg (· + v10 (ix4 c e h w)) ?_
  refine (cast_B3_B4 _ _ ⟨2 * c.val + e.val, hlt⟩ c e h w rfl).trans ?_
  refine (mm_apply _ _ _ _ _).trans ?_
  refine Finset.sum_congr rfl fun j _ => ?_
  rw [truncf_apply, truncf_apply, cast_B4_B3 _ _ ⟨2 * c.val + e.val, hlt⟩ c e h j rfl,
    cast_B4_B3 _ _ ⟨2 * c.val + e.val, hlt⟩ c e j w rfl, divf_apply, bcast_R4_B4]

end Cert.KernelIdeal.Attn

end
-- ==== Proof.KAttnPay.lean ====
/-
  The attention block as a whole, over any three blocks.

  If the three blocks hold q, k and v at one batch b and, for each of the block's two depths e, at one depth d(e), then
  entry (c, e, h, w) of the block's result is the attention output of the specification at (b, c, d(e), h, w): the scores
  are the three inner products, each row of scores is turned into weights by subtracting the row's maximum,
  exponentiating and dividing by the row's sum, and the weights are applied to v's columns with v added back. Nothing
  links two depths or two channels, so d may be any map from the block's two depths to the array's sixteen.
-/
import proofs.«148977_j61701500174620_2_alg».proof.Proof.Spec
import proofs.«148977_j61701500174620_2_alg».proof.Proof.KAttnSoft
import proofs.«148977_j61701500174620_2_alg».proof.Proof.KAttnOut

noncomputable section

open scoped BigOperators

namespace Cert.KernelIdeal.Attn

open Idealize.ShloMosaic Idealize.ShloMosaic.ValueIdx Cert.KernelIdeal Cert.KernelIdeal.Gen Cert.AttnNorm

/-- The block's result at (c, e, h, w) is the specification's attention output at (b, c, d(e), h, w). -/
theorem block_attn (x0 x1 x2 : Vec Ideal S1x64x2x64x64 .f32) (q k v : T5) (b : Fin 8) (dd : Fin 2 → Fin 16)
    (hq : ∀ (c : Fin 64) (e : Fin 2) (h w : Fin 64), x0 (ix5 (0 : Fin 1) c e h w) = q b c (dd e) h w)
    (hk : ∀ (c : Fin 64) (e : Fin 2) (h w : Fin 64), x1 (ix5 (0 : Fin 1) c e h w) = k b c (dd e) h w)
    (hv : ∀ (c : Fin 64) (e : Fin 2) (h w : Fin 64), x2 (ix5 (0 : Fin 1) c e h w) = v b c (dd e) h w)
    (c : Fin 64) (e : Fin 2) (h w : Fin 64) :
    k0_pay1 (F := Ideal) (k0_pay7 x2) (k0_pay8 x0 x1) (k0_pay9 x0 x1) (ix4 c e h w)
      = attn (scoreK q k) v b c (dd e) h w := by
  have hs : ∀ (c : Fin 64) (e : Fin 2) (h j : Fin 64), scoreVec x0 x1 (ix4 c e h j) = scoreK q k b c (dd e) h j := by
    intro c e h j
    rw [scoreVec_apply]
    simp only [hq, hk]
    rfl
  rw [pay1_apply]
  simp only [pay7_apply, pay9_apply, pay8_apply, hs, hv]
  rfl

end Cert.KernelIdeal.Attn

end
-- ==== Proof.KAttnBlk.lean ====
/-
  The blocks of q, k and v that a grid point reads, and the attention block at that point.

  The grid has 8 × 8 points; point t has coordinates (t / 8, t mod 8). Each of the three input windows cuts its
  [8, 64, 16, 64, 64] array into blocks of extents [1, 64, 2, 64, 64] and gives point t the block with index
  (t / 8, 0, t mod 8, 0, 0): batch t / 8, all channels, the depth pair t mod 8, all rows and columns. An entry's coordinate in
  the array is the block's index times the block's extent plus the entry's coordinate inside the block, so entry
  (0, c, e, h, w) of the block is the array's entry (t / 8, c, 2 (t mod 8) + e, h, w). With the three blocks so read, the
  attention block at point t is the specification's attention output on that batch and depth pair.
-/
import proofs.«148977_j61701500174620_2_alg».proof.Proof.Gen.KernelIdeal.Frame
import proofs.«148977_j61701500174620_2_alg».proof.Proof.KArgs
import proofs.«148977_j61701500174620_2_alg».proof.Proof.KAttnPay

noncomputable section

namespace Cert.KernelIdeal.Attn

open Idealize.ShloMosaic Idealize.ShloMosaic.ValueIdx Idealize.SL.Sem Cert.AttnNorm
open Cert.KernelIdeal Cert.KernelIdeal.Gen Cert.KernelIdeal.Args

/-- The four [1, 64, 2, 64, 64] windows' block indices at every grid point: (t / 8, 0, t mod 8, 0, 0). -/
theorem idx_facts : ∀ t : Fin cfg0.N,
    (win0_0.index t (0 : Fin 5) = t.val / 8 ∧ win0_0.index t (1 : Fin 5) = 0 ∧ win0_0.index t (2 : Fin 5) = t.val % 8
      ∧ win0_0.index t (3 : Fin 5) = 0 ∧ win0_0.index t (4 : Fin 5) = 0)
    ∧ (win0_1.index t (0 : Fin 5) = t.val / 8 ∧ win0_1.index t (1 : Fin 5) = 0 ∧ win0_1.index t (2 : Fin 5) = t.val % 8
      ∧ win0_1.index t (3 : Fin 5) = 0 ∧ win0_1.index t (4 : Fin 5) = 0)
    ∧ (win0_2.index t (0 : Fin 5) = t.val / 8 ∧ win0_2.index t (1 : Fin 5) = 0 ∧ win0_2.index t (2 : Fin 5) = t.val % 8
      ∧ win0_2.index t (3 : Fin 5) = 0 ∧ win0_2.index t (4 : Fin 5) = 0)
    ∧ (win0_3.index t (0 : Fin 5) = t.val / 8 ∧ win0_3.index t (1 : Fin 5) = 0 ∧ win0_3.index t (2 : Fin 5) = t.val % 8
      ∧ win0_3.index t (3 : Fin 5) = 0 ∧ win0_3.index t (4 : Fin 5) = 0) :=
  (by decide +kernel : ∀ t : Fin grid0.N, _)

variable (m : (ℓ : Loc nD τ sig) → Buf (Elt Ideal) ℓ) (ρ : Dev nD → PrngReg) (c : Dev nD)

/-- Window 0's block at point t, at (0, c, e, h, w), is the launch array at batch t / 8, channel c, depth 2 (t mod 8) + e, (h, w). -/
theorem blk0_read (t : Fin cfg0.N) (cc : Fin 64) (e : Fin 2) (hh ww : Fin 64) (hb : t.val / 8 < 8)
    (hd : 2 * (t.val % 8) + e.val < 16) :
    (iblk0 (V0 m ρ) c 0 t : Vec Ideal S1x64x2x64x64 .f32) (ix5 (0 : Fin 1) cc e hh ww)
      = m ((c.tc : Thread nD τ).loc main_arg0)
          (ix5 (⟨t.val / 8, hb⟩ : Fin 8) cc (⟨2 * (t.val % 8) + e.val, hd⟩ : Fin 16) hh ww) := by
  obtain ⟨e0, e1, e2, e3, e4⟩ := (idx_facts t).1
  unfold iblk0
  rw [View.read_apply]
  show m ((c.tc : Thread nD τ).loc main_arg0) (((cfg0.win 0).blk t).view.emb (ix5 (0 : Fin 1) cc e hh ww)) = _
  refine congrArg (m ((c.tc : Thread nD τ).loc main_arg0)) ?_
  funext a
  apply Fin.ext
  match a with
  | ⟨0, _⟩ => show win0_0.index t (0 : Fin 5) * 1 + 1 * 0 = t.val / 8; omega
  | ⟨1, _⟩ => show win0_0.index t (1 : Fin 5) * 64 + 1 * cc.val = cc.val; omega
  | ⟨2, _⟩ => show win0_0.index t (2 : Fin 5) * 2 + 1 * e.val = 2 * (t.val % 8) + e.val; omega
  | ⟨3, _⟩ => show win0_0.index t (3 : Fin 5) * 64 + 1 * hh.val = hh.val; omega
  | ⟨4, _⟩ => show win0_0.index t (4 : Fin 5) * 64 + 1 * ww.val = ww.val; omega

/-- Window 1's block at point t, at (0, c, e, h, w), is the launch array at batch t / 8, channel c, depth 2 (t mod 8) + e, (h, w). -/
theorem blk1_read (t : Fin cfg0.N) (cc : Fin 64) (e : Fin 2) (hh ww : Fin 64) (hb : t.val / 8 < 8)
    (hd : 2 * (t.val % 8) + e.val < 16) :
    (iblk0 (V0 m ρ) c 1 t : Vec Ideal S1x64x2x64x64 .f32) (ix5 (0 : Fin 1) cc e hh ww)
      = m ((c.tc : Thread nD τ).loc main_arg1)
          (ix5 (⟨t.val / 8, hb⟩ : Fin 8) cc (⟨2 * (t.val % 8) + e.val, hd⟩ : Fin 16) hh ww) := by
  obtain ⟨e0, e1, e2, e3, e4⟩ := (idx_facts t).2.1
  unfold iblk0
  rw [View.read_apply]
  show m ((c.tc : Thread nD τ).loc main_arg1) (((cfg0.win 1).blk t).view.emb (ix5 (0 : Fin 1) cc e hh ww)) = _
  refine congrArg (m ((c.tc : Thread nD τ).loc main_arg1)) ?_
  funext a
  apply Fin.ext
  match a with
  | ⟨0, _⟩ => show win0_1.index t (0 : Fin 5) * 1 + 1 * 0 = t.val / 8; omega
  | ⟨1, _⟩ => show win0_1.index t (1 : Fin 5) * 64 + 1 * cc.val = cc.val; omega
  | ⟨2, _⟩ => show win0_1.index t (2 : Fin 5) * 2 + 1 * e.val = 2 * (t.val % 8) + e.val; omega
  | ⟨3, _⟩ => show win0_1.index t (3 : Fin 5) * 64 + 1 * hh.val = hh.val; omega
  | ⟨4, _⟩ => show win0_1.index t (4 : Fin 5) * 64 + 1 * ww.val = ww.val; omega

/-- Window 2's block at point t, at (0, c, e, h, w), is the launch array at batch t / 8, channel c, depth 2 (t mod 8) + e, (h, w). -/
theorem blk2_read (t : Fin cfg0.N) (cc : Fin 64) (e : Fin 2) (hh ww : Fin 64) (hb : t.val / 8 < 8)
    (hd : 2 * (t.val % 8) + e.val < 16) :
    (iblk0 (V0 m ρ) c 2 t : Vec Ideal S1x64x2x64x64 .f32) (ix5 (0 : Fin 1) cc e hh ww)
      = m ((c.tc : Thread nD τ).loc main_arg2)
          (ix5 (⟨t.val / 8, hb⟩ : Fin 8) cc (⟨2 * (t.val % 8) + e.val, hd⟩ : Fin 16) hh ww) := by
  obtain ⟨e0, e1, e2, e3, e4⟩ := (idx_facts t).2.2.1
  unfold iblk0
  rw [View.read_apply]
  show m ((c.tc : Thread nD τ).loc main_arg2) (((cfg0.win 2).blk t).view.emb (ix5 (0 : Fin 1) cc e hh ww)) = _
  refine congrArg (m ((c.tc : Thread nD τ).loc main_arg2)) ?_
  funext a
  apply Fin.ext
  match a with
  | ⟨0, _⟩ => show win0_2.index t (0 : Fin 5) * 1 + 1 * 0 = t.val / 8; omega
  | ⟨1, _⟩ => show win0_2.index t (1 : Fin 5) * 64 + 1 * cc.val = cc.val; omega
  | ⟨2, _⟩ => show win0_2.index t (2 : Fin 5) * 2 + 1 * e.val = 2 * (t.val % 8) + e.val; omega
  | ⟨3, _⟩ => show win0_2.index t (3 : Fin 5) * 64 + 1 * hh.val = hh.val; omega
  | ⟨4, _⟩ => show win0_2.index t (4 : Fin 5) * 64 + 1 * ww.val = ww.val; omega

/-- The attention block at grid point t, at (c, e, h, w): the attention output at batch t / 8, channel c, depth
    2 (t mod 8) + e, row h, column w. -/
theorem block_y (t : Fin cfg0.N) (cc : Fin 64) (e : Fin 2) (hh ww : Fin 64) :
    k0_pay1 (F := Ideal) (k0_pay7 (iblk0 (V0 m ρ) c 2 t)) (k0_pay8 (iblk0 (V0 m ρ) c 0 t) (iblk0 (V0 m ρ) c 1 t))
        (k0_pay9 (iblk0 (V0 m ρ) c 0 t) (iblk0 (V0 m ρ) c 1 t)) (ix4 cc e hh ww)
      = attn (scoreK (Q m c) (K m c)) (Vv m c) ⟨t.val / 8, by have := t.isLt; have : cfg0.N = 64 := N_0; omega⟩ cc
          ⟨2 * (t.val % 8) + e.val, by omega⟩ hh ww := by
  have hN : cfg0.N = 64 := N_0
  have hb : t.val / 8 < 8 := by have := t.isLt; omega
  have hd : ∀ e' : Fin 2, 2 * (t.val % 8) + e'.val < 16 := fun e' => by omega
  exact block_attn (iblk0 (V0 m ρ) c 0 t) (iblk0 (V0 m ρ) c 1 t) (iblk0 (V0 m ρ) c 2 t) (Q m c) (K m c) (Vv m c)
    (⟨t.val / 8, hb⟩ : Fin 8) (fun e' => (⟨2 * (t.val % 8) + e'.val, hd e'⟩ : Fin 16))
    (fun c' e' h' w' => blk0_read m ρ c t c' e' h' w' hb (hd e'))
    (fun c' e' h' w' => blk1_read m ρ c t c' e' h' w' hb (hd e'))
    (fun c' e' h' w' => blk2_read m ρ c t c' e' h' w' hb (hd e')) cc e hh ww

end Cert.KernelIdeal.Attn

end
-- ==== Proof.KAttnPiece.lean ====
/-
  What the attention body leaves in the staging buffer of its first output.

  In both of the body's control cases (the first depth pair of a batch, where the running sums are reset, and the others)
  the body stores into that buffer once, over the whole of it, the attention block computed from the three input blocks
  it loaded whole. So in either case the buffer ends holding that block, whatever the running sums are.
-/
import proofs.«148977_j61701500174620_2_alg».proof.Proof.Gen.KernelIdeal.Frame
import Idealize.ShloMosaic.Lib.Pipeline.Value

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

variable {F : FTy → Type} [FloatOps F]

/-- Five zero offsets, however spelt. -/
theorem hz5 : (![0, 0, 0, 0, 0] : Fin 5 → Nat) = fun _ => 0 := funext fun a => by fin_cases a <;> rfl

set_option maxHeartbeats 1000000 in
/-- Where the running sums are reset, the first output's buffer ends holding the attention block of the loaded blocks. -/
theorem out_A (c : Dev nD) (i : grid0.Coords) (arg2 : Memref sig .tc .vmem S1x64x2x64x64 .f32) (harg2 : arg2.IsWhole) (arg3 : Memref sig .tc .vmem S1x64x2x64x64 .f32) (harg3 : arg3.IsWhole) (arg4 : Memref sig .tc .vmem S1x64x2x64x64 .f32) (harg4 : arg4.IsWhole) (arg5 : Memref sig .tc .vmem S1x64x2x64x64 .f32) (harg5 : arg5.IsWhole) (arg6 : Memref sig .tc .vmem S1x1x64 .f32) (harg6 : arg6.IsWhole) (arg7 : Memref sig .tc .vmem S1x1x64 .f32) (harg7 : arg7.IsWhole) (hc0 : cond0_0 i)
    (x0 x1 x2 : Vec F S1x64x2x64x64 .f32) :
    out0_A_3 c i arg2 harg2 arg3 harg3 arg4 harg4 arg5 harg5 arg6 harg6 arg7 harg7 hc0 x0 x1 x2 = k0_pay2 (k0_pay7 x2) (k0_pay8 x0 x1) (k0_pay9 x0 x1) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz5]
  simp only [View.readAt_eq_ld, harg2.read_unread, harg3.read_unread, harg4.read_unread,
    View.ld_unit_zero (S := S1x64x2x64x64) hz5]

set_option maxHeartbeats 1000000 in
/-- Where the running sums are carried on, the first output's buffer ends holding the same attention block. -/
theorem out_B (c : Dev nD) (i : grid0.Coords) (arg2 : Memref sig .tc .vmem S1x64x2x64x64 .f32) (harg2 : arg2.IsWhole) (arg3 : Memref sig .tc .vmem S1x64x2x64x64 .f32) (harg3 : arg3.IsWhole) (arg4 : Memref sig .tc .vmem S1x64x2x64x64 .f32) (harg4 : arg4.IsWhole) (arg5 : Memref sig .tc .vmem S1x64x2x64x64 .f32) (harg5 : arg5.IsWhole) (arg6 : Memref sig .tc .vmem S1x1x64 .f32) (harg6 : arg6.IsWhole) (arg7 : Memref sig .tc .vmem S1x1x64 .f32) (harg7 : arg7.IsWhole) (hc0 : ¬cond0_0 i)
    (x0 x1 x2 : Vec F S1x64x2x64x64 .f32) (xo4 xo5 : Vec F S1x1x64 .f32) :
    out0_B_3 c i arg2 harg2 arg3 harg3 arg4 harg4 arg5 harg5 arg6 harg6 arg7 harg7 hc0 x0 x1 x2 xo4 xo5 = k0_pay2 (k0_pay7 x2) (k0_pay8 x0 x1) (k0_pay9 x0 x1) := by
  unfold out0_B_3
  rw [View.read_writes_eq_canon _ _ _ (cover0_B_3 c i arg2 harg2 arg3 harg3 arg4 harg4 arg5 harg5 arg6 harg6 arg7 harg7 hc0 x0 x1 x2 xo4 xo5)]
  unfold kernelRun0_B
  dsimp only
  sl_unfold_words
  rw [View.canon_unit_zero hz5]
  simp only [View.readAt_eq_ld, harg2.read_unread, harg3.read_unread, harg4.read_unread,
    View.ld_unit_zero (S := S1x64x2x64x64) hz5]

end Cert.KernelIdeal.Attn

end
-- ==== Proof.KAttnArr.lean ====
/-
  The first output array after the first region: the attention output, entry by entry.

  Every grid point writes back its block of the first output, and what it writes is the attention block of the three
  input blocks at that point, in either control case of the body. Block t of the output sits where the input blocks sit:
  batch t / 8 and depth pair t mod 8, so entry (u, c, e, h, w) of what point t writes is the array's entry
  (t / 8, c, 2 (t mod 8) + e, h, w), and it holds the attention output there. The 64 blocks tile the array: the entry at
  batch b and depth d lies in the block of point 8 b + d / 2. Hence the array ends holding the attention output everywhere.
-/
import proofs.«148977_j61701500174620_2_alg».proof.Proof.KAttnBlk
import proofs.«148977_j61701500174620_2_alg».proof.Proof.KAttnPiece

noncomputable section

namespace Cert.KernelIdeal.Attn

open Idealize.ShloMosaic Idealize.ShloMosaic.ValueIdx Idealize.SL.Sem Cert.AttnNorm
open Idealize.ShloMosaic.Pipeline (Dat)
open Cert.KernelIdeal Cert.KernelIdeal.Gen Cert.KernelIdeal.Args

variable (m : (ℓ : Loc nD τ sig) → Buf (Elt Ideal) ℓ) (ρ : Dev nD → PrngReg) (c : Dev nD)

/-- The attention output as an array read by its index. -/
def Yarr : S8x64x16x64x64.Idx → EReal :=
  fun i => attn (scoreK (Q m c) (K m c)) (Vv m c) (i 0) (i 1) (i 2) (i 3) (i 4)

/-- At an index given by coordinates it is the attention output at those coordinates. -/
theorem Yarr_ix5 (b : Fin 8) (c' : Fin 64) (d : Fin 16) (h w : Fin 64) :
    Yarr m c (ix5 b c' d h w) = attn (scoreK (Q m c) (K m c)) (Vv m c) b c' d h w := rfl

/-- What the body leaves in the first output's buffer at point t, in either control case: the attention block. -/
theorem after3_eq (t : Fin cfg0.N) :
    (dat0 (V0 m ρ) c).after 3 t
      = k0_pay2 (F := Ideal) (k0_pay7 (iblk0 (V0 m ρ) c 2 t)) (k0_pay8 (iblk0 (V0 m ρ) c 0 t) (iblk0 (V0 m ρ) c 1 t))
        (k0_pay9 (iblk0 (V0 m ρ) c 0 t) (iblk0 (V0 m ρ) c 1 t)) := by
  rw [after0_3]
  by_cases h0 : t.val % 8 = 0
  · rw [outsAt0_A (V0 m ρ) c t h0]
    dsimp only
    exact out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      ((hcond0_0 t).mpr h0) (iblk0 (V0 m ρ) c 0 t) (iblk0 (V0 m ρ) c 1 t) (iblk0 (V0 m ρ) c 2 t)
  · rw [outsAt0_B (V0 m ρ) c t h0]
    dsimp only
    exact out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (fun h => h0 ((hcond0_0 t).mp h)) (iblk0 (V0 m ρ) c 0 t) (iblk0 (V0 m ρ) c 1 t) (iblk0 (V0 m ρ) c 2 t)
      (outsAt0 (V0 m ρ) c (t.val - 1) (Nat.lt_of_le_of_lt (Nat.sub_le _ _) t.isLt)).2.1
      (outsAt0 (V0 m ρ) c (t.val - 1) (Nat.lt_of_le_of_lt (Nat.sub_le _ _) t.isLt)).2.2

/-- Entry (u, c, e, h, w) of what point t leaves is the attention output at the array index under it. -/
theorem flushed_point (t : Fin cfg0.N) (u : Fin 1) (cc : Fin 64) (e : Fin 2) (hh ww : Fin 64) :
    k0_pay2 (F := Ideal) (k0_pay7 (iblk0 (V0 m ρ) c 2 t)) (k0_pay8 (iblk0 (V0 m ρ) c 0 t) (iblk0 (V0 m ρ) c 1 t))
        (k0_pay9 (iblk0 (V0 m ρ) c 0 t) (iblk0 (V0 m ρ) c 1 t)) (ix5 u cc e hh ww)
      = Yarr m c (((cfg0.win 3).blk t).view.emb (ix5 u cc e hh ww)) := by
  have hN : cfg0.N = 64 := N_0
  have hb : t.val / 8 < 8 := by have := t.isLt; omega
  have hd : 2 * (t.val % 8) + e.val < 16 := by omega
  obtain ⟨e0, e1, e2, e3, e4⟩ := (idx_facts t).2.2.2
  have hemb : ((cfg0.win 3).blk t).view.emb (ix5 u cc e hh ww)
      = ix5 (⟨t.val / 8, hb⟩ : Fin 8) cc (⟨2 * (t.val % 8) + e.val, hd⟩ : Fin 16) hh ww := by
    funext a
    apply Fin.ext
    match a with
    | ⟨0, _⟩ => show win0_3.index t (0 : Fin 5) * 1 + 1 * u.val = t.val / 8; omega
    | ⟨1, _⟩ => show win0_3.index t (1 : Fin 5) * 64 + 1 * cc.val = cc.val; omega
    | ⟨2, _⟩ => show win0_3.index t (2 : Fin 5) * 2 + 1 * e.val = 2 * (t.val % 8) + e.val; omega
    | ⟨3, _⟩ => show win0_3.index t (3 : Fin 5) * 64 + 1 * hh.val = hh.val; omega
    | ⟨4, _⟩ => show win0_3.index t (4 : Fin 5) * 64 + 1 * ww.val = ww.val; omega
  refine Eq.trans ?_ (congrArg (Yarr m c) hemb.symm)
  unfold k0_pay2
  refine (cast_B4_B5 _ _ u cc e hh ww).trans ?_
  exact block_y m ρ c t cc e hh ww

/-- What point t writes back is its block of the attention output. -/
theorem flushed_eq (t : Fin cfg0.N) (_hf : (cfg0.win 3).flush t = true) :
    (dat0 (V0 m ρ) c).flushed 3 t = ((cfg0.win 3).blk t).view.read (Elt Ideal) (Yarr m c) := by
  show (cfg0.win 3).cut (grid0.coords t) ((dat0 (V0 m ρ) c).after 3 t) = _
  rw [after3_eq]
  funext y
  rw [View.read_apply]
  exact (congrArg _ (eq_ix5 y)).trans ((flushed_point m ρ c t (y 0) (y 1) (y 2) (y 3) (y 4)).trans
    (congrArg (fun z => Yarr m c (((cfg0.win 3).blk t).view.emb z)) (eq_ix5 y).symm))

/-- An index of the array is in point t's block iff each coordinate is in the block's range on its axis. -/
theorem mem_blk3 (t : Fin cfg0.N) (i : S8x64x16x64x64.Idx) :
    i ∈ ((cfg0.win 3).blk t).view.set ↔ ∀ a : Fin 5, win0_3.index t a * S1x64x2x64x64.size a ≤ (i a).val
      ∧ (i a).val < win0_3.index t a * S1x64x2x64x64.size a + S1x64x2x64x64.size a := by
  show i ∈ ((View.whole main_v0_0).slice (win0_3.rect t)).set ↔ _
  rw [View.set_slice_whole, Rect.mem_set_unit]
  exact Iff.rfl

/-- Every index of the array lies in the block of the point 8 b + d / 2 of its batch b and depth d. -/
theorem cover3 (i : S8x64x16x64x64.Idx) :
    ∃ t : Fin cfg0.N, (cfg0.win 3).flush t = true ∧ i ∈ ((cfg0.win 3).blk t).view.set := by
  have hN : cfg0.N = 64 := N_0
  have h0 : (i 0).val < 8 := (i 0).isLt
  have h1 : (i 1).val < 64 := (i 1).isLt
  have h2 : (i 2).val < 16 := (i 2).isLt
  have h3 : (i 3).val < 64 := (i 3).isLt
  have h4 : (i 4).val < 64 := (i 4).isLt
  obtain ⟨t, ht⟩ : ∃ t : Fin cfg0.N, t.val = 8 * (i 0).val + (i 2).val / 2 :=
    ⟨⟨8 * (i 0).val + (i 2).val / 2, by omega⟩, rfl⟩
  obtain ⟨e0, e1, e2, e3, e4⟩ := (idx_facts t).2.2.2
  refine ⟨t, flush0_3 t, ?_⟩
  rw [mem_blk3]
  intro a
  match a with
  | ⟨0, _⟩ => show win0_3.index t (0 : Fin 5) * 1 ≤ (i 0).val ∧ (i 0).val < win0_3.index t (0 : Fin 5) * 1 + 1; omega
  | ⟨1, _⟩ => show win0_3.index t (1 : Fin 5) * 64 ≤ (i 1).val ∧ (i 1).val < win0_3.index t (1 : Fin 5) * 64 + 64; omega
  | ⟨2, _⟩ => show win0_3.index t (2 : Fin 5) * 2 ≤ (i 2).val ∧ (i 2).val < win0_3.index t (2 : Fin 5) * 2 + 2; omega
  | ⟨3, _⟩ => show win0_3.index t (3 : Fin 5) * 64 ≤ (i 3).val ∧ (i 3).val < win0_3.index t (3 : Fin 5) * 64 + 64; omega
  | ⟨4, _⟩ => show win0_3.index t (4 : Fin 5) * 64 ≤ (i 4).val ∧ (i 4).val < win0_3.index t (4 : Fin 5) * 64 + 64; omega

/-- The first output array after the first region holds the attention output at every index. -/
theorem y_array (b : Fin 8) (c' : Fin 64) (d : Fin 16) (h w : Fin 64) :
    (dat0 (V0 m ρ) c).arrAt 3 cfg0.N (ix5 b c' d h w) = attn (scoreK (Q m c) (K m c)) (Vv m c) b c' d h w := by
  have hfin : (dat0 (V0 m ρ) c).arrAt 3 cfg0.N = Yarr m c :=
    (dat0 (V0 m ρ) c).arrAt_eq_of_cover 3 (Yarr m c) (fun t hf => flushed_eq m ρ c t hf) (fun i => cover3 i)
  exact (congrFun hfin (ix5 b c' d h w)).trans (Yarr_ix5 m c b c' d h w)

end Cert.KernelIdeal.Attn

end
-- ==== Proof.KStatsRunA.lean ====
/-
  What one run of the attention body leaves in the two running-sum blocks.

  The body loads its three input blocks q, k, v, forms y from them, and stores into the first running-sum block the
  block it reloads from there plus the channelwise sums of y, and into the second the same with y * y. At the first
  depth pair of a batch it first stores a zero block into each, so what it reloads is that zero block; at every other
  point it reloads what the block held on entry. Each store covers its whole block, so the block's contents after
  the body are the last store's value, as a function of the inputs (and of the entry contents).
-/
import proofs.«148977_j61701500174620_2_alg».proof.Proof.Gen.KernelIdeal.Frame
import Idealize.ShloMosaic.Lib.Pipeline.Value
import Idealize.ShloMosaic.Lib.Tactic

noncomputable section

namespace Cert.KernelIdeal.Stats

open Idealize.ShloMosaic Idealize.ShloMosaic.TcCoe Idealize.SL.Sem Cert.KernelIdeal Cert.KernelIdeal.Gen

variable {F : FTy → Type} [FloatOps F]

/-- The zero offsets of a rank-3 block. -/
theorem hz3 : (![0, 0, 0] : Fin 3 → Nat) = fun _ => 0 := funext fun a => by fin_cases a <;> rfl
/-- The zero offsets of a rank-5 block. -/
theorem hz5 : (![0, 0, 0, 0, 0] : Fin 5 → Nat) = fun _ => 0 := funext fun a => by fin_cases a <;> rfl

set_option maxHeartbeats 400000 in
/-- Away from a batch's first depth pair the first block ends at its entry contents plus the channelwise sums of y. -/
theorem out_B_4 (c : Dev nD) (i : grid0.Coords) (arg2 : Memref sig .tc .vmem S1x64x2x64x64 .f32) (harg2 : arg2.IsWhole) (arg3 : Memref sig .tc .vmem S1x64x2x64x64 .f32) (harg3 : arg3.IsWhole) (arg4 : Memref sig .tc .vmem S1x64x2x64x64 .f32) (harg4 : arg4.IsWhole) (arg5 : Memref sig .tc .vmem S1x64x2x64x64 .f32) (harg5 : arg5.IsWhole) (arg6 : Memref sig .tc .vmem S1x1x64 .f32) (harg6 : arg6.IsWhole) (arg7 : Memref sig .tc .vmem S1x1x64 .f32) (harg7 : arg7.IsWhole) (hc0 : ¬cond0_0 i)
    (x0 x1 x2 : Vec F S1x64x2x64x64 .f32) (xo4 xo5 : Vec F S1x1x64 .f32) :
    out0_B_4 c i arg2 harg2 arg3 harg3 arg4 harg4 arg5 harg5 arg6 harg6 arg7 harg7 hc0 x0 x1 x2 xo4 xo5 = k0_pay3 (k0_pay7 x2) (k0_pay8 x0 x1) (k0_pay9 x0 x1) xo4 := by
  unfold out0_B_4
  rw [View.read_writes_eq_canon _ _ _ (cover0_B_4 c i arg2 harg2 arg3 harg3 arg4 harg4 arg5 harg5 arg6 harg6 arg7 harg7 hc0 x0 x1 x2 xo4 xo5)]
  unfold kernelRun0_B
  dsimp only
  sl_unfold_words
  rw [View.canon_unit_zero hz3]
  simp only [View.readAt_eq_ld, harg2.read_unread, harg3.read_unread, harg4.read_unread, harg6.read_unread,
    View.ld_unit_zero (S := S1x1x64) hz3, View.ld_unit_zero (S := S1x64x2x64x64) hz5]

set_option maxHeartbeats 400000 in
/-- Away from a batch's first depth pair the second block ends at its entry contents plus the channelwise sums of y * y. -/
theorem out_B_5 (c : Dev nD) (i : grid0.Coords) (arg2 : Memref sig .tc .vmem S1x64x2x64x64 .f32) (harg2 : arg2.IsWhole) (arg3 : Memref sig .tc .vmem S1x64x2x64x64 .f32) (harg3 : arg3.IsWhole) (arg4 : Memref sig .tc .vmem S1x64x2x64x64 .f32) (harg4 : arg4.IsWhole) (arg5 : Memref sig .tc .vmem S1x64x2x64x64 .f32) (harg5 : arg5.IsWhole) (arg6 : Memref sig .tc .vmem S1x1x64 .f32) (harg6 : arg6.IsWhole) (arg7 : Memref sig .tc .vmem S1x1x64 .f32) (harg7 : arg7.IsWhole) (hc0 : ¬cond0_0 i)
    (x0 x1 x2 : Vec F S1x64x2x64x64 .f32) (xo4 xo5 : Vec F S1x1x64 .f32) :
    out0_B_5 c i arg2 harg2 arg3 harg3 arg4 harg4 arg5 harg5 arg6 harg6 arg7 harg7 hc0 x0 x1 x2 xo4 xo5 = k0_pay4 (k0_pay7 x2) (k0_pay8 x0 x1) (k0_pay9 x0 x1) xo5 := by
  unfold out0_B_5
  rw [View.read_writes_eq_canon _ _ _ (cover0_B_5 c i arg2 harg2 arg3 harg3 arg4 harg4 arg5 harg5 arg6 harg6 arg7 harg7 hc0 x0 x1 x2 xo4 xo5)]
  unfold kernelRun0_B
  dsimp only
  sl_unfold_words
  rw [View.canon_unit_zero hz3]
  simp only [View.readAt_eq_ld, harg2.read_unread, harg3.read_unread, harg4.read_unread, harg7.read_unread,
    View.ld_unit_zero (S := S1x1x64) hz3, View.ld_unit_zero (S := S1x64x2x64x64) hz5]

set_option maxHeartbeats 400000 in
/-- At a batch's first depth pair the first block ends at the zero block plus the channelwise sums of y. -/
theorem out_A_4 (c : Dev nD) (i : grid0.Coords) (arg2 : Memref sig .tc .vmem S1x64x2x64x64 .f32) (harg2 : arg2.IsWhole) (arg3 : Memref sig .tc .vmem S1x64x2x64x64 .f32) (harg3 : arg3.IsWhole) (arg4 : Memref sig .tc .vmem S1x64x2x64x64 .f32) (harg4 : arg4.IsWhole) (arg5 : Memref sig .tc .vmem S1x64x2x64x64 .f32) (harg5 : arg5.IsWhole) (arg6 : Memref sig .tc .vmem S1x1x64 .f32) (harg6 : arg6.IsWhole) (arg7 : Memref sig .tc .vmem S1x1x64 .f32) (harg7 : arg7.IsWhole) (hc0 : cond0_0 i)
    (x0 x1 x2 : Vec F S1x64x2x64x64 .f32) :
    out0_A_4 c i arg2 harg2 arg3 harg3 arg4 harg4 arg5 harg5 arg6 harg6 arg7 harg7 hc0 x0 x1 x2 = k0_pay3 (k0_pay7 x2) (k0_pay8 x0 x1) (k0_pay9 x0 x1) (k0_pay5 (F := F)) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x1x64) hz3]
  simp only [View.readCov_unit_zero (S := S1x1x64) _ hz3, View.readAt_eq_ld, harg2.read_unread, harg3.read_unread, harg4.read_unread,
    View.ld_unit_zero (S := S1x1x64) hz3, View.ld_unit_zero (S := S1x64x2x64x64) hz5]

set_option maxHeartbeats 400000 in
/-- At a batch's first depth pair the second block ends at the zero block plus the channelwise sums of y * y. -/
theorem out_A_5 (c : Dev nD) (i : grid0.Coords) (arg2 : Memref sig .tc .vmem S1x64x2x64x64 .f32) (harg2 : arg2.IsWhole) (arg3 : Memref sig .tc .vmem S1x64x2x64x64 .f32) (harg3 : arg3.IsWhole) (arg4 : Memref sig .tc .vmem S1x64x2x64x64 .f32) (harg4 : arg4.IsWhole) (arg5 : Memref sig .tc .vmem S1x64x2x64x64 .f32) (harg5 : arg5.IsWhole) (arg6 : Memref sig .tc .vmem S1x1x64 .f32) (harg6 : arg6.IsWhole) (arg7 : Memref sig .tc .vmem S1x1x64 .f32) (harg7 : arg7.IsWhole) (hc0 : cond0_0 i)
    (x0 x1 x2 : Vec F S1x64x2x64x64 .f32) :
    out0_A_5 c i arg2 harg2 arg3 harg3 arg4 harg4 arg5 harg5 arg6 harg6 arg7 harg7 hc0 x0 x1 x2 = k0_pay4 (k0_pay7 x2) (k0_pay8 x0 x1) (k0_pay9 x0 x1) (k0_pay6 (F := F)) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x1x64) hz3]
  simp only [View.readCov_unit_zero (S := S1x1x64) _ hz3, View.readAt_eq_ld, harg2.read_unread, harg3.read_unread, harg4.read_unread,
    View.ld_unit_zero (S := S1x1x64) hz3, View.ld_unit_zero (S := S1x64x2x64x64) hz5]

end Cert.KernelIdeal.Stats

end
-- ==== Proof.KStatsSum.lean ====
/-
  Sums over the index set of a four-axis array.

  An index of an array of extents [n0, n1, n2, n3] is its four coordinates, so a sum over all indices is the
  fourfold sum over the coordinates. The sum of such an array over its last three axes, read at coordinate c of the
  axis that is kept, is the threefold sum over (e, h, w) of the entry at (c, e, h, w): the indices that drop to c
  are exactly those whose first coordinate is c.
-/
import Idealize.ShloMosaic.PureOps.Ideal.Laws
import Idealize.ShloMosaic.Lib.ValueIdx

noncomputable section

open scoped BigOperators

namespace Cert.KernelIdeal.Stats

open Idealize.ShloMosaic Idealize.ShloMosaic.ValueIdx

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Dropping the last three axes of (a, e, h, w) leaves a. -/
theorem drop123_ix4 (h : Shape.Reduces ⟨4, ![64, 2, 64, 64]⟩ [1, 2, 3] ⟨1, ![64]⟩) (a : Fin 64) (e : Fin 2) (hh ww : Fin 64) :
    h.drop (ix4 a e hh ww) = ix1 a := by
  funext b
  match b with
  | ⟨0, _⟩ => exact Fin.ext rfl

/-- Two rank-1 indices are equal exactly when their coordinates are. -/
theorem ix1_eq_iff (a c : Fin 64) : (ix1 a : (⟨1, ![64]⟩ : Shape).Idx) = ix1 c ↔ a = c :=
  ⟨fun h => congrFun h 0, fun h => h ▸ rfl⟩

/-- The sum over the last three axes of a [64, 2, 64, 64] array at channel c is the threefold sum over (e, h, w). -/
theorem reduce123_apply (src : (⟨4, ![64, 2, 64, 64]⟩ : Shape).Idx → EReal)
    (h : Shape.Reduces ⟨4, ![64, 2, 64, 64]⟩ [1, 2, 3] ⟨1, ![64]⟩) (cc : Fin 64) :
    Ideal.reduceAdd h src (ix1 cc) = ∑ e : Fin 2, ∑ hh : Fin 64, ∑ ww : Fin 64, src (ix4 cc e hh ww) := by
  unfold Ideal.reduceAdd
  rw [Finset.sum_filter, sum_idx4, Finset.sum_eq_single cc]
  · refine Finset.sum_congr rfl fun e _ => Finset.sum_congr rfl fun hh _ => Finset.sum_congr rfl fun ww _ => ?_
    rw [if_pos (drop123_ix4 h cc e hh ww)]
  · intro a _ hne
    refine Finset.sum_eq_zero fun e _ => Finset.sum_eq_zero fun hh _ => Finset.sum_eq_zero fun ww _ => ?_
    rw [if_neg]
    rw [drop123_ix4 h a e hh ww, ix1_eq_iff]
    exact hne
  · intro hn; exact absurd (Finset.mem_univ _) hn

/-- So the vector unit's sum over axes 1, 2, 3, read on the extended reals at channel c, is that threefold sum. -/
theorem multiReduction_add_123 (src : FVec Ideal ⟨4, ![64, 2, 64, 64]⟩ .f32)
    (h : Shape.Reduces ⟨4, ![64, 2, 64, 64]⟩ [1, 2, 3] ⟨1, ![64]⟩) (hφ : FKind.Formats .f32)
    (hacc : (0x00000000#32 : BitVec 32) = FKind.add.neutral .f32 hφ) (cc : Fin 64) :
    multiReduction .add [1, 2, 3] ⟨1, ![64]⟩ src 0x00000000#32 h hφ hacc (ix1 cc)
      = ∑ e : Fin 2, ∑ hh : Fin 64, ∑ ww : Fin 64, src (ix4 cc e hh ww) :=
  reduce123_apply src h cc

end Cert.KernelIdeal.Stats

end
-- ==== Proof.KStatsPay.lean ====
/-
  The two running-sum payloads of the attention body, read at a channel.

  The body adds to the [1, 1, 64] block it reloads the sum over (e, h, w) of its [64, 2, 64, 64] value y (for the
  second block: of y * y), channel by channel: the block is viewed as a [64] vector, the three-axis sum of y is added,
  and the result is viewed as [1, 1, 64] again. Both views keep the channel coordinate. So at channel c the new block
  holds the old block's entry plus the threefold sum of y (of y * y) at c; when y at (c, e, h, w) is the array Y at
  batch b, channel c, depth 2 n + e, row h, column w, that sum is the depth pair n's sum of Y (of the squares of Y).
-/
import proofs.«148977_j61701500174620_2_alg».proof.Proof.Gen.KernelIdeal.Skeleton
import proofs.«148977_j61701500174620_2_alg».proof.Proof.KStatsSum
import proofs.«148977_j61701500174620_2_alg».proof.Proof.Spec
import Idealize.ShloMosaic.Lib.Pipeline.Value

noncomputable section

open scoped BigOperators

namespace Cert.KernelIdeal.Stats

open Idealize.ShloMosaic Idealize.ShloMosaic.ValueIdx Cert.AttnNorm Cert.KernelIdeal Cert.KernelIdeal.Gen

/-- A [64] vector viewed as [1, 1, 64] reads, at (u, v, c), the vector at c. -/
theorem cast_64_1x1x64 {α : Type} (x : (⟨1, ![64]⟩ : Shape).Idx → α)
    (h : (⟨1, ![64]⟩ : Shape).ShapeCasts ⟨3, ![1, 1, 64]⟩) (u v : Fin 1) (cc : Fin 64) :
    shapeCast ⟨3, ![1, 1, 64]⟩ x h (ix3 u v cc) = x (ix1 cc) :=
  shapeCast_apply x h _ _ (by
    have hu : u.val = 0 := by omega
    have hv : v.val = 0 := by omega
    rw [Shape.rowMajor_val_three, Shape.rowMajor_val_one]
    show cc.val = (u.val * 1 + v.val) * 64 + cc.val
    omega)

/-- A [1, 1, 64] block viewed as [64] reads, at c, the block at (0, 0, c). -/
theorem cast_1x1x64_64 {α : Type} (x : (⟨3, ![1, 1, 64]⟩ : Shape).Idx → α)
    (h : (⟨3, ![1, 1, 64]⟩ : Shape).ShapeCasts ⟨1, ![64]⟩) (cc : Fin 64) :
    shapeCast ⟨1, ![64]⟩ x h (ix1 cc) = x (ix3 (0 : Fin 1) (0 : Fin 1) cc) :=
  shapeCast_apply x h _ _ (by
    rw [Shape.rowMajor_val_three, Shape.rowMajor_val_one]
    show (0 * 1 + 0) * 64 + cc.val = cc.val
    omega)

/-- The first running-sum payload at channel c: the reloaded block's entry plus the threefold sum of y at c. -/
theorem pay3_apply (v10 v31 : FVec Ideal S64x2x64x64 .f32) (v33 : FVec Ideal S64x2x64x1 .f32)
    (v46 : Vec Ideal S1x1x64 .f32) (cc : Fin 64) :
    k0_pay3 (F := Ideal) v10 v31 v33 v46 (ix3 (0 : Fin 1) (0 : Fin 1) cc)
      = v46 (ix3 (0 : Fin 1) (0 : Fin 1) cc)
        + ∑ e : Fin 2, ∑ hh : Fin 64, ∑ ww : Fin 64, k0_pay1 (F := Ideal) v10 v31 v33 (ix4 cc e hh ww) := by
  unfold k0_pay3
  dsimp only
  refine (cast_64_1x1x64 _ _ 0 0 cc).trans ?_
  refine (addf_apply _ _ _).trans ?_
  exact congrArg₂ (· + ·) (cast_1x1x64_64 v46 _ cc) (multiReduction_add_123 _ _ _ _ cc)

/-- The second running-sum payload at channel c: the reloaded block's entry plus the threefold sum of y * y at c. -/
theorem pay4_apply (v10 v31 : FVec Ideal S64x2x64x64 .f32) (v33 : FVec Ideal S64x2x64x1 .f32)
    (v53 : Vec Ideal S1x1x64 .f32) (cc : Fin 64) :
    k0_pay4 (F := Ideal) v10 v31 v33 v53 (ix3 (0 : Fin 1) (0 : Fin 1) cc)
      = v53 (ix3 (0 : Fin 1) (0 : Fin 1) cc)
        + ∑ e : Fin 2, ∑ hh : Fin 64, ∑ ww : Fin 64,
            k0_pay1 (F := Ideal) v10 v31 v33 (ix4 cc e hh ww) * k0_pay1 (F := Ideal) v10 v31 v33 (ix4 cc e hh ww) := by
  unfold k0_pay4
  dsimp only
  refine (cast_64_1x1x64 _ _ 0 0 cc).trans ?_
  refine (addf_apply _ _ _).trans ?_
  exact congrArg₂ (· + ·) (cast_1x1x64_64 v53 _ cc) (multiReduction_add_123 _ _ _ _ cc)

/-- When y is the array Y at batch b and depth pair n, the first payload adds that pair's sum of Y. -/
theorem pay3_blockSum (Y : T5) (b : Fin 8) (n : ℕ) (hn : n < 8) (v10 v31 : FVec Ideal S64x2x64x64 .f32)
    (v33 : FVec Ideal S64x2x64x1 .f32) (v46 : Vec Ideal S1x1x64 .f32)
    (hy : ∀ (cc : Fin 64) (e : Fin 2) (hh ww : Fin 64),
      k0_pay1 (F := Ideal) v10 v31 v33 (ix4 cc e hh ww) = Y b cc ⟨2 * n + e.val, by omega⟩ hh ww) (cc : Fin 64) :
    k0_pay3 (F := Ideal) v10 v31 v33 v46 (ix3 (0 : Fin 1) (0 : Fin 1) cc)
      = v46 (ix3 (0 : Fin 1) (0 : Fin 1) cc) + blockSum Y b cc n hn := by
  rw [pay3_apply]
  unfold blockSum
  exact congrArg (_ + ·) (Finset.sum_congr rfl fun e _ => Finset.sum_congr rfl fun hh _ =>
    Finset.sum_congr rfl fun ww _ => hy cc e hh ww)

/-- When y is the array Y at batch b and depth pair n, the second payload adds that pair's sum of the squares of Y. -/
theorem pay4_blockSum (Y : T5) (b : Fin 8) (n : ℕ) (hn : n < 8) (v10 v31 : FVec Ideal S64x2x64x64 .f32)
    (v33 : FVec Ideal S64x2x64x1 .f32) (v53 : Vec Ideal S1x1x64 .f32)
    (hy : ∀ (cc : Fin 64) (e : Fin 2) (hh ww : Fin 64),
      k0_pay1 (F := Ideal) v10 v31 v33 (ix4 cc e hh ww) = Y b cc ⟨2 * n + e.val, by omega⟩ hh ww) (cc : Fin 64) :
    k0_pay4 (F := Ideal) v10 v31 v33 v53 (ix3 (0 : Fin 1) (0 : Fin 1) cc)
      = v53 (ix3 (0 : Fin 1) (0 : Fin 1) cc) + blockSum (AttnNorm.sq Y) b cc n hn := by
  rw [pay4_apply]
  unfold blockSum AttnNorm.sq
  exact congrArg (_ + ·) (Finset.sum_congr rfl fun e _ => Finset.sum_congr rfl fun hh _ =>
    Finset.sum_congr rfl fun ww _ => by rw [hy cc e hh ww])

/-- The zero block the first point of a batch stores reads 0 everywhere. -/
theorem pay5_apply (j : S1x1x64.Idx) : k0_pay5 (F := Ideal) j = 0 := by
  unfold k0_pay5
  obtain ⟨u, v, cc, rfl⟩ : ∃ (u v : Fin 1) (cc : Fin 64), j = ix3 u v cc := ⟨j 0, j 1, j 2, eq_ix3 j⟩
  refine (cast_64_1x1x64 _ _ u v cc).trans ?_
  exact Ideal.ofBits_zero_f32

/-- The second zero block likewise. -/
theorem pay6_apply (j : S1x1x64.Idx) : k0_pay6 (F := Ideal) j = 0 := by
  unfold k0_pay6
  obtain ⟨u, v, cc, rfl⟩ : ∃ (u v : Fin 1) (cc : Fin 64), j = ix3 u v cc := ⟨j 0, j 1, j 2, eq_ix3 j⟩
  refine (cast_64_1x1x64 _ _ u v cc).trans ?_
  exact Ideal.ofBits_zero_f32

end Cert.KernelIdeal.Stats

end
-- ==== Proof.KStatsRun.lean ====
/-
  The running sums, point by point.

  The grid's 64 points run through the batches in order, eight depth pairs to a batch: point t works on batch t / 8
  and depth pair t % 8. The two running-sum blocks are kept from one point to the next inside a batch. At a batch's
  first pair the body puts zero plus the pair's channelwise sum (of y, of y * y) into them; at every later pair it
  adds that pair's sum to what the point before left. By induction on the point the blocks therefore hold, at channel
  c after point t, the running total of the sums of pairs 0 .. t % 8 of batch t / 8, taken in that order from zero.
-/
import proofs.«148977_j61701500174620_2_alg».proof.Proof.KStatsRunA
import proofs.«148977_j61701500174620_2_alg».proof.Proof.KStatsPay

noncomputable section

open scoped BigOperators

namespace Cert.KernelIdeal.Stats

open Idealize.ShloMosaic Idealize.ShloMosaic.ValueIdx Idealize.SL.Sem Cert.AttnNorm Cert.KernelIdeal Cert.KernelIdeal.Gen

variable (m : (ℓ : Loc nD τ sig) → Buf (Elt Ideal) ℓ) (ρ : Dev nD → PrngReg) (c : Dev nD)

/-- A point's batch is below 8. -/
theorem batch_lt (t : Fin cfg0.N) : t.val / 8 < 8 := by
  have := t.isLt; have : cfg0.N = 64 := N_0; omega

/-- The body's value y at every point is the array Y at the point's batch and depth pair. -/
def BodyIs (Y : T5) : Prop :=
  ∀ (t : Fin cfg0.N) (cc : Fin 64) (e : Fin 2) (hh ww : Fin 64),
    k0_pay1 (F := Ideal) (k0_pay7 (iblk0 (V0 m ρ) c 2 t)) (k0_pay8 (iblk0 (V0 m ρ) c 0 t) (iblk0 (V0 m ρ) c 1 t)) (k0_pay9 (iblk0 (V0 m ρ) c 0 t) (iblk0 (V0 m ρ) c 1 t)) (ix4 cc e hh ww)
      = Y ⟨t.val / 8, batch_lt t⟩ cc ⟨2 * (t.val % 8) + e.val, by omega⟩ hh ww

/-- The running total at a first pair is zero plus the pair's sum. -/
theorem acc1_first (Y : T5) (b : Fin 8) (cc : Fin 64) :
    ∀ (k : ℕ) (hk : k < 8), k = 0 → acc1 Y b cc k hk = 0 + blockSum Y b cc k hk
  | 0, _, _ => rfl
  | _ + 1, _, h => absurd h (Nat.succ_ne_zero _)

/-- The running total at a later pair is the total before plus the pair's sum. -/
theorem acc1_later (Y : T5) (b : Fin 8) (cc : Fin 64) :
    ∀ (k : ℕ) (hk : k < 8) (_ : ¬k = 0), acc1 Y b cc k hk = acc1 Y b cc (k - 1) (by omega) + blockSum Y b cc k hk
  | 0, _, h => absurd rfl h
  | _ + 1, _, _ => rfl

/-- The running total depends only on the values of its batch, channel and pair arguments. -/
theorem acc1_congr (Y : T5) {b b' : Fin 8} {cc cc' : Fin 64} {k k' : ℕ} (hb : b = b') (hc : cc = cc') (hk : k = k')
    (h : k < 8) (h' : k' < 8) : acc1 Y b cc k h = acc1 Y b' cc' k' h' := by
  subst hb; subst hc; subst hk; rfl

/-- At a batch's first depth pair the first running-sum block holds, at channel c, zero plus that pair's sum. -/
theorem step_A_4 (Y : T5) (hy : BodyIs m ρ c Y) (t : Fin cfg0.N) (h0 : t.val % 8 = 0) (cc : Fin 64) :
    (outsAt0 (V0 m ρ) c t.val t.isLt).2.1 (ix3 (0 : Fin 1) (0 : Fin 1) cc)
      = 0 + blockSum Y ⟨t.val / 8, batch_lt t⟩ cc (t.val % 8) (Nat.mod_lt _ (by decide)) := by
  rw [outsAt0_A (V0 m ρ) c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 (V0 m ρ) c 0 t) (iblk0 (V0 m ρ) c 1 t) (iblk0 (V0 m ρ) c 2 t)) (ix3 (0 : Fin 1) (0 : Fin 1) cc)).trans ?_
  refine (pay3_blockSum Y ⟨t.val / 8, batch_lt t⟩ (t.val % 8) (Nat.mod_lt _ (by decide)) (k0_pay7 (iblk0 (V0 m ρ) c 2 t)) (k0_pay8 (iblk0 (V0 m ρ) c 0 t) (iblk0 (V0 m ρ) c 1 t)) (k0_pay9 (iblk0 (V0 m ρ) c 0 t) (iblk0 (V0 m ρ) c 1 t)) (k0_pay5 (F := Ideal)) (hy t) cc).trans ?_
  rw [pay5_apply]

/-- At every other point it holds what the point before left plus this pair's sum. -/
theorem step_B_4 (Y : T5) (hy : BodyIs m ρ c Y) (t : Fin cfg0.N) (h0 : ¬t.val % 8 = 0) (cc : Fin 64) :
    (outsAt0 (V0 m ρ) c t.val t.isLt).2.1 (ix3 (0 : Fin 1) (0 : Fin 1) cc)
      = (outsAt0 (V0 m ρ) c (t.val - 1) (Nat.lt_of_le_of_lt (Nat.sub_le _ _) t.isLt)).2.1 (ix3 (0 : Fin 1) (0 : Fin 1) cc)
        + blockSum Y ⟨t.val / 8, batch_lt t⟩ cc (t.val % 8) (Nat.mod_lt _ (by decide)) := by
  rw [outsAt0_B (V0 m ρ) c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 (V0 m ρ) c 0 t) (iblk0 (V0 m ρ) c 1 t) (iblk0 (V0 m ρ) c 2 t) (outsAt0 (V0 m ρ) c (t.val - 1) (Nat.lt_of_le_of_lt (Nat.sub_le _ _) t.isLt)).2.1 (outsAt0 (V0 m ρ) c (t.val - 1) (Nat.lt_of_le_of_lt (Nat.sub_le _ _) t.isLt)).2.2) (ix3 (0 : Fin 1) (0 : Fin 1) cc)).trans ?_
  exact pay3_blockSum Y ⟨t.val / 8, batch_lt t⟩ (t.val % 8) (Nat.mod_lt _ (by decide)) (k0_pay7 (iblk0 (V0 m ρ) c 2 t)) (k0_pay8 (iblk0 (V0 m ρ) c 0 t) (iblk0 (V0 m ρ) c 1 t)) (k0_pay9 (iblk0 (V0 m ρ) c 0 t) (iblk0 (V0 m ρ) c 1 t)) (outsAt0 (V0 m ρ) c (t.val - 1) (Nat.lt_of_le_of_lt (Nat.sub_le _ _) t.isLt)).2.1 (hy t) cc

/-- So after point n the first running-sum block holds, at channel c, the running total of the batch's depth pairs up to n's. -/
theorem outs4_eq (Y : T5) (hy : BodyIs m ρ c Y) (cc : Fin 64) : ∀ (n : ℕ) (hn : n < cfg0.N),
    (outsAt0 (V0 m ρ) c n hn).2.1 (ix3 (0 : Fin 1) (0 : Fin 1) cc)
      = acc1 Y ⟨n / 8, batch_lt ⟨n, hn⟩⟩ cc (n % 8) (Nat.mod_lt _ (by decide))
  | 0, hn => (step_A_4 m ρ c Y hy ⟨0, hn⟩ rfl cc).trans (acc1_first Y _ cc _ _ rfl).symm
  | n + 1, hn => by
    by_cases h0 : (n + 1) % 8 = 0
    · exact (step_A_4 m ρ c Y hy ⟨n + 1, hn⟩ h0 cc).trans (acc1_first Y _ cc _ _ h0).symm
    · refine (step_B_4 m ρ c Y hy ⟨n + 1, hn⟩ h0 cc).trans ?_
      refine Eq.trans ?_ (acc1_later Y _ cc _ _ h0).symm
      refine congrArg (· + _) ?_
      refine (outs4_eq Y hy cc n (Nat.lt_of_succ_lt hn)).trans ?_
      exact acc1_congr Y (Fin.ext (by show n / 8 = (n + 1) / 8; omega)) rfl (by omega) _ _

/-- At a batch's first depth pair the second running-sum block holds, at channel c, zero plus that pair's sum. -/
theorem step_A_5 (Y : T5) (hy : BodyIs m ρ c Y) (t : Fin cfg0.N) (h0 : t.val % 8 = 0) (cc : Fin 64) :
    (outsAt0 (V0 m ρ) c t.val t.isLt).2.2 (ix3 (0 : Fin 1) (0 : Fin 1) cc)
      = 0 + blockSum (AttnNorm.sq Y) ⟨t.val / 8, batch_lt t⟩ cc (t.val % 8) (Nat.mod_lt _ (by decide)) := by
  rw [outsAt0_A (V0 m ρ) c t h0]
  dsimp only
  refine (congrFun (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 (V0 m ρ) c 0 t) (iblk0 (V0 m ρ) c 1 t) (iblk0 (V0 m ρ) c 2 t)) (ix3 (0 : Fin 1) (0 : Fin 1) cc)).trans ?_
  refine (pay4_blockSum Y ⟨t.val / 8, batch_lt t⟩ (t.val % 8) (Nat.mod_lt _ (by decide)) (k0_pay7 (iblk0 (V0 m ρ) c 2 t)) (k0_pay8 (iblk0 (V0 m ρ) c 0 t) (iblk0 (V0 m ρ) c 1 t)) (k0_pay9 (iblk0 (V0 m ρ) c 0 t) (iblk0 (V0 m ρ) c 1 t)) (k0_pay6 (F := Ideal)) (hy t) cc).trans ?_
  rw [pay6_apply]

/-- At every other point it holds what the point before left plus this pair's sum. -/
theorem step_B_5 (Y : T5) (hy : BodyIs m ρ c Y) (t : Fin cfg0.N) (h0 : ¬t.val % 8 = 0) (cc : Fin 64) :
    (outsAt0 (V0 m ρ) c t.val t.isLt).2.2 (ix3 (0 : Fin 1) (0 : Fin 1) cc)
      = (outsAt0 (V0 m ρ) c (t.val - 1) (Nat.lt_of_le_of_lt (Nat.sub_le _ _) t.isLt)).2.2 (ix3 (0 : Fin 1) (0 : Fin 1) cc)
        + blockSum (AttnNorm.sq Y) ⟨t.val / 8, batch_lt t⟩ cc (t.val % 8) (Nat.mod_lt _ (by decide)) := by
  rw [outsAt0_B (V0 m ρ) c t h0]
  dsimp only
  refine (congrFun (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 (V0 m ρ) c 0 t) (iblk0 (V0 m ρ) c 1 t) (iblk0 (V0 m ρ) c 2 t) (outsAt0 (V0 m ρ) c (t.val - 1) (Nat.lt_of_le_of_lt (Nat.sub_le _ _) t.isLt)).2.1 (outsAt0 (V0 m ρ) c (t.val - 1) (Nat.lt_of_le_of_lt (Nat.sub_le _ _) t.isLt)).2.2) (ix3 (0 : Fin 1) (0 : Fin 1) cc)).trans ?_
  exact pay4_blockSum Y ⟨t.val / 8, batch_lt t⟩ (t.val % 8) (Nat.mod_lt _ (by decide)) (k0_pay7 (iblk0 (V0 m ρ) c 2 t)) (k0_pay8 (iblk0 (V0 m ρ) c 0 t) (iblk0 (V0 m ρ) c 1 t)) (k0_pay9 (iblk0 (V0 m ρ) c 0 t) (iblk0 (V0 m ρ) c 1 t)) (outsAt0 (V0 m ρ) c (t.val - 1) (Nat.lt_of_le_of_lt (Nat.sub_le _ _) t.isLt)).2.2 (hy t) cc

/-- So after point n the second running-sum block holds, at channel c, the running total of the batch's depth pairs up to n's. -/
theorem outs5_eq (Y : T5) (hy : BodyIs m ρ c Y) (cc : Fin 64) : ∀ (n : ℕ) (hn : n < cfg0.N),
    (outsAt0 (V0 m ρ) c n hn).2.2 (ix3 (0 : Fin 1) (0 : Fin 1) cc)
      = acc1 (AttnNorm.sq Y) ⟨n / 8, batch_lt ⟨n, hn⟩⟩ cc (n % 8) (Nat.mod_lt _ (by decide))
  | 0, hn => (step_A_5 m ρ c Y hy ⟨0, hn⟩ rfl cc).trans (acc1_first (AttnNorm.sq Y) _ cc _ _ rfl).symm
  | n + 1, hn => by
    by_cases h0 : (n + 1) % 8 = 0
    · exact (step_A_5 m ρ c Y hy ⟨n + 1, hn⟩ h0 cc).trans (acc1_first (AttnNorm.sq Y) _ cc _ _ h0).symm
    · refine (step_B_5 m ρ c Y hy ⟨n + 1, hn⟩ h0 cc).trans ?_
      refine Eq.trans ?_ (acc1_later (AttnNorm.sq Y) _ cc _ _ h0).symm
      refine congrArg (· + _) ?_
      refine (outs5_eq Y hy cc n (Nat.lt_of_succ_lt hn)).trans ?_
      exact acc1_congr (AttnNorm.sq Y) (Fin.ext (by show n / 8 = (n + 1) / 8; omega)) rfl (by omega) _ _

end Cert.KernelIdeal.Stats

end
-- ==== Proof.KStatsArr4.lean ====
/-
  From the points to the array: the batchwise totals of y.

  The running-sum window has one [1, 1, 64] block per batch b, at block index (b, 0, 0) of its [8, 1, 64] array. The
  block is written back only after the batch's last point, t = 8 b + 7, when it holds at channel c the running total
  of all eight depth pairs of batch b: the batch's total of y at c. The eight blocks tile the array, so after the
  run the array holds, at (b, 0, c), the total of y over all depths, rows and columns at batch b and channel c, as
  the eight depth pairs' running total from zero.
-/
import proofs.«148977_j61701500174620_2_alg».proof.Proof.KStatsRun

noncomputable section

open scoped BigOperators

namespace Cert.KernelIdeal.Stats

open Idealize.ShloMosaic Idealize.ShloMosaic.ValueIdx Idealize.SL.Sem Cert.AttnNorm Cert.KernelIdeal Cert.KernelIdeal.Gen
open Idealize.ShloMosaic.Pipeline (Dat)

variable (m : (ℓ : Loc nD τ sig) → Buf (Elt Ideal) ℓ) (ρ : Dev nD → PrngReg) (c : Dev nD)

/-- The batchwise totals of Y as an [8, 1, 64] array. -/
def sumArr (Y : T5) : S8x1x64.Idx → EReal := fun i => sum1 Y (i 0) (i 2)

/-- Window 4's block index at point t: the batch on axis 0, zero on the other two. -/
theorem idx4 : ∀ t : Fin cfg0.N, win0_4.index t (0 : Fin 3) = t.val / 8 ∧ win0_4.index t (1 : Fin 3) = 0
    ∧ win0_4.index t (2 : Fin 3) = 0 :=
  (by decide +kernel : ∀ t : Fin grid0.N, _)

/-- What a batch's last point writes back is that batch's row of the batchwise totals of y. -/
theorem flushed4_eq (Y : T5) (hy : BodyIs m ρ c Y) (t : Fin cfg0.N) (hf : (cfg0.win 4).flush t = true) :
    (dat0 (V0 m ρ) c).flushed 4 t = ((cfg0.win 4).blk t).view.read (Elt Ideal) (sumArr Y) := by
  have h7 : t.val % 8 = 7 := (flush0_4 t).mp hf
  obtain ⟨e0, e1, e2⟩ := idx4 t
  show (cfg0.win 4).cut (grid0.coords t) ((dat0 (V0 m ρ) c).after 4 t) = _
  rw [after0_4]
  funext y
  rw [View.read_apply]
  obtain ⟨u, v, cc, rfl⟩ : ∃ (u v : Fin 1) (cc : Fin 64), y = ix3 u v cc := ⟨y 0, y 1, y 2, eq_ix3 y⟩
  obtain rfl : u = 0 := Subsingleton.elim _ _
  obtain rfl : v = 0 := Subsingleton.elim _ _
  refine (outs4_eq m ρ c Y hy cc t.val t.isLt).trans ?_
  show _ = sum1 Y _ _
  unfold sum1
  refine acc1_congr Y (Fin.ext ?_) (Fin.ext ?_) h7 _ _
  · show t.val / 8 = win0_4.index t (0 : Fin 3) * 1 + 1 * 0
    rw [e0]; omega
  · show cc.val = win0_4.index t (2 : Fin 3) * 64 + 1 * cc.val
    rw [e2]; omega

/-- An index of the [8, 1, 64] array is in point t's block iff each coordinate is in the block's range on its axis. -/
theorem mem_blk4 (t : Fin cfg0.N) (i : S8x1x64.Idx) :
    i ∈ ((cfg0.win 4).blk t).view.set ↔ ∀ a : Fin 3, win0_4.index t a * S1x1x64.size a ≤ (i a).val ∧ (i a).val < win0_4.index t a * S1x1x64.size a + S1x1x64.size a := by
  show i ∈ ((View.whole main_v0_1).slice (win0_4.rect t)).set ↔ _
  rw [View.set_slice_whole, Rect.mem_set_unit]
  exact Iff.rfl

/-- Every index of the array is in the block of its batch's last point, which writes back. -/
theorem cover4 (i : S8x1x64.Idx) :
    ∃ t : Fin cfg0.N, (cfg0.win 4).flush t = true ∧ i ∈ ((cfg0.win 4).blk t).view.set := by
  have hN : cfg0.N = 64 := N_0
  have hi0 : (i 0).val < 8 := (i 0).isLt
  have hi1 : (i 1).val < 1 := (i 1).isLt
  have hi2 : (i 2).val < 64 := (i 2).isLt
  have ht : 8 * (i 0).val + 7 < cfg0.N := by omega
  obtain ⟨e0, e1, e2⟩ := idx4 ⟨8 * (i 0).val + 7, ht⟩
  refine ⟨⟨8 * (i 0).val + 7, ht⟩, (flush0_4 _).mpr (by show (8 * (i 0).val + 7) % 8 = 7; omega), ?_⟩
  rw [mem_blk4]
  intro a
  match a with
  | ⟨0, _⟩ =>
    show win0_4.index ⟨8 * (i 0).val + 7, ht⟩ (0 : Fin 3) * 1 ≤ (i 0).val ∧ (i 0).val < win0_4.index ⟨8 * (i 0).val + 7, ht⟩ (0 : Fin 3) * 1 + 1
    rw [e0]; dsimp only; omega
  | ⟨1, _⟩ =>
    show win0_4.index ⟨8 * (i 0).val + 7, ht⟩ (1 : Fin 3) * 1 ≤ (i 1).val ∧ (i 1).val < win0_4.index ⟨8 * (i 0).val + 7, ht⟩ (1 : Fin 3) * 1 + 1
    rw [e1]; omega
  | ⟨2, _⟩ =>
    show win0_4.index ⟨8 * (i 0).val + 7, ht⟩ (2 : Fin 3) * 64 ≤ (i 2).val ∧ (i 2).val < win0_4.index ⟨8 * (i 0).val + 7, ht⟩ (2 : Fin 3) * 64 + 64
    rw [e2]; omega

/-- So after the run window 4's array holds the batchwise totals of y. -/
theorem final4 (Y : T5) (hy : BodyIs m ρ c Y) : (dat0 (V0 m ρ) c).arrAt 4 cfg0.N = sumArr Y :=
  (dat0 (V0 m ρ) c).arrAt_eq_of_cover 4 (sumArr Y) (flushed4_eq m ρ c Y hy) cover4

/-- After the attention region, the first running-sum array holds at (b, 0, c) the total of Y at batch b and channel
    c, whenever the body's value at each point is Y at the point's batch and depth pair. -/
theorem sum_array (Y : T5)
    (hy : ∀ (t : Fin cfg0.N) (cc : Fin 64) (e : Fin 2) (hh ww : Fin 64),
      k0_pay1 (F := Ideal) (k0_pay7 (iblk0 (V0 m ρ) c 2 t)) (k0_pay8 (iblk0 (V0 m ρ) c 0 t) (iblk0 (V0 m ρ) c 1 t))
        (k0_pay9 (iblk0 (V0 m ρ) c 0 t) (iblk0 (V0 m ρ) c 1 t)) (ix4 cc e hh ww)
      = Y ⟨t.val / 8, by have := t.isLt; have : cfg0.N = 64 := N_0; omega⟩ cc ⟨2 * (t.val % 8) + e.val, by omega⟩ hh ww)
    (b : Fin 8) (c' : Fin 64) :
    (dat0 (V0 m ρ) c).arrAt 4 cfg0.N (ix3 b 0 c') = sum1 Y b c' :=
  congrFun (final4 m ρ c Y hy) (ix3 b 0 c')

end Cert.KernelIdeal.Stats

end
-- ==== Proof.KStatsArr5.lean ====
/-
  From the points to the array: the batchwise totals of y * y.

  The running-sum window has one [1, 1, 64] block per batch b, at block index (b, 0, 0) of its [8, 1, 64] array. The
  block is written back only after the batch's last point, t = 8 b + 7, when it holds at channel c the running total
  of all eight depth pairs of batch b: the batch's total of y * y at c. The eight blocks tile the array, so after the
  run the array holds, at (b, 0, c), the total of y * y over all depths, rows and columns at batch b and channel c, as
  the eight depth pairs' running total from zero.
-/
import proofs.«148977_j61701500174620_2_alg».proof.Proof.KStatsRun

noncomputable section

open scoped BigOperators

namespace Cert.KernelIdeal.Stats

open Idealize.ShloMosaic Idealize.ShloMosaic.ValueIdx Idealize.SL.Sem Cert.AttnNorm Cert.KernelIdeal Cert.KernelIdeal.Gen
open Idealize.ShloMosaic.Pipeline (Dat)

variable (m : (ℓ : Loc nD τ sig) → Buf (Elt Ideal) ℓ) (ρ : Dev nD → PrngReg) (c : Dev nD)

/-- The batchwise totals of the squares of Y as an [8, 1, 64] array. -/
def sumsqArr (Y : T5) : S8x1x64.Idx → EReal := fun i => sum1 (AttnNorm.sq Y) (i 0) (i 2)

/-- Window 5's block index at point t: the batch on axis 0, zero on the other two. -/
theorem idx5 : ∀ t : Fin cfg0.N, win0_5.index t (0 : Fin 3) = t.val / 8 ∧ win0_5.index t (1 : Fin 3) = 0
    ∧ win0_5.index t (2 : Fin 3) = 0 :=
  (by decide +kernel : ∀ t : Fin grid0.N, _)

/-- What a batch's last point writes back is that batch's row of the batchwise totals of y * y. -/
theorem flushed5_eq (Y : T5) (hy : BodyIs m ρ c Y) (t : Fin cfg0.N) (hf : (cfg0.win 5).flush t = true) :
    (dat0 (V0 m ρ) c).flushed 5 t = ((cfg0.win 5).blk t).view.read (Elt Ideal) (sumsqArr Y) := by
  have h7 : t.val % 8 = 7 := (flush0_5 t).mp hf
  obtain ⟨e0, e1, e2⟩ := idx5 t
  show (cfg0.win 5).cut (grid0.coords t) ((dat0 (V0 m ρ) c).after 5 t) = _
  rw [after0_5]
  funext y
  rw [View.read_apply]
  obtain ⟨u, v, cc, rfl⟩ : ∃ (u v : Fin 1) (cc : Fin 64), y = ix3 u v cc := ⟨y 0, y 1, y 2, eq_ix3 y⟩
  obtain rfl : u = 0 := Subsingleton.elim _ _
  obtain rfl : v = 0 := Subsingleton.elim _ _
  refine (outs5_eq m ρ c Y hy cc t.val t.isLt).trans ?_
  show _ = sum1 (AttnNorm.sq Y) _ _
  unfold sum1
  refine acc1_congr (AttnNorm.sq Y) (Fin.ext ?_) (Fin.ext ?_) h7 _ _
  · show t.val / 8 = win0_5.index t (0 : Fin 3) * 1 + 1 * 0
    rw [e0]; omega
  · show cc.val = win0_5.index t (2 : Fin 3) * 64 + 1 * cc.val
    rw [e2]; omega

/-- An index of the [8, 1, 64] array is in point t's block iff each coordinate is in the block's range on its axis. -/
theorem mem_blk5 (t : Fin cfg0.N) (i : S8x1x64.Idx) :
    i ∈ ((cfg0.win 5).blk t).view.set ↔ ∀ a : Fin 3, win0_5.index t a * S1x1x64.size a ≤ (i a).val ∧ (i a).val < win0_5.index t a * S1x1x64.size a + S1x1x64.size a := by
  show i ∈ ((View.whole main_v0_2).slice (win0_5.rect t)).set ↔ _
  rw [View.set_slice_whole, Rect.mem_set_unit]
  exact Iff.rfl

/-- Every index of the array is in the block of its batch's last point, which writes back. -/
theorem cover5 (i : S8x1x64.Idx) :
    ∃ t : Fin cfg0.N, (cfg0.win 5).flush t = true ∧ i ∈ ((cfg0.win 5).blk t).view.set := by
  have hN : cfg0.N = 64 := N_0
  have hi0 : (i 0).val < 8 := (i 0).isLt
  have hi1 : (i 1).val < 1 := (i 1).isLt
  have hi2 : (i 2).val < 64 := (i 2).isLt
  have ht : 8 * (i 0).val + 7 < cfg0.N := by omega
  obtain ⟨e0, e1, e2⟩ := idx5 ⟨8 * (i 0).val + 7, ht⟩
  refine ⟨⟨8 * (i 0).val + 7, ht⟩, (flush0_5 _).mpr (by show (8 * (i 0).val + 7) % 8 = 7; omega), ?_⟩
  rw [mem_blk5]
  intro a
  match a with
  | ⟨0, _⟩ =>
    show win0_5.index ⟨8 * (i 0).val + 7, ht⟩ (0 : Fin 3) * 1 ≤ (i 0).val ∧ (i 0).val < win0_5.index ⟨8 * (i 0).val + 7, ht⟩ (0 : Fin 3) * 1 + 1
    rw [e0]; dsimp only; omega
  | ⟨1, _⟩ =>
    show win0_5.index ⟨8 * (i 0).val + 7, ht⟩ (1 : Fin 3) * 1 ≤ (i 1).val ∧ (i 1).val < win0_5.index ⟨8 * (i 0).val + 7, ht⟩ (1 : Fin 3) * 1 + 1
    rw [e1]; omega
  | ⟨2, _⟩ =>
    show win0_5.index ⟨8 * (i 0).val + 7, ht⟩ (2 : Fin 3) * 64 ≤ (i 2).val ∧ (i 2).val < win0_5.index ⟨8 * (i 0).val + 7, ht⟩ (2 : Fin 3) * 64 + 64
    rw [e2]; omega

/-- So after the run window 5's array holds the batchwise totals of y * y. -/
theorem final5 (Y : T5) (hy : BodyIs m ρ c Y) : (dat0 (V0 m ρ) c).arrAt 5 cfg0.N = sumsqArr Y :=
  (dat0 (V0 m ρ) c).arrAt_eq_of_cover 5 (sumsqArr Y) (flushed5_eq m ρ c Y hy) cover5

/-- After the attention region, the second running-sum array holds at (b, 0, c) the total of the squares of Y at
    batch b and channel c, whenever the body's value at each point is Y at the point's batch and depth pair. -/
theorem sumsq_array (Y : T5)
    (hy : ∀ (t : Fin cfg0.N) (cc : Fin 64) (e : Fin 2) (hh ww : Fin 64),
      k0_pay1 (F := Ideal) (k0_pay7 (iblk0 (V0 m ρ) c 2 t)) (k0_pay8 (iblk0 (V0 m ρ) c 0 t) (iblk0 (V0 m ρ) c 1 t))
        (k0_pay9 (iblk0 (V0 m ρ) c 0 t) (iblk0 (V0 m ρ) c 1 t)) (ix4 cc e hh ww)
      = Y ⟨t.val / 8, by have := t.isLt; have : cfg0.N = 64 := N_0; omega⟩ cc ⟨2 * (t.val % 8) + e.val, by omega⟩ hh ww)
    (b : Fin 8) (c' : Fin 64) :
    (dat0 (V0 m ρ) c).arrAt 5 cfg0.N (ix3 b 0 c') = sum1 (AttnNorm.sq Y) b c' :=
  congrFun (final5 m ρ c Y hy) (ix3 b 0 c')

end Cert.KernelIdeal.Stats

end
-- ==== Proof.KTailRun.lean ====
/-
  The whole program's run, with its result named.

  The program is four stretches in order: the first tiled region, the host operations between the regions, the second
  tiled region, and one closing host reshape. Each stretch takes the contents of every buffer at its entry to named
  contents at its exit, so the contents after the last stretch are a fold through the four; the result buffer ends at
  that fold's value and each of the five argument buffers ends as it was launched, since nothing writes an argument.
  Every weakly fair execution terminates in such a state.
-/
import proofs.«148977_j61701500174620_2_alg».proof.Proof.Gen.KernelIdeal.Frame

set_option maxRecDepth 16384

noncomputable section

namespace Cert.KernelIdeal.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program on the cores terminates, and in every final state the result buffer
    holds the contents folded through the four stretches while the five argument buffers hold what they were launched with. -/
theorem run_value : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Tail

end
-- ==== Proof.KTailHostStat.lean ====
/-
  The per-channel statistics computed between the two tiled regions, as functions of the arrays they are computed
  from, read at one channel.

  From the batchwise sums s[b, 0, c] (an [8, 1, 64] array) the mean of channel c is (0 + the sum over the eight
  batches of s[b, 0, c]) divided by the entry count. With the batchwise sums of y and of y squared, the variance is the
  mean of squares less the squared mean; the scale of the channel is gamma[c] times the reciprocal square root of
  (variance + offset), and the shift is beta[c] less mean times scale. Stored as [64, 1] columns, the scale and the
  shift sit at row c, column 0. All of it holds on the extended reals with no side condition: each step is read
  entry by entry.
-/
import proofs.«148977_j61701500174620_2_alg».proof.Proof.Gen.KernelIdeal
import proofs.«148977_j61701500174620_2_alg».proof.Proof.Spec
import Idealize.ShloMosaic.Lib.IdealHost
import Idealize.ShloMosaic.Lib.Pipeline.Value

noncomputable section

open scoped BigOperators

namespace Cert.KernelIdeal.Tail

open Idealize.ShloMosaic Idealize.ShloMosaic.ValueIdx Cert.AttnNorm Cert.KernelIdeal Cert.KernelIdeal.Gen

/-- The channel means from batchwise sums: the sums viewed [8, 64], added over the batch axis from zero, divided by the count. -/
def meanV (s : FVec Ideal S8x1x64 .f32) : FVec Ideal S64 .f32 :=
  Host.divf (Host.reduceAdd (F := Ideal) (shapeCast S8x64 s shapeCasts_S8x1x64_S8x64) (constant (F := Ideal) S_ .f32 0x00000000#32) reducesTo_S8x64_S64_d0 h_S_)
    (broadcastInDim S64 ![] bcast_S_S64 (constant (F := Ideal) S_ .f32 0x49000000#32))

/-- The channel scales: gamma times the reciprocal square root of (mean of squares - squared mean + offset). -/
def scaleV (s1 s2 : FVec Ideal S8x1x64 .f32) (g : FVec Ideal S64 .f32) : FVec Ideal S64 .f32 :=
  mulf g (Host.rsqrt (addf (subf (meanV s2) (mulf (meanV s1) (meanV s1)))
    (broadcastInDim S64 ![] bcast_S_S64 (constant (F := Ideal) S_ .f32 0x3727C5AC#32))))

/-- The channel shifts: beta less mean times scale. -/
def shiftV (s1 s2 : FVec Ideal S8x1x64 .f32) (g bt : FVec Ideal S64 .f32) : FVec Ideal S64 .f32 :=
  subf bt (mulf (meanV s1) (scaleV s1 s2 g))

/-- The [8, 1, 64] sums viewed [8, 64] read (b, c) at (b, 0, c). -/
theorem sums_view_apply (s : FVec Ideal S8x1x64 .f32) (b : Fin 8) (c' : Fin 64) :
    shapeCast S8x64 s shapeCasts_S8x1x64_S8x64 (ix2 b c') = s (ix3 b 0 c') := by
  refine shapeCast_apply s shapeCasts_S8x1x64_S8x64 (ix2 b c') (ix3 b 0 c') ?_
  rw [Shape.rowMajor_val_three, Shape.rowMajor_val_two]
  show (b.val * 1 + 0) * 64 + c'.val = b.val * 64 + c'.val
  omega

/-- The mean of channel c is (0 + the sum over batches of the batchwise sum at c) over the count. -/
theorem meanV_apply (s : FVec Ideal S8x1x64 .f32) (c' : Fin 64) :
    meanV s (ix1 c') = Ideal.div (0 + ∑ b : Fin 8, s (ix3 b 0 c')) cntN := by
  unfold meanV cntN
  rw [hostDivf_apply, hostReduceAdd_apply, broadcastInDim_scalar_apply, constant_apply, constant_apply,
    Ideal.hostReduceAdd_single reducesTo_S8x64_S64_d0 (by decide : S8x64.Reduces [0] S64), Ideal.ofBits_zero_f32]
  refine congrArg (fun x => Ideal.div (0 + x) _) ?_
  exact Finset.sum_congr rfl fun b _ => sums_view_apply s b c'

/-- With the batchwise sums of y and of y squared, the scale at channel c is gamma[c] over the standard deviation. -/
theorem scaleV_apply (s1 s2 : FVec Ideal S8x1x64 .f32) (g : FVec Ideal S64 .f32) (Y : T5)
    (h1 : ∀ b c', s1 (ix3 b 0 c') = sum1 Y b c') (h2 : ∀ b c', s2 (ix3 b 0 c') = sum1 (sq Y) b c') (c' : Fin 64) :
    scaleV s1 s2 g (ix1 c') = scaleK Y (cur1 g) c' := by
  have e1 : meanV s1 (ix1 c') = meanK Y c' := by rw [meanV_apply]; unfold meanK; simp only [h1]
  have e2 : meanV s2 (ix1 c') = msqK Y c' := by rw [meanV_apply]; unfold msqK; simp only [h2]
  show g (ix1 c') * Ideal.rsqrt ((meanV s2 (ix1 c') - meanV s1 (ix1 c') * meanV s1 (ix1 c')) + Ideal.ofBits .f32 0x3727C5AC#32) = _
  rw [e1, e2]
  rfl

/-- With the same sums, the shift at channel c is beta[c] less mean times scale. -/
theorem shiftV_apply (s1 s2 : FVec Ideal S8x1x64 .f32) (g bt : FVec Ideal S64 .f32) (Y : T5)
    (h1 : ∀ b c', s1 (ix3 b 0 c') = sum1 Y b c') (h2 : ∀ b c', s2 (ix3 b 0 c') = sum1 (sq Y) b c') (c' : Fin 64) :
    shiftV s1 s2 g bt (ix1 c') = shiftK Y (cur1 g) (cur1 bt) c' := by
  have e1 : meanV s1 (ix1 c') = meanK Y c' := by rw [meanV_apply]; unfold meanK; simp only [h1]
  show bt (ix1 c') - meanV s1 (ix1 c') * scaleV s1 s2 g (ix1 c') = _
  rw [e1, scaleV_apply s1 s2 g Y h1 h2 c']
  rfl

/-- A [64] vector stored as a [64, 1] column reads (c, 0) at c. -/
theorem column_apply (v : FVec Ideal S64 .f32) (c' : Fin 64) :
    shapeCast S64x1 v shapeCasts_S64_S64x1 (ix2 c' 0) = v (ix1 c') := by
  refine shapeCast_apply v shapeCasts_S64_S64x1 (ix2 c' 0) (ix1 c') ?_
  rw [Shape.rowMajor_val_one, Shape.rowMajor_val_two]
  show c'.val = c'.val * 1 + 0
  omega

/-- The [8, 64, 16, 64, 64] array viewed [8, 64, 65536] reads (b, c, n) at (b, c, d, h, w) when n = (d * 64 + h) * 64 + w. -/
theorem flat_apply (a : FVec Ideal S8x64x16x64x64 .f32) (b : Fin 8) (c' : Fin 64) (d : Fin 16) (h w : Fin 64)
    (n : Fin 65536) (hn : n.val = (d.val * 64 + h.val) * 64 + w.val) :
    shapeCast S8x64x65536 a shapeCasts_S8x64x16x64x64_S8x64x65536 (ix3 b c' n) = a (ix5 b c' d h w) := by
  refine shapeCast_apply a shapeCasts_S8x64x16x64x64_S8x64x65536 (ix3 b c' n) (ix5 b c' d h w) ?_
  rw [Shape.rowMajor_val_five, Shape.rowMajor_val_three]
  show (((b.val * 64 + c'.val) * 16 + d.val) * 64 + h.val) * 64 + w.val = (b.val * 64 + c'.val) * 65536 + n.val
  omega

/-- The [8, 64, 65536] array viewed [8, 64, 16, 64, 64] reads (b, c, d, h, w) at (b, c, n) when n = (d * 64 + h) * 64 + w. -/
theorem unflat_apply (a : FVec Ideal S8x64x65536 .f32) (b : Fin 8) (c' : Fin 64) (d : Fin 16) (h w : Fin 64)
    (n : Fin 65536) (hn : n.val = (d.val * 64 + h.val) * 64 + w.val) :
    shapeCast S8x64x16x64x64 a shapeCasts_S8x64x65536_S8x64x16x64x64 (ix5 b c' d h w) = a (ix3 b c' n) := by
  refine shapeCast_apply a shapeCasts_S8x64x65536_S8x64x16x64x64 (ix5 b c' d h w) (ix3 b c' n) ?_
  rw [Shape.rowMajor_val_five, Shape.rowMajor_val_three]
  show (b.val * 64 + c'.val) * 65536 + n.val = (((b.val * 64 + c'.val) * 16 + d.val) * 64 + h.val) * 64 + w.val
  omega

end Cert.KernelIdeal.Tail

end
-- ==== Proof.KTailHostScale.lean ====
/-
  The scale column between the two tiled regions, as one function of the first region's sum arrays and gamma.

  Unfolding the host steps between the regions at the scale column's buffer: the two sum arrays are viewed [8, 64]
  and added over the batch axis from zero, divided by the entry count to give the mean and the mean of squares; the
  variance is their difference with the squared mean; gamma times the reciprocal square root of (variance + offset)
  is the scale vector, stored as a [64, 1] column.
-/
import proofs.«148977_j61701500174620_2_alg».proof.Proof.Gen.KernelIdeal.Frame
import proofs.«148977_j61701500174620_2_alg».proof.Proof.KTailHostStat

noncomputable section

namespace Cert.KernelIdeal.Tail

open Idealize.ShloMosaic Idealize.ShloMosaic.ValueIdx Idealize.SL.Sem Cert.AttnNorm
open Cert.KernelIdeal Cert.KernelIdeal.Gen

variable (m : (ℓ : Loc nD τ sig) → Buf (Elt Ideal) ℓ) (ρ : Dev nD → PrngReg) (c : Dev nD)

set_option maxHeartbeats 400000 in
/-- The scale column is the scale vector of the first region's two sum arrays and gamma, stored [64, 1]. -/
theorem scale_term : (V2 m ρ c main_v17 : S64x1.Idx → EReal)
    = shapeCast S64x1 (scaleV (W1 m ρ c (Proc.devRef .tc main_v0_1)) (W1 m ρ c (Proc.devRef .tc main_v0_2))
        (W1 m ρ c (Proc.devRef .tc main_arg3))) shapeCasts_S64_S64x1 := by
  show StableHlo.after hostOps1 (W1 m ρ c) (Proc.devRef .tc main_v17) = _
  after_results
  rfl

end Cert.KernelIdeal.Tail

end
-- ==== Proof.KTailHostShift.lean ====
/-
  The shift column between the two tiled regions, as one function of the first region's sum arrays, gamma and beta.

  Unfolding the host steps between the regions at the shift column's buffer: beta less (mean times scale), the mean
  and the scale computed from the two sum arrays and gamma as for the scale column, stored as a [64, 1] column.
-/
import proofs.«148977_j61701500174620_2_alg».proof.Proof.Gen.KernelIdeal.Frame
import proofs.«148977_j61701500174620_2_alg».proof.Proof.KTailHostStat

noncomputable section

namespace Cert.KernelIdeal.Tail

open Idealize.ShloMosaic Idealize.ShloMosaic.ValueIdx Idealize.SL.Sem Cert.AttnNorm
open Cert.KernelIdeal Cert.KernelIdeal.Gen

variable (m : (ℓ : Loc nD τ sig) → Buf (Elt Ideal) ℓ) (ρ : Dev nD → PrngReg) (c : Dev nD)

set_option maxHeartbeats 800000 in
/-- The shift column is the shift vector of the first region's two sum arrays, gamma and beta, stored [64, 1]. -/
theorem shift_term : (V2 m ρ c main_v18 : S64x1.Idx → EReal)
    = shapeCast S64x1 (shiftV (W1 m ρ c (Proc.devRef .tc main_v0_1)) (W1 m ρ c (Proc.devRef .tc main_v0_2))
        (W1 m ρ c (Proc.devRef .tc main_arg3)) (W1 m ρ c (Proc.devRef .tc main_arg4))) shapeCasts_S64_S64x1 := by
  show StableHlo.after hostOps1 (W1 m ρ c) (Proc.devRef .tc main_v18) = _
  after_results
  rfl

end Cert.KernelIdeal.Tail

end
-- ==== Proof.KTailHostFlat.lean ====
/-
  The flat view of y between the two tiled regions.

  The only host step that writes this buffer is the view of the first region's [8, 64, 16, 64, 64] result array as
  [8, 64, 65536]; every other step leaves it alone.
-/
import proofs.«148977_j61701500174620_2_alg».proof.Proof.Gen.KernelIdeal.Frame
import proofs.«148977_j61701500174620_2_alg».proof.Proof.KTailHostStat

noncomputable section

namespace Cert.KernelIdeal.Tail

open Idealize.ShloMosaic Idealize.ShloMosaic.ValueIdx Idealize.SL.Sem Cert.AttnNorm
open Cert.KernelIdeal Cert.KernelIdeal.Gen

variable (m : (ℓ : Loc nD τ sig) → Buf (Elt Ideal) ℓ) (ρ : Dev nD → PrngReg) (c : Dev nD)

set_option maxHeartbeats 400000 in
/-- The flat view of y is the first region's result array viewed [8, 64, 65536]. -/
theorem flat_term : (V2 m ρ c main_v19 : S8x64x65536.Idx → EReal)
    = shapeCast S8x64x65536 (W1 m ρ c (Proc.devRef .tc main_v0_0)) shapeCasts_S8x64x16x64x64_S8x64x65536 := by
  show StableHlo.after hostOps1 (W1 m ρ c) (Proc.devRef .tc main_v19) = _
  after_results
  rfl

end Cert.KernelIdeal.Tail

end
-- ==== Proof.KTailHost.lean ====
/-
  The scale column, the shift column and the flat view of y between the two tiled regions, read at an index, given
  what the first region's three result arrays hold.

  If the first region's result array is y and its two sum arrays hold, at (b, 0, c), the sums of y and of y squared
  over batch b of channel c, then between the regions the scale column holds at (c, 0) the number gamma[c] over the
  standard deviation of channel c, the shift column holds at (c, 0) the number beta[c] less mean times scale, and the
  flat [8, 64, 65536] view holds at (b, c, (d * 64 + h) * 64 + w) the entry y[b, c, d, h, w]. Gamma and beta are the
  launched arrays: nothing before the second region writes them.
-/
import proofs.«148977_j61701500174620_2_alg».proof.Proof.KArgs
import proofs.«148977_j61701500174620_2_alg».proof.Proof.KTailHostScale
import proofs.«148977_j61701500174620_2_alg».proof.Proof.KTailHostShift
import proofs.«148977_j61701500174620_2_alg».proof.Proof.KTailHostFlat

noncomputable section

namespace Cert.KernelIdeal.Tail

open Idealize.ShloMosaic Idealize.ShloMosaic.ValueIdx Idealize.SL.Sem Cert.AttnNorm
open Cert.KernelIdeal Cert.KernelIdeal.Gen Cert.KernelIdeal.Args

variable (m : (ℓ : Loc nD τ sig) → Buf (Elt Ideal) ℓ) (ρ : Dev nD → PrngReg) (c : Dev nD)

/-- After the first region gamma is still the launched array. -/
theorem gamma_kept : (W1 m ρ c (Proc.devRef .tc main_arg3) : S64.Idx → EReal) = m ((c.tc : Thread nD τ).loc main_arg3) :=
  (W1_of_ne m ρ c main_arg3 (by decide)).trans rfl

/-- After the first region beta is still the launched array. -/
theorem beta_kept : (W1 m ρ c (Proc.devRef .tc main_arg4) : S64.Idx → EReal) = m ((c.tc : Thread nD τ).loc main_arg4) :=
  (W1_of_ne m ρ c main_arg4 (by decide)).trans rfl

/-- The scale column at row c is gamma[c] over the standard deviation of channel c. -/
theorem scale_at (Y : T5)
    (h1 : ∀ b c', (dat0 (V0 m ρ) c).arrAt 4 cfg0.N (ix3 b 0 c') = sum1 Y b c')
    (h2 : ∀ b c', (dat0 (V0 m ρ) c).arrAt 5 cfg0.N (ix3 b 0 c') = sum1 (sq Y) b c') (c' : Fin 64) :
    V2 m ρ c main_v17 (ix2 c' 0) = scaleK Y (Gm m c) c' := by
  refine (congrFun (scale_term m ρ c) (ix2 c' 0)).trans ?_
  refine (column_apply _ c').trans ?_
  refine (scaleV_apply _ _ _ Y ?_ ?_ c').trans ?_
  · intro b c''; exact (congrFun (W1_arr m ρ c 4) (ix3 b 0 c'')).trans (h1 b c'')
  · intro b c''; exact (congrFun (W1_arr m ρ c 5) (ix3 b 0 c'')).trans (h2 b c'')
  · exact congrArg (fun g => scaleK Y (cur1 g) c') (gamma_kept m ρ c)

/-- The shift column at row c is beta[c] less mean times scale. -/
theorem shift_at (Y : T5)
    (h1 : ∀ b c', (dat0 (V0 m ρ) c).arrAt 4 cfg0.N (ix3 b 0 c') = sum1 Y b c')
    (h2 : ∀ b c', (dat0 (V0 m ρ) c).arrAt 5 cfg0.N (ix3 b 0 c') = sum1 (sq Y) b c') (c' : Fin 64) :
    V2 m ρ c main_v18 (ix2 c' 0) = shiftK Y (Gm m c) (Bt m c) c' := by
  refine (congrFun (shift_term m ρ c) (ix2 c' 0)).trans ?_
  refine (column_apply _ c').trans ?_
  refine (shiftV_apply _ _ _ _ Y ?_ ?_ c').trans ?_
  · intro b c''; exact (congrFun (W1_arr m ρ c 4) (ix3 b 0 c'')).trans (h1 b c'')
  · intro b c''; exact (congrFun (W1_arr m ρ c 5) (ix3 b 0 c'')).trans (h2 b c'')
  · exact (congrArg (fun g => shiftK Y (cur1 g) (cur1 (W1 m ρ c (Proc.devRef .tc main_arg4))) c') (gamma_kept m ρ c)).trans
      (congrArg (fun g => shiftK Y (Gm m c) (cur1 g) c') (beta_kept m ρ c))

/-- The flat view at (b, c, n) is y at (b, c, d, h, w) when n = (d * 64 + h) * 64 + w. -/
theorem flat_at (Y : T5)
    (hY : ∀ b c' d h w, (dat0 (V0 m ρ) c).arrAt 3 cfg0.N (ix5 b c' d h w) = Y b c' d h w)
    (b : Fin 8) (c' : Fin 64) (d : Fin 16) (h w : Fin 64) (n : Fin 65536) (hn : n.val = (d.val * 64 + h.val) * 64 + w.val) :
    V2 m ρ c main_v19 (ix3 b c' n) = Y b c' d h w := by
  refine (congrFun (flat_term m ρ c) (ix3 b c' n)).trans ?_
  refine (flat_apply _ b c' d h w n hn).trans ?_
  exact (congrFun (W1_arr m ρ c 3) (ix5 b c' d h w)).trans (hY b c' d h w)

end Cert.KernelIdeal.Tail

end
-- ==== Proof.KTailBodyPay.lean ====
/-
  The second region's arithmetic at one entry of a block.

  A block is a [1, 64, 32768] slab y of the flat view, with the whole scale and shift columns sc, sh of extents [64, 1].
  The body views the slab [64, 32768], spreads each column along the rows, forms z = y * sc + sh and stores
  z * logistic z, viewed [1, 64, 32768] again. So at entry (0, r, q) of the block the stored value is z * logistic z
  with z = y[0, r, q] * sc[r, 0] + sh[r, 0].
-/
import proofs.«148977_j61701500174620_2_alg».proof.Proof.Gen.KernelIdeal.Skeleton
import proofs.«148977_j61701500174620_2_alg».proof.Proof.Spec
import Idealize.ShloMosaic.Lib.Pipeline.Value

noncomputable section

namespace Cert.KernelIdeal.Tail

open Idealize.ShloMosaic Idealize.ShloMosaic.ValueIdx Cert.AttnNorm Cert.KernelIdeal Cert.KernelIdeal.Gen

/-- The slab viewed [64, 32768] reads (r, q) at (0, r, q). -/
theorem slab_view_apply (x0 : FVec Ideal S1x64x32768 .f32) (r : Fin 64) (q : Fin 32768) :
    shapeCast S64x32768 x0 shapeCasts_S1x64x32768_S64x32768 (ix2 r q) = x0 (ix3 0 r q) := by
  refine shapeCast_apply x0 shapeCasts_S1x64x32768_S64x32768 (ix2 r q) (ix3 0 r q) ?_
  rw [Shape.rowMajor_val_three, Shape.rowMajor_val_two]
  show (0 * 64 + r.val) * 32768 + q.val = r.val * 32768 + q.val
  omega

/-- A [64, 1] column spread along the rows reads (r, q) at (r, 0). -/
theorem column_spread_apply (x : FVec Ideal S64x1 .f32) (r : Fin 64) (q : Fin 32768) :
    broadcastTo S64x32768 (shapeCast S64x1 x shapeCasts_S64x1_S64x1) broadcasts_S64x1_S64x32768 (ix2 r q) = x (ix2 r 0) := by
  rw [shapeCast_self]
  refine broadcastTo_apply x broadcasts_S64x1_S64x32768 (ix2 r q) (ix2 r 0) fun a => ?_
  match a with
  | ⟨0, _⟩ => rfl
  | ⟨1, _⟩ => rfl

/-- The logistic of a vector at an entry is the logistic of the entry. -/
theorem logistic_apply {s : Shape} {φ : FTy} (a : FVec Ideal s φ) (i : s.Idx) : logistic a i = Ideal.logistic (a i) := rfl

/-- The stored block at (0, r, q) is z * logistic z for z = y[0, r, q] * sc[r, 0] + sh[r, 0]. -/
theorem pay_apply (x0 : FVec Ideal S1x64x32768 .f32) (x1 x2 : FVec Ideal S64x1 .f32) (r : Fin 64) (q : Fin 32768) :
    k1_pay1 (F := Ideal) x0 x1 x2 (ix3 0 r q) = swish (x0 (ix3 0 r q) * x1 (ix2 r 0) + x2 (ix2 r 0)) := by
  unfold k1_pay1
  refine (shapeCast_apply _ shapeCasts_S64x32768_S1x64x32768 (ix3 0 r q) (ix2 r q) ?_).trans ?_
  · rw [Shape.rowMajor_val_three, Shape.rowMajor_val_two]
    show r.val * 32768 + q.val = (0 * 64 + r.val) * 32768 + q.val
    omega
  have hz : addf (mulf (shapeCast S64x32768 x0 shapeCasts_S1x64x32768_S64x32768)
        (broadcastTo S64x32768 (shapeCast S64x1 x1 shapeCasts_S64x1_S64x1) broadcasts_S64x1_S64x32768))
      (broadcastTo S64x32768 (shapeCast S64x1 x2 shapeCasts_S64x1_S64x1) broadcasts_S64x1_S64x32768) (ix2 r q)
      = x0 (ix3 0 r q) * x1 (ix2 r 0) + x2 (ix2 r 0) := by
    rw [addf_apply, mulf_apply, slab_view_apply, column_spread_apply, column_spread_apply]
  rw [mulf_apply, logistic_apply, hz]
  rfl

end Cert.KernelIdeal.Tail

end
-- ==== Proof.KTailBodyArr.lean ====
/-
  The second region's result array as one function of what the region finds.

  The region walks a grid of 8 x 2 points; at point t it takes the [1, 64, 32768] slab of the flat y at block
  (t / 2, 0, t % 2), with the whole scale and shift columns, and writes the same slab of the result. By the body's
  arithmetic each slab written is the slab of one function of the whole arrays: at flat index (b, c, n) the number
  z * logistic z with z = y[b, c, n] * scale[c, 0] + shift[c, 0]. The sixteen slabs cover the array (entry (b, c, n)
  lies in the slab of point 2 b + n / 32768), so after the region the result array is that function everywhere.
-/
import proofs.«148977_j61701500174620_2_alg».proof.Proof.Gen.KernelIdeal.Frame
import proofs.«148977_j61701500174620_2_alg».proof.Proof.KTailBodyPay

noncomputable section

namespace Cert.KernelIdeal.Tail

open Idealize.ShloMosaic Idealize.ShloMosaic.ValueIdx Idealize.SL.Sem Cert.AttnNorm
open Cert.KernelIdeal Cert.KernelIdeal.Gen
open Idealize.ShloMosaic.Pipeline (Dat)

variable (m : (ℓ : Loc nD τ sig) → Buf (Elt Ideal) ℓ) (ρ : Dev nD → PrngReg) (c : Dev nD)

/-- The channel of a flat index. -/
def chan (i : S8x64x65536.Idx) : Fin 64 := ⟨(i 1).val, (i 1).isLt⟩

/-- z * logistic z of z = a * s + t. -/
def gate (a s t : EReal) : EReal := swish (a * s + t)

/-- The result of the second region as one function of the flat y and the two columns: z * logistic z for z = y * scale + shift, the scale and shift of the entry's channel. -/
def outFlat (y : S8x64x65536.Idx → EReal) (sc sh : S64x1.Idx → EReal) : S8x64x65536.Idx → EReal :=
  fun i => swish (y i * sc (ix2 (chan i) 0) + sh (ix2 (chan i) 0))

/-- Three zero offsets. -/
theorem hz3 : (![0, 0, 0] : Fin 3 → Nat) = fun _ => 0 := funext fun a => by fin_cases a <;> rfl
/-- Two zero offsets. -/
theorem hz2 : (![0, 0] : Fin 2 → Nat) = fun _ => 0 := funext fun a => by fin_cases a <;> rfl

/-- The block indices over the grid: the y block and the result block sit at (t / 2, 0, t % 2); the columns' one block at (0, 0). -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_3.index t (0 : Fin 3) = t.val / 2 ∧ win1_3.index t (1 : Fin 3) = 0 ∧ win1_3.index t (2 : Fin 3) = t.val % 2
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

set_option maxHeartbeats 400000 in
/-- What point t writes back is the slab at t of the one function of the arrays the region finds. -/
theorem flushed_eq (t : Fin cfg1.N) :
    (dat1 (V2 m ρ) c).flushed 3 t = ((cfg1.win 3).blk t).view.read (Elt Ideal)
      (outFlat (V2 m ρ c main_v19) (V2 m ρ c main_v17) (V2 m ρ c main_v18)) := by
  show (cfg1.win 3).cut (grid1.coords t) ((dat1 (V2 m ρ) c).after 3 t) = _
  rw [after1_3]
  unfold out1_3
  rw [View.canon_unit_zero hz3]
  simp only [View.ld_unit_zero (S := S1x64x32768) hz3, View.ld_unit_zero (S := S64x1) hz2]
  refine funext fun (j : S1x64x32768.Idx) => ?_
  obtain ⟨p, r, q, rfl⟩ : ∃ (p : Fin 1) (r : Fin 64) (q : Fin 32768), j = ix3 p r q := ⟨j 0, j 1, j 2, eq_ix3 j⟩
  obtain rfl : p = 0 := Subsingleton.elim _ _
  show k1_pay1 (F := Ideal) (iblk1 (V2 m ρ) c 0 t) (iblk1 (V2 m ρ) c 1 t) (iblk1 (V2 m ρ) c 2 t) (ix3 0 r q)
      = outFlat (V2 m ρ c main_v19) (V2 m ρ c main_v17) (V2 m ρ c main_v18) (((cfg1.win 3).blk t).view.emb (ix3 0 r q))
  refine (pay_apply (iblk1 (V2 m ρ) c 0 t) (iblk1 (V2 m ρ) c 1 t) (iblk1 (V2 m ρ) c 2 t) r q).trans ?_
  obtain ⟨e0, e1, e2, e3, e4, e5, e6, e7, e8, e9⟩ := idx_facts t
  have h0 : ((cfg1.win 0).blk t).view.emb (ix3 0 r q) = ((cfg1.win 3).blk t).view.emb (ix3 0 r q) := by
    funext a; apply Fin.ext
    match a with
    | ⟨0, _⟩ => show win1_0.index t (0 : Fin 3) * 1 + 1 * 0 = win1_3.index t (0 : Fin 3) * 1 + 1 * 0; omega
    | ⟨1, _⟩ => show win1_0.index t (1 : Fin 3) * 64 + 1 * r.val = win1_3.index t (1 : Fin 3) * 64 + 1 * r.val; omega
    | ⟨2, _⟩ => show win1_0.index t (2 : Fin 3) * 32768 + 1 * q.val = win1_3.index t (2 : Fin 3) * 32768 + 1 * q.val; omega
  have h1 : ((cfg1.win 1).blk t).view.emb (ix2 r 0) = ix2 (chan (((cfg1.win 3).blk t).view.emb (ix3 0 r q))) 0 := by
    funext a; apply Fin.ext
    match a with
    | ⟨0, _⟩ => show win1_1.index t (0 : Fin 2) * 64 + 1 * r.val = win1_3.index t (1 : Fin 3) * 64 + 1 * r.val; omega
    | ⟨1, _⟩ => show win1_1.index t (1 : Fin 2) * 1 + 1 * 0 = 0; omega
  have h2 : ((cfg1.win 2).blk t).view.emb (ix2 r 0) = ix2 (chan (((cfg1.win 3).blk t).view.emb (ix3 0 r q))) 0 := by
    funext a; apply Fin.ext
    match a with
    | ⟨0, _⟩ => show win1_2.index t (0 : Fin 2) * 64 + 1 * r.val = win1_3.index t (1 : Fin 3) * 64 + 1 * r.val; omega
    | ⟨1, _⟩ => show win1_2.index t (1 : Fin 2) * 1 + 1 * 0 = 0; omega
  show gate (V2 m ρ c main_v19 (((cfg1.win 0).blk t).view.emb (ix3 0 r q)))
        (V2 m ρ c main_v17 (((cfg1.win 1).blk t).view.emb (ix2 r 0)))
        (V2 m ρ c main_v18 (((cfg1.win 2).blk t).view.emb (ix2 r 0)))
      = gate (V2 m ρ c main_v19 (((cfg1.win 3).blk t).view.emb (ix3 0 r q)))
        (V2 m ρ c main_v17 (ix2 (chan (((cfg1.win 3).blk t).view.emb (ix3 0 r q))) 0))
        (V2 m ρ c main_v18 (ix2 (chan (((cfg1.win 3).blk t).view.emb (ix3 0 r q))) 0))
  rw [h0, h1, h2]

/-- A flat index is in point t's slab iff each coordinate is in the slab's range on its axis. -/
theorem mem_blk (t : Fin cfg1.N) (i : S8x64x65536.Idx) :
    i ∈ ((cfg1.win 3).blk t).view.set ↔ ∀ a : Fin 3, win1_3.index t a * S1x64x32768.size a ≤ (i a).val
      ∧ (i a).val < win1_3.index t a * S1x64x32768.size a + S1x64x32768.size a := by
  show i ∈ ((View.whole main_v20).slice (win1_3.rect t)).set ↔ _
  rw [View.set_slice_whole, Rect.mem_set_unit]
  exact Iff.rfl

/-- Every flat index lies in the slab some point writes back: (b, c, n) in that of point 2 b + n / 32768. -/
theorem cover (i : S8x64x65536.Idx) :
    ∃ t : Fin cfg1.N, (cfg1.win 3).flush t = true ∧ i ∈ ((cfg1.win 3).blk t).view.set := by
  have hi0 : (i 0).val < 8 := (i 0).isLt
  have hi1 : (i 1).val < 64 := (i 1).isLt
  have hi2 : (i 2).val < 65536 := (i 2).isLt
  have hN : cfg1.N = 16 := N_1
  obtain ⟨t, ht⟩ : ∃ t : Fin cfg1.N, t.val = (i 0).val * 2 + (i 2).val / 32768 := ⟨⟨_, by omega⟩, rfl⟩
  obtain ⟨-, -, -, e3, e4, e5, -⟩ := idx_facts t
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 64 ≤ (i 1).val ∧ (i 1).val < win1_3.index t (1 : Fin 3) * 64 + 64; omega
  | ⟨2, _⟩ => show win1_3.index t (2 : Fin 3) * 32768 ≤ (i 2).val ∧ (i 2).val < win1_3.index t (2 : Fin 3) * 32768 + 32768; omega

/-- After the second region its result array is the one function of the arrays it found. -/
theorem out_array : (dat1 (V2 m ρ) c).arrAt 3 cfg1.N
    = outFlat (V2 m ρ c main_v19) (V2 m ρ c main_v17) (V2 m ρ c main_v18) :=
  (dat1 (V2 m ρ) c).arrAt_eq_of_cover 3 _ (fun t _ => flushed_eq m ρ c t) (cover)

end Cert.KernelIdeal.Tail

end
-- ==== Proof.KTailOut.lean ====
/-
  The program's result at an index.

  The closing host step views the second region's [8, 64, 65536] result array as [8, 64, 16, 64, 64]: entry
  (b, c, d, h, w) of the result is entry (b, c, (d * 64 + h) * 64 + w) of that array. By the second region's value this
  is z * logistic z with z = y * scale + shift read at that flat index and at channel c, and by the values between the
  regions y there is y[b, c, d, h, w], the scale is gamma[c] over the standard deviation of channel c and the shift is
  beta[c] less mean times scale. So the result is the normalised-and-gated value of the specification, whenever the
  first region's three result arrays hold y and the batchwise sums of y and of y squared.
-/
import proofs.«148977_j61701500174620_2_alg».proof.Proof.KTailHost
import proofs.«148977_j61701500174620_2_alg».proof.Proof.KTailBodyArr

noncomputable section

namespace Cert.KernelIdeal.Tail

open Idealize.ShloMosaic Idealize.ShloMosaic.ValueIdx Idealize.SL.Sem Cert.AttnNorm
open Cert.KernelIdeal Cert.KernelIdeal.Gen Cert.KernelIdeal.Args

variable (m : (ℓ : Loc nD τ sig) → Buf (Elt Ideal) ℓ) (ρ : Dev nD → PrngReg) (c : Dev nD)

set_option maxHeartbeats 400000 in
/-- The result buffer is the second region's result array viewed [8, 64, 16, 64, 64]. -/
theorem result_term : (W4 m ρ c (Proc.devRef .tc main_v21) : S8x64x16x64x64.Idx → EReal)
    = shapeCast S8x64x16x64x64 (W3 m ρ c (Proc.devRef .tc main_v20)) shapeCasts_S8x64x65536_S8x64x16x64x64 := by
  show StableHlo.after hostOps2 (W3 m ρ c) (Proc.devRef .tc main_v21) = _
  after_results
  rfl

/-- The result at (b, c, d, h, w) is the specification's value through scale and shift, given the first region's arrays. -/
theorem out_value (Y : T5)
    (hY : ∀ b c' d h w, (dat0 (V0 m ρ) c).arrAt 3 cfg0.N (ix5 b c' d h w) = Y b c' d h w)
    (h1 : ∀ b c', (dat0 (V0 m ρ) c).arrAt 4 cfg0.N (ix3 b 0 c') = sum1 Y b c')
    (h2 : ∀ b c', (dat0 (V0 m ρ) c).arrAt 5 cfg0.N (ix3 b 0 c') = sum1 (sq Y) b c')
    (b : Fin 8) (c' : Fin 64) (d : Fin 16) (h w : Fin 64) :
    W4 m ρ c (Proc.devRef .tc main_v21) (ix5 b c' d h w) = outK Y (Gm m c) (Bt m c) b c' d h w := by
  have hlt : (d.val * 64 + h.val) * 64 + w.val < 65536 := by
    have := d.isLt; have := h.isLt; have := w.isLt; omega
  refine (congrFun (result_term m ρ c) (ix5 b c' d h w)).trans ?_
  refine (unflat_apply _ b c' d h w ⟨(d.val * 64 + h.val) * 64 + w.val, hlt⟩ rfl).trans ?_
  refine (congrFun (W3_arr m ρ c 3) (ix3 b c' ⟨(d.val * 64 + h.val) * 64 + w.val, hlt⟩)).trans ?_
  refine (congrFun (out_array m ρ c) (ix3 b c' ⟨(d.val * 64 + h.val) * 64 + w.val, hlt⟩)).trans ?_
  show gate (V2 m ρ c main_v19 (ix3 b c' ⟨(d.val * 64 + h.val) * 64 + w.val, hlt⟩)) (V2 m ρ c main_v17 (ix2 c' 0))
    (V2 m ρ c main_v18 (ix2 c' 0)) = _
  rw [flat_at m ρ c Y hY b c' d h w ⟨(d.val * 64 + h.val) * 64 + w.val, hlt⟩ rfl, scale_at m ρ c Y h1 h2 c',
    shift_at m ρ c Y h1 h2 c']
  rfl

end Cert.KernelIdeal.Tail

end
-- ==== Proof.lean ====
/-
  A fused attention-and-normalisation kernel against its array-level reference, on the extended reals.

  Both programs take q, k, v of extents [8, 64, 16, 64, 64] and per-channel γ, β of extent [64], all finite. For every
  (batch, channel, depth) they form the 64×64 scores of q's rows against k's columns, turn each row into softmax
  weights (subtract the row's maximum, exponentiate, divide by the row's sum), apply the weights to v and add v: call
  the result y. Then y is normalised per channel over its 524288 = 8·16·64·64 entries — mean μ, variance σ², offset
  ε ≈ 1e-5 — scaled by γ, shifted by β, and the value z so obtained is returned as z · logistic z.

  The two differ in three places, none of which changes the value on real entries:
  * the kernel splits each score's inner product into three, the second against k - k and the third from q - q (a
    high/low split of the factors whose low halves vanish when no rounding happens); on real entries these two extra
    inner products are zero;
  * the kernel takes the channel sums of y and y² batch by batch and depth pair by depth pair from a running total
    (first pass over an 8 × 8 grid), adds the eight batches afterwards and uses σ² = (∑ y²)/N - μ², while the
    reference sums over the whole channel and uses σ² = (∑ (y - μ)²)/N; these agree because ∑ (y - μ)² =
    ∑ y² - 2μ ∑ y + N μ² and ∑ y = N μ;
  * the kernel applies z = y · (γ/σ) + (β - μ · γ/σ) (second pass, entrywise over the flattened array), the reference
    z = ((y - μ)/σ) · γ + β; with σ² + ε > 0 a real number these are one real expression.
  The reals are needed exactly here: q - q = 0, the variance identity and the rearrangement of z fail at infinities,
  so the finiteness of the inputs is used, and it propagates: real scores have a real row maximum, positive real
  exponentials with a positive real sum, real weights and a real y.

  The modules: Spec (the formulas), Alg* (the three facts above), Finite (the precondition read as "every entry is
  real"), RefRun* / RefRead* (the reference's run and its result read at an entry), KAttn* (the first pass's y at an
  entry), KStats* (its running sums), KTail* (the kernel's run, the arithmetic between the passes and the second pass
  read at an entry). Below, the five claims are assembled from them.
-/
import proofs.«148977_j61701500174620_2_alg».proof.Defs
import proofs.«148977_j61701500174620_2_alg».proof.Proof.Gen.Kernel.Frame
import proofs.«148977_j61701500174620_2_alg».proof.Proof.Gen.KernelIdeal.Frame
import proofs.«148977_j61701500174620_2_alg».proof.Proof.Gen.ReferenceIdeal
import proofs.«148977_j61701500174620_2_alg».proof.Proof.Gen.Pre_finite_inputs
import proofs.«148977_j61701500174620_2_alg».proof.Proof.Spec
import proofs.«148977_j61701500174620_2_alg».proof.Proof.KArgs
import proofs.«148977_j61701500174620_2_alg».proof.Proof.AlgMain
import proofs.«148977_j61701500174620_2_alg».proof.Proof.Finite
import proofs.«148977_j61701500174620_2_alg».proof.Proof.RefRun
import proofs.«148977_j61701500174620_2_alg».proof.Proof.RefRead
import proofs.«148977_j61701500174620_2_alg».proof.Proof.KAttnArr
import proofs.«148977_j61701500174620_2_alg».proof.Proof.KStatsArr4
import proofs.«148977_j61701500174620_2_alg».proof.Proof.KStatsArr5
import proofs.«148977_j61701500174620_2_alg».proof.Proof.KTailRun
import proofs.«148977_j61701500174620_2_alg».proof.Proof.KTailOut
import Idealize.ShloMosaic.PureOps.IdealRules

noncomputable section

/-! ## The claims -/

namespace Cert.Proof

open Idealize.ShloMosaic Idealize.ShloMosaic.ValueIdx Idealize.SL.Sem Cert.AttnNorm

/-- The word-level program runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized program runs and keeps its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- The two removed round trips through the narrower format: each is the identity on the extended reals and the
    stated relation on words. -/
theorem preserves : Cert.preserves_Kernel_KernelIdeal :=
  ⟨IdealRules.truncf_extf.statement _ .f32 .bf16, IdealRules.truncf_extf.statement _ .f32 .bf16⟩

/-- From memories agreeing on finite arguments the two programs end with one result array: the kernel's is the
    scale-and-shift form over the three-product score, the reference's the deviation form over the inner-product
    score, and on real entries these are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W4 m ρ c (Proc.devRef .tc Cert.KernelIdeal.main_v21), Cert.KernelIdeal.Tail.run_value (F := Ideal) m ρ, ?_⟩
  refine (θ_run Cert.ReferenceIdeal.defs _ _).mono (fun r h c => ⟨(h c).1.trans ?_, (h c).2⟩)
    (Cert.ReferenceIdeal.RefValue.run m' ρ')
  obtain ⟨hq, hk, hv, hg, hb⟩ := Cert.Pre_finite_inputs.Finite.real_of_pre _ _ _ _ _ (hpre c)
  rw [(hagree c).1, (hagree c).2.1, (hagree c).2.2.1, (hagree c).2.2.2.1, (hagree c).2.2.2.2]
  beta_reduce
  funext i
  obtain ⟨b, c', d, h, w, rfl⟩ : ∃ (b : Fin 8) (c' : Fin 64) (d : Fin 16) (h w : Fin 64), i = ix5 b c' d h w :=
    ⟨i 0, i 1, i 2, i 3, i 4, eq_ix5 i⟩
  rw [Cert.ReferenceIdeal.RefValue.result_apply,
    Cert.KernelIdeal.Tail.out_value m ρ c _ (Cert.KernelIdeal.Attn.y_array m ρ c)
      (Cert.KernelIdeal.Stats.sum_array m ρ c _ (Cert.KernelIdeal.Attn.block_y m ρ c))
      (Cert.KernelIdeal.Stats.sumsq_array m ρ c _ (Cert.KernelIdeal.Attn.block_y m ρ c))]
  exact (congrFun (congrFun (congrFun (congrFun (congrFun
    (outK_eq_outR _ _ _ _ _ (fun b c d h w => hq _) (fun b c d h w => hk _) (fun b c d h w => hv _) (fun c => hg _) (fun c => hb _))
    b) c') d) h) w).symm

end Cert.Proof

/-- Every claim of the certificate. -/
theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
